-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x10 : Shape := ⟨2, ![800000, 10]⟩
abbrev S266x128 : Shape := ⟨2, ![266, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x10 : S_.BroadcastsInDim S800000x10 (![] : Fin 0 → Fin S800000x10.rank)
  reducesTo_S800000x10_S_d0_1 : S800000x10.ReducesTo [0, 1] S_
  bcast_S_S266x128 : S_.BroadcastsInDim S266x128 (![] : Fin 0 → Fin S266x128.rank)
  reducesTo_S266x128_S_d0_1 : S266x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S266x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S266x128 .f32 := Host.absf main_arg5
  let main_cst_6 : FVec F S_ .f32 := constant S_ .f32 0x7F800000#32
  let main_v20 : FVec F S266x128 .f32 := broadcastInDim S266x128 ![] bcast_S_S266x128 main_cst_6
  let main_v21 : IVec S266x128 1 := cmpf .olt main_v19 main_v20
  let main_c_7 : IVec S_ 1 := constantI S_ 1 1#1
  let main_v22 : IVec S_ 1 := (fun x v => Host.reduce IntOp.andi x v reducesTo_S266x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x10 .f32) (main_arg3 : FVec F S266x128 .f32) (main_arg4 : FVec F S128 .f32) (main_arg5 : FVec F S266x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x10 .f32 := Host.absf main_arg2
  let main_cst_0 : FVec F S_ .f32 := constant S_ .f32 0x7F800000#32
  let main_v5 : FVec F S800000x10 .f32 := broadcastInDim S800000x10 ![] bcast_S_S800000x10 main_cst_0
  let main_v6 : IVec S800000x10 1 := cmpf .olt main_v4 main_v5
  let main_c_1 : IVec S_ 1 := constantI S_ 1 1#1
  let main_v7 : IVec S_ 1 := (fun x v => Host.reduce IntOp.andi x v reducesTo_S800000x10_S_d0_1 h_S_) main_v6 main_c_1
  let main_v8 : IVec S_ 1 := andi main_v3 main_v7
  let main_v9 : FVec F S266x128 .f32 := Host.absf main_arg3
  let main_cst_2 : FVec F S_ .f32 := constant S_ .f32 0x7F800000#32
  let main_v10 : FVec F S266x128 .f32 := broadcastInDim S266x128 ![] bcast_S_S266x128 main_cst_2
  let main_v11 : IVec S266x128 1 := cmpf .olt main_v9 main_v10
  let main_c_3 : IVec S_ 1 := constantI S_ 1 1#1
  let main_v12 : IVec S_ 1 := (fun x v => Host.reduce IntOp.andi x v reducesTo_S266x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x10 : Shape := ⟨2, ![800000, 10]⟩
abbrev S266x128 : Shape := ⟨2, ![266, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S802816x128 : Shape := ⟨2, ![802816, 128]⟩
abbrev S802816x10 : Shape := ⟨2, ![802816, 10]⟩
abbrev S802816 : Shape := ⟨1, ![802816]⟩
abbrev S1x128 : Shape := ⟨2, ![1, 128]⟩
abbrev S4096x128 : Shape := ⟨2, ![4096, 128]⟩
abbrev S4096x10 : Shape := ⟨2, ![4096, 10]⟩
abbrev S128x128 : Shape := ⟨2, ![128, 128]⟩
abbrev S10x128 : Shape := ⟨2, ![10, 128]⟩
abbrev S802816x1 : Shape := ⟨2, ![802816, 1]⟩
abbrev S53248x128 : Shape := ⟨2, ![53248, 128]⟩

abbrev nBuf : Space → Nat
  | .hbm => 98
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x10, .f32⟩
  | .hbm, ⟨3, _⟩ => ⟨S266x128, .f32⟩
  | .hbm, ⟨4, _⟩ => ⟨S128, .f32⟩
  | .hbm, ⟨5, _⟩ => ⟨S266x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .bf16⟩
  | .hbm, ⟨32, _⟩ => ⟨S800000x10, .bf16⟩
  | .hbm, ⟨33, _⟩ => ⟨S_, .i32⟩
  | .hbm, ⟨34, _⟩ => ⟨S_, .bf16⟩
  | .hbm, ⟨35, _⟩ => ⟨S802816x128, .bf16⟩
  | .hbm, ⟨36, _⟩ => ⟨S_, .i32⟩
  | .hbm, ⟨37, _⟩ => ⟨S_, .bf16⟩
  | .hbm, ⟨38, _⟩ => ⟨S802816x128, .bf16⟩
  | .hbm, ⟨39, _⟩ => ⟨S_, .i32⟩
  | .hbm, ⟨40, _⟩ => ⟨S_, .bf16⟩
  | .hbm, ⟨41, _⟩ => ⟨S802816x10, .bf16⟩
  | .hbm, ⟨42, _⟩ => ⟨S_, .i32⟩
  | .hbm, ⟨43, _⟩ => ⟨S_, .i32⟩
  | .hbm, ⟨44, _⟩ => ⟨S802816, .i32⟩
  | .hbm, ⟨45, _⟩ => ⟨S1x128, .f32⟩
  | .hbm, ⟨46, _⟩ => ⟨S1x128, .f32⟩
  | .hbm, ⟨47, _⟩ => ⟨S802816x128, .bf16⟩
  | .hbm, ⟨48, _⟩ => ⟨S802816x128, .f32⟩
  | .hbm, ⟨49, _⟩ => ⟨S_, .f32⟩
  | .hbm, ⟨50, _⟩ => ⟨S50000x128, .f32⟩
  | .hbm, ⟨51, _⟩ => ⟨S802816x1, .i32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S_, .i32⟩
  | .hbm, ⟨91, _⟩ => ⟨S_, .f32⟩
  | .hbm, ⟨92, _⟩ => ⟨S53248x128, .f32⟩
  | .hbm, ⟨93, _⟩ => ⟨S_, .i32⟩
  | .hbm, ⟨94, _⟩ => ⟨S_, .f32⟩
  | .hbm, ⟨95, _⟩ => ⟨S53248x128, .f32⟩
  | .hbm, ⟨96, _⟩ => ⟨S53248x128, .f32⟩
  | .hbm, ⟨97, _⟩ => ⟨S50000x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x10, .bf16⟩
  | .local _ .vmem, ⟨5, _⟩ => ⟨S4096x10, .bf16⟩
  | .local _ .vmem, ⟨6, _⟩ => ⟨S266x128, .f32⟩
  | .local _ .vmem, ⟨7, _⟩ => ⟨S1x128, .f32⟩
  | .local _ .vmem, ⟨8, _⟩ => ⟨S266x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S1x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_call0_v0 : Ref sig .tc := ⟨.hbm, 34, rfl⟩
abbrev main_v20 : Ref sig .tc := ⟨.hbm, 35, rfl⟩
abbrev main_c_4 : Ref sig .tc := ⟨.hbm, 36, rfl⟩
abbrev main_call1_v0 : Ref sig .tc := ⟨.hbm, 37, rfl⟩
abbrev main_v21 : Ref sig .tc := ⟨.hbm, 38, rfl⟩
abbrev main_c_5 : Ref sig .tc := ⟨.hbm, 39, rfl⟩
abbrev main_call2_v0 : Ref sig .tc := ⟨.hbm, 40, rfl⟩
abbrev main_v22 : Ref sig .tc := ⟨.hbm, 41, rfl⟩
abbrev main_c_6 : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_call4_cst : Ref sig .tc := ⟨.hbm, 59, rfl⟩
abbrev main_call4_v0 : Ref sig .tc := ⟨.hbm, 60, rfl⟩
abbrev main_call4_v1 : Ref sig .tc := ⟨.hbm, 61, rfl⟩
abbrev main_call4_cst_0 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_v6 : Ref sig .tc := ⟨.hbm, 67, rfl⟩
abbrev main_call4_v7 : Ref sig .tc := ⟨.hbm, 68, rfl⟩
abbrev main_call4_cst_1 : Ref sig .tc := ⟨.hbm, 69, rfl⟩
abbrev main_call4_v8 : Ref sig .tc := ⟨.hbm, 70, rfl⟩
abbrev main_call4_cst_2 : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_cst_3 : Ref sig .tc := ⟨.hbm, 75, rfl⟩
abbrev main_call4_v12 : Ref sig .tc := ⟨.hbm, 76, rfl⟩
abbrev main_call4_cst_4 : Ref sig .tc := ⟨.hbm, 77, rfl⟩
abbrev main_call4_call0_v0 : Ref sig .tc := ⟨.hbm, 78, rfl⟩
abbrev main_call4_call0_v1 : Ref sig .tc := ⟨.hbm, 79, rfl⟩
abbrev main_v34 : Ref sig .tc := ⟨.hbm, 80, rfl⟩
abbrev main_cst_10 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_c_11 : Ref sig .tc := ⟨.hbm, 90, rfl⟩
abbrev main_call5_v0 : Ref sig .tc := ⟨.hbm, 91, rfl⟩
abbrev main_v43 : Ref sig .tc := ⟨.hbm, 92, rfl⟩
abbrev main_c_12 : Ref sig .tc := ⟨.hbm, 93, rfl⟩
abbrev main_call6_v0 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x10 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S266x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S266x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  pads_S800000x128_S802816x128_028160_000 : S800000x128.Pads (![0, 0] : Fin 2 → Nat) ![2816, 0] ![0, 0] S802816x128
  h_S_ : 0 < S_.numel
  pads_S800000x10_S802816x10_028160_000 : S800000x10.Pads (![0, 0] : Fin 2 → Nat) ![2816, 0] ![0, 0] S802816x10
  pads_S800000_S802816_028160 : S800000.Pads (![0] : Fin 1 → Nat) ![2816] ![0] S802816
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  inb_S266x128_S266x128_0_0 : ∀ a, (![0, 0] : Fin 2 → Nat) a + S266x128.size a ≤ S266x128.size a
  h_S266x128 : 0 < S266x128.numel
  slices_S266x128_o0_0_S128x128 : S266x128.Slices ![0, 0] S128x128
  slices_S266x128_o128_0_S128x128 : S266x128.Slices ![128, 0] S128x128
  slices_S266x128_o256_0_S10x128 : S266x128.Slices ![256, 0] S10x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  packedbf16_S4096x128_S4096x128_0_0 : (Rect.unit (s := S4096x128) ![0, 0] S4096x128.size inb_S4096x128_S4096x128_0_0).PackedRows (EltTy.packing .bf16)
  bcast_S_S50000x128 : S_.BroadcastsInDim S50000x128 (![] : Fin 0 → Fin S50000x128.rank)
  bcast_S802816_S802816x1_0 : S802816.BroadcastsInDim S802816x1 (![0] : Fin 1 → Fin S802816x1.rank)
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  pads_S50000x128_S53248x128_032480_000 : S50000x128.Pads (![0, 0] : Fin 2 → Nat) ![3248, 0] ![0, 0] S53248x128
  slices_S53248x128_S50000x128_0_0 : S53248x128.Slices ![0, 0] S50000x128
  gather_S50000x128_S800000x1_S800000x128_1_0_n_n_0_1_1128_wf : GatherDims.WF S50000x128 S800000x1 S800000x128 [1] [0] [] [0] [] 1 ![1, 128]
  dot_S4096x128_S128x128_S4096x128_1_0_0_1_n_n_wf : DotDims.WF S4096x128 S128x128 S4096x128 [1] [0] [0] [1] [] []
  dot_S4096x10_S10x128_S4096x128_1_0_0_1_n_n_wf : DotDims.WF S4096x10 S10x128 S4096x128 [1] [0] [0] [1] [] []
  scatter_S50000x128_S802816x1_S802816x128_1_0_0_1_wf : ScatterDims.WF S50000x128 S802816x1 S802816x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S802816x128.size a
  hwx0_0 : ∀ i : grid0.Coords, EltTy.bits .bf16 = 32 ∨ (Rect.block (s := S802816x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S802816x128.size a
  hwx0_1 : ∀ i : grid0.Coords, EltTy.bits .bf16 = 32 ∨ (Rect.block (s := S802816x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x10.size a ≤ S802816x10.size a
  hwx0_2 : ∀ i : grid0.Coords, EltTy.bits .bf16 = 32 ∨ (Rect.block (s := S802816x10) S4096x10.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S266x128.size a ≤ S266x128.size a
  hwx0_3 : ∀ i : grid0.Coords, EltTy.bits .f32 = 32 ∨ (Rect.block (s := S266x128) S266x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S266x128.size a ≤ S266x128.size a
  hwx0_5 : ∀ i : grid0.Coords, EltTy.bits .f32 = 32 ∨ (Rect.block (s := S266x128) S266x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S802816x128.size a
  hwx0_7 : ∀ i : grid0.Coords, EltTy.bits .bf16 = 32 ∨ (Rect.block (s := S802816x128) S4096x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S53248x128.size a
  hwx1_0 : ∀ i : grid1.Coords, EltTy.bits .f32 = 32 ∨ (Rect.block (s := S53248x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S53248x128.size a
  hwx1_1 : ∀ i : grid1.Coords, EltTy.bits .f32 = 32 ∨ (Rect.block (s := S53248x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S53248x128.size a
  hwx1_4 : ∀ i : grid1.Coords, EltTy.bits .f32 = 32 ∨ (Rect.block (s := S53248x128) S4096x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x10_S10x128_S4096x128_1_0_0_1_n_n : DotDims S4096x10 S10x128 S4096x128 where
  lhsContracting := [1]
  rhsContracting := [0]
  lhsNonContracting := [0]
  rhsNonContracting := [1]
  lhsBatch := []
  rhsBatch := []
  wf := dot_S4096x10_S10x128_S4096x128_1_0_0_1_n_n_wf
def scatter_S50000x128_S802816x1_S802816x128_1_0_0_1 : ScatterDims S50000x128 S802816x1 S802816x128 where
  updateWindowDims := [1]
  insertedWindowDims := [0]
  scatterDimsToOperandDims := [0]
  indexVectorDim := 1
  wf := scatter_S50000x128_S802816x1_S802816x128_1_0_0_1_wf

abbrev win0_0 : Pipeline.Window sig grid0 :=
  Pipeline.Window.ofSpec (Memref.whole main_v20) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4096x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S266x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S266x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x10 : Shape := ⟨2, ![800000, 10]⟩
abbrev S266x128 : Shape := ⟨2, ![266, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x266 : Shape := ⟨2, ![800000, 266]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x10, .f32⟩
  | .hbm, ⟨3, _⟩ => ⟨S266x128, .f32⟩
  | .hbm, ⟨4, _⟩ => ⟨S128, .f32⟩
  | .hbm, ⟨5, _⟩ => ⟨S266x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x266, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S1x128, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S800000x128, .i1⟩
  | .hbm, ⟨54, _⟩ => ⟨S800000x128, .f32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S_, .i32⟩
  | .hbm, ⟨73, _⟩ => ⟨S_, .f32⟩
  | .hbm, ⟨74, _⟩ => ⟨S128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S50000x128, .f32⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S50000x128, .i1⟩
  | .hbm, ⟨118, _⟩ => ⟨S50000x128, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S50000x128, .f32⟩
  | .hbm, ⟨123, _⟩ => ⟨S50000x128, .f32⟩
  | .hbm, ⟨124, _⟩ => ⟨S50000x128, .f32⟩
  | .hbm, ⟨125, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_cst_3 : Ref sig .tc := ⟨.hbm, 89, rfl⟩
abbrev main_call1_v12 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_8 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_v58 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x10_S800000x266_d1 : Shape.Concatenates [S800000x128, S800000x128, S800000x10] S800000x266 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x266_S266x128_S800000x128_1_0_0_1_n_n_wf : DotDims.WF S800000x266 S266x128 S800000x128 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x266_S266x128_S800000x128_1_0_0_1_n_n : DotDims S800000x266 S266x128 S800000x128 where
  lhsContracting := [1]
  rhsContracting := [0]
  lhsNonContracting := [0]
  rhsNonContracting := [1]
  lhsBatch := []
  rhsBatch := []
  wf := dot_S800000x266_S266x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KerRun.lean ====
/-
  The tiled program's run with its result named. Every weakly fair execution of the program from a memory
  with zero counters terminates without a fault; afterwards the result buffer holds what the last stretch
  of host operations leaves there — the contents `W18` of the boundary after the final slice, a fold of the
  host stretches and of the two tiled regions' write-backs from the launch memory — and the nine argument
  arrays are as launched. The run is the same chain of eighteen segments (host stretches and the two regions)
  from which the frame is assembled; only the property read off the last thread state is larger: the result
  buffer is one more unscoped buffer held at `W18`.
-/
import proofs.«121464_j6270652252664_2_alg».proof.Proof.Gen.KernelIdeal.Frame
import proofs.«121464_j6270652252664_2_alg».proof.Proof.Gen.KernelIdeal.Launch
import proofs.«121464_j6270652252664_2_alg».proof.Proof.Gen.KernelIdeal.Skeleton
import proofs.«121464_j6270652252664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.KerRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer at the last boundary's contents and the arguments unchanged. -/
theorem run_value : θ_run defs (onTc (τ := τ) (main (F := F))) ⟨m, fun _ => 0, ρ⟩ (fun r => ∀ c : Dev nD,
      r.2.mem ((c.tc : Thread nD τ).loc main_v46) = W18 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v46 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c)⟩)

end Cert.KernelIdeal.KerRun

end
-- ==== Proof.RefStages.lean ====
/-
  The reference program's stages as functions of its argument arrays, on the extended reals.

  `srcIdx` / `dstIdx` are the two rows of the edge list. `wrapIdx` maps a negative node id `s` to `s + 50000`
  (Python-style indexing) and leaves the others; `rowsOf` gathers the node rows at those ids. `catOf` is the
  266-wide edge input `[h[src], h[dst], edge_feat]`, `logitsOf` its product with a 266 x 128 weight matrix plus
  a bias row, `sigmOf` and `splusE` the logistic and softplus maps, `msgOf` the per-edge message.
  `aggOf` adds every edge's message into the row of its (unwrapped) source id; an id outside [0, 50000)
  contributes nothing. `meanOf`, `varOf`, `rstdOf` are the column mean, the biased column variance and
  `1 / sqrt(var + eps)` over the 50000 rows; `normOf` is `h + ((agg - mean) * rstd * gamma + beta)` and
  `refOut` its softplus.
-/
import proofs.«121464_j6270652252664_2_alg».proof.ReferenceIdeal
import Idealize.ShloMosaic.PureOps.Ideal
import Idealize.ShloMosaic.Lib.ValueIdx

noncomputable section

namespace Cert.ReferenceIdeal.RefStages

open Idealize.ShloMosaic Cert.ReferenceIdeal

variable [Facts]
open Facts₀ Facts

/-- Row 0 of the edge list: the source node id of every edge. -/
def srcIdx (a1 : IVec S2x800000 32) : IVec S800000 32 :=
  shapeCast S800000 (extractStridedSlice S1x800000 ![0, 0] a1 slices_S2x800000_S1x800000_0_0) shapeCasts_S1x800000_S800000

/-- Row 1 of the edge list: the destination node id of every edge. -/
def dstIdx (a1 : IVec S2x800000 32) : IVec S800000 32 :=
  shapeCast S800000 (extractStridedSlice S1x800000 ![1, 0] a1 slices_S2x800000_S1x800000_1_0) shapeCasts_S1x800000_S800000

/-- Negative ids wrap around once (`s < 0 ↦ s + 50000`), as a column of start indices. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The node rows gathered at the wrapped ids. -/
def rowsOf (a0 : FVec Ideal S50000x128 .f32) (s : IVec S800000 32) : FVec Ideal S800000x128 .f32 :=
  Host.gather gather_S50000x128_S800000x1_S800000x128_1_0_n_n_0_1_1128 a0 (wrapIdx s)

/-- The 266-wide edge input: source row, destination row, edge features side by side. -/
def catOf (hs hd : FVec Ideal S800000x128 .f32) (ef : FVec Ideal S800000x10 .f32) : FVec Ideal S800000x266 .f32 :=
  concatenate S800000x266 1 [⟨S800000x128, hs⟩, ⟨S800000x128, hd⟩, ⟨S800000x10, ef⟩]
    concatenates_S800000x128_S800000x128_S800000x10_S800000x266_d1

/-- `z · w + b`, the bias a row added to every edge. -/
def logitsOf (z : FVec Ideal S800000x266 .f32) (w : FVec Ideal S266x128 .f32) (b : FVec Ideal S128 .f32) :
    FVec Ideal S800000x128 .f32 :=
  addf (Host.dotGeneral (F := Ideal) dot_S800000x266_S266x128_S800000x128_1_0_0_1_n_n none z w)
    (broadcastInDim S800000x128 ![0, 1] bcast_S1x128_S800000x128_0_1 (broadcastInDim S1x128 ![1] bcast_S128_S1x128_1 b))

/-- The all-ones edge array. -/
def onesE : FVec Ideal S800000x128 .f32 :=
  broadcastInDim S800000x128 ![] bcast_S_S800000x128 (constant (F := Ideal) S_ .f32 0x3F800000#32)

/-- The all-zeros edge array. -/
def zerosE : FVec Ideal S800000x128 .f32 :=
  broadcastInDim S800000x128 ![] bcast_S_S800000x128 (constant (F := Ideal) S_ .f32 0x00000000#32)

/-- The logistic map `1 / (1 + e^{-x})`, entry by entry. -/
def sigmOf (x : FVec Ideal S800000x128 .f32) : FVec Ideal S800000x128 .f32 :=
  Host.divf (F := Ideal) onesE (addf onesE (Host.exp (F := Ideal) (Host.negf (F := Ideal) x)))

/-- Softplus `max(x, 0) + log(1 + e^{-|x - 0|})`, entry by entry, behind the guard `x - 0 ≠ x - 0` (never true of an
    extended real) that would answer `x + 0`. -/
def splusE (x : FVec Ideal S800000x128 .f32) : FVec Ideal S800000x128 .f32 :=
  select (cmpf .une (subf x zerosE) (subf x zerosE)) (addf x zerosE)
    (addf (maximumf x zerosE)
      (Host.log1p (F := Ideal) (Host.exp (F := Ideal) (Host.negf (F := Ideal) (Host.absf (F := Ideal) (subf x zerosE))))))

/-- The message of every edge: `sigmoid(z · gate_w + gate_b) * softplus(z · cand_w + cand_b)`. -/
def msgOf (a0 : FVec Ideal S50000x128 .f32) (a1 : IVec S2x800000 32) (a2 : FVec Ideal S800000x10 .f32)
    (a3 : FVec Ideal S266x128 .f32) (a4 : FVec Ideal S128 .f32) (a5 : FVec Ideal S266x128 .f32) (a6 : FVec Ideal S128 .f32) :
    FVec Ideal S800000x128 .f32 :=
  mulf (sigmOf (logitsOf (catOf (rowsOf a0 (srcIdx a1)) (rowsOf a0 (dstIdx a1)) a2) a3 a4))
    (splusE (logitsOf (catOf (rowsOf a0 (srcIdx a1)) (rowsOf a0 (dstIdx a1)) a2) a5 a6))

/-- The all-zeros node array. -/
def zerosN : FVec Ideal S50000x128 .f32 :=
  broadcastInDim S50000x128 ![] bcast_S_S50000x128 (constant (F := Ideal) S_ .f32 0x00000000#32)

/-- Every edge's update row added into the node row of its source id (ids outside the node range dropped). -/
def aggOf (src : IVec S800000 32) (upd : FVec Ideal S800000x128 .f32) : FVec Ideal S50000x128 .f32 :=
  Host.scatterAdd (F := Ideal) scatter_S50000x128_S800000x1_S800000x128_1_0_0_1 zerosN
    (broadcastInDim S800000x1 ![0] bcast_S800000_S800000x1_0 src) upd

/-- The column sums over the 50000 rows. -/
def colSum (x : FVec Ideal S50000x128 .f32) : FVec Ideal S128 .f32 :=
  Host.reduceAdd (F := Ideal) x (constant (F := Ideal) S_ .f32 0x00000000#32) reducesTo_S50000x128_S128_d0 h_S_

/-- The column means: column sums over 50000. -/
def meanOf (agg : FVec Ideal S50000x128 .f32) : FVec Ideal S128 .f32 :=
  Host.divf (F := Ideal) (colSum agg) (broadcastInDim S128 ![] bcast_S_S128 (constant (F := Ideal) S_ .f32 0x47435000#32))

/-- Every entry minus its column's mean (the mean formed as a 1 x 128 row first). -/
def centredOf (agg : FVec Ideal S50000x128 .f32) : FVec Ideal S50000x128 .f32 :=
  subf agg (broadcastInDim S50000x128 ![0, 1] bcast_S1x128_S50000x128_0_1
    (Host.divf (F := Ideal) (broadcastInDim S1x128 ![1] bcast_S128_S1x128_1 (colSum agg))
      (broadcastInDim S1x128 ![] bcast_S_S1x128 (constant (F := Ideal) S_ .f32 0x47435000#32))))

/-- The variance's divisor `50000 - ddof` with `ddof = 0`. -/
def dofGap : FVec Ideal S_ .f32 :=
  subf (constant (F := Ideal) S_ .f32 0x47435000#32) (sitofp (F := Ideal) .f32 (constantI S_ 32 0#32))

/-- The biased column variance: the column sums of the squared centred entries over `50000 - 0`, behind the guard
    `50000 - 0 > 0` (else a junk constant). -/
def varOf (agg : FVec Ideal S50000x128 .f32) : FVec Ideal S128 .f32 :=
  select (broadcastInDim S128 ![] bcast_S_S128 (cmpf .ogt dofGap (constant (F := Ideal) S_ .f32 0x00000000#32)))
    (Host.divf (F := Ideal) (colSum (mulf (centredOf agg) (centredOf agg))) (broadcastInDim S128 ![] bcast_S_S128 dofGap))
    (broadcastInDim S128 ![] bcast_S_S128 (constant (F := Ideal) S_ .f32 0x7FC00000#32))

/-- `1 / sqrt(var + eps)` per column. -/
def rstdOf (agg : FVec Ideal S50000x128 .f32) : FVec Ideal S128 .f32 :=
  Host.rsqrt (F := Ideal) (addf (varOf agg) (broadcastInDim S128 ![] bcast_S_S128 (constant (F := Ideal) S_ .f32 0x3727C5AC#32)))

/-- A 128-vector repeated as every one of the 50000 rows. -/
def rowB (v : FVec Ideal S128 .f32) : FVec Ideal S50000x128 .f32 :=
  broadcastInDim S50000x128 ![0, 1] bcast_S1x128_S50000x128_0_1 (broadcastInDim S1x128 ![1] bcast_S128_S1x128_1 v)

/-- `h + ((agg - mean) * rstd * gamma + beta)`. -/
def normOf (a0 agg : FVec Ideal S50000x128 .f32) (a7 a8 : FVec Ideal S128 .f32) : FVec Ideal S50000x128 .f32 :=
  addf a0 (addf (mulf (mulf (subf agg (rowB (meanOf agg))) (rowB (rstdOf agg))) (rowB a7)) (rowB a8))

/-- Softplus over the node array (the same expression as `splusE` at the node shape). -/
def splusN (x : FVec Ideal S50000x128 .f32) : FVec Ideal S50000x128 .f32 :=
  select (cmpf .une (subf x zerosN) (subf x zerosN)) (addf x zerosN)
    (addf (maximumf x zerosN)
      (Host.log1p (F := Ideal) (Host.exp (F := Ideal) (Host.negf (F := Ideal) (Host.absf (F := Ideal) (subf x zerosN))))))

/-- The reference's result as a function of its nine argument arrays. -/
def refOut (a0 : FVec Ideal S50000x128 .f32) (a1 : IVec S2x800000 32) (a2 : FVec Ideal S800000x10 .f32)
    (a3 : FVec Ideal S266x128 .f32) (a4 : FVec Ideal S128 .f32) (a5 : FVec Ideal S266x128 .f32) (a6 : FVec Ideal S128 .f32)
    (a7 a8 : FVec Ideal S128 .f32) : FVec Ideal S50000x128 .f32 :=
  splusN (normOf a0 (aggOf (srcIdx a1) (msgOf a0 a1 a2 a3 a4 a5 a6)) a7 a8)

end Cert.ReferenceIdeal.RefStages

end
-- ==== Proof.KerHost.lean ====
/-
  The tiled program's host stretches read back: what its buffers hold when each of the two tiled regions is
  entered and at the end, as terms of the argument arrays. Before the first region the host forms the gathered
  source and destination node rows (at the wrapped ids), the edge features and the source ids, each padded from
  800000 to 802816 rows, and the two bias rows; between the regions it scatter-adds the first region's output
  into the node rows, takes the column mean, the biased column variance and the reciprocal standard deviation,
  folds them with the scale and shift rows, and pads the node arrays from 50000 to 53248 rows; at the end it
  slices the second region's output back to 50000 rows. The narrowing and widening conversions are the
  identity on the extended reals, so the gathered rows are the reference's.
-/
import proofs.«121464_j6270652252664_2_alg».proof.Proof.Gen.KernelIdeal.Frame
import proofs.«121464_j6270652252664_2_alg».proof.Proof.RefStages
import proofs.«121464_j6270652252664_2_alg».proof.Proof.Gen.ReferenceIdeal
import Idealize.ShloMosaic.Lib.StableHlo.Run

set_option maxRecDepth 16384

noncomputable section

namespace Cert.KernelIdeal.KerHost

open Cert.KernelIdeal Cert.KernelIdeal.Gen
open Idealize.ShloMosaic Idealize.ShloMosaic.TcCoe Idealize.SL.Sem
open Idealize.ShloMosaic.StableHlo
open Cert.ReferenceIdeal.RefStages

variable (m : (ℓ : Loc nD τ sig) → Buf (Elt Ideal) ℓ) (ρ : Dev nD → PrngReg) (c : Dev nD)

set_option quotPrecheck false
local notation "a_0" => (m ((c.tc : Thread nD τ).loc main_arg0))
local notation "a_1" => (m ((c.tc : Thread nD τ).loc main_arg1))
local notation "a_2" => (m ((c.tc : Thread nD τ).loc main_arg2))
local notation "a_3" => (m ((c.tc : Thread nD τ).loc main_arg3))
local notation "a_4" => (m ((c.tc : Thread nD τ).loc main_arg4))
local notation "a_5" => (m ((c.tc : Thread nD τ).loc main_arg5))
local notation "a_6" => (m ((c.tc : Thread nD τ).loc main_arg6))
local notation "a_7" => (m ((c.tc : Thread nD τ).loc main_arg7))
local notation "a_8" => (m ((c.tc : Thread nD τ).loc main_arg8))

/-! ## Before the first region -/

set_option maxHeartbeats 2000000 in
/-- After the first stretch the source ids are row 0 of the edge list. -/
theorem W1_v1 : W1 m ρ c (Proc.devRef .tc main_v1) = srcIdx a_1 := by
  dsimp only [W1, hostOps0]
  after_results_simp
  rfl

set_option maxHeartbeats 2000000 in
/-- At the first region's entry its first input array holds the node rows gathered at the wrapped source ids
    (the narrowing conversion of the node rows is the identity on the extended reals), padded to 802816 rows. -/
theorem W9_v20 : W9 m ρ c (Proc.devRef .tc main_v20)
    = pad S802816x128 ![0, 0] ![2816, 0] ![0, 0] (rowsOf a_0 (srcIdx a_1))
        (sitofp (F := Ideal) .bf16 (constantI S_ 32 0#32)) pads_S800000x128_S802816x128_028160_000 h_S_ := by
  dsimp only [W9, W8, W7, W6, W5, W4, W3, W2, W1, hostOps0_8, hostOps0_7, hostOps0_6, hostOps0_5, hostOps0_4,
    hostOps0_3, hostOps0_2, hostOps0_1, hostOps0]
  after_results_simp
  rfl

set_option maxHeartbeats 2000000 in
/-- Its second input array: the node rows gathered at the wrapped destination ids, padded to 802816 rows. -/
theorem W9_v21 : W9 m ρ c (Proc.devRef .tc main_v21)
    = pad S802816x128 ![0, 0] ![2816, 0] ![0, 0] (rowsOf a_0 (dstIdx a_1))
        (sitofp (F := Ideal) .bf16 (constantI S_ 32 0#32)) pads_S800000x128_S802816x128_028160_000 h_S_ := by
  dsimp only [W9, W8, W7, W6, W5, W4, W3, W2, W1, hostOps0_8, hostOps0_7, hostOps0_6, hostOps0_5, hostOps0_4,
    hostOps0_3, hostOps0_2, hostOps0_1, hostOps0]
  after_results_simp
  rfl

set_option maxHeartbeats 2000000 in
/-- Its third input array: the edge features (their narrowing conversion is the identity), padded to 802816 rows. -/
theorem W9_v22 : W9 m ρ c (Proc.devRef .tc main_v22)
    = pad S802816x10 ![0, 0] ![2816, 0] ![0, 0] a_2
        (sitofp (F := Ideal) .bf16 (constantI S_ 32 0#32)) pads_S800000x10_S802816x10_028160_000 h_S_ := by
  dsimp only [W9, W8, W7, W6, W5, W4, W3, W2, W1, hostOps0_8, hostOps0_7, hostOps0_6, hostOps0_5, hostOps0_4,
    hostOps0_3, hostOps0_2, hostOps0_1, hostOps0]
  after_results_simp
  rfl

set_option maxHeartbeats 2000000 in
/-- The (unwrapped) source ids padded to 802816 entries with the out-of-range id 50000. -/
theorem W9_v23 : W9 m ρ c (Proc.devRef .tc main_v23)
    = pad S802816 ![0] ![2816] ![0] (srcIdx a_1) (constantI S_ 32 50000#32) pads_S800000_S802816_028160 h_S_ := by
  dsimp only [W9, W8, W7, W6, W5, W4, W3, W2, W1, hostOps0_8, hostOps0_7, hostOps0_6, hostOps0_5, hostOps0_4,
    hostOps0_3, hostOps0_2, hostOps0_1, hostOps0]
  after_results_simp
  rfl

set_option maxHeartbeats 2000000 in
/-- The gate weights are as launched. -/
theorem W9_arg3 : W9 m ρ c (Proc.devRef .tc main_arg3) = a_3 := by
  dsimp only [W9, W8, W7, W6, W5, W4, W3, W2, W1, hostOps0_8, hostOps0_7, hostOps0_6, hostOps0_5, hostOps0_4,
    hostOps0_3, hostOps0_2, hostOps0_1, hostOps0]
  after_results_simp

set_option maxHeartbeats 2000000 in
/-- The candidate weights are as launched. -/
theorem W9_arg5 : W9 m ρ c (Proc.devRef .tc main_arg5) = a_5 := by
  dsimp only [W9, W8, W7, W6, W5, W4, W3, W2, W1, hostOps0_8, hostOps0_7, hostOps0_6, hostOps0_5, hostOps0_4,
    hostOps0_3, hostOps0_2, hostOps0_1, hostOps0]
  after_results_simp

set_option maxHeartbeats 2000000 in
/-- The gate bias as a 1 x 128 row. -/
theorem W9_v24 : W9 m ρ c (Proc.devRef .tc main_v24) = shapeCast S1x128 a_4 shapeCasts_S128_S1x128 := by
  dsimp only [W9, W8, W7, W6, W5, W4, W3, W2, W1, hostOps0_8, hostOps0_7, hostOps0_6, hostOps0_5, hostOps0_4,
    hostOps0_3, hostOps0_2, hostOps0_1, hostOps0]
  after_results_simp
  rfl

set_option maxHeartbeats 2000000 in
/-- The candidate bias as a 1 x 128 row. -/
theorem W9_v25 : W9 m ρ c (Proc.devRef .tc main_v25) = shapeCast S1x128 a_6 shapeCasts_S128_S1x128 := by
  dsimp only [W9, W8, W7, W6, W5, W4, W3, W2, W1, hostOps0_8, hostOps0_7, hostOps0_6, hostOps0_5, hostOps0_4,
    hostOps0_3, hostOps0_2, hostOps0_1, hostOps0]
  after_results_simp
  rfl

/-! ## Between the regions -/

set_option maxHeartbeats 2000000 in
/-- The node features are as launched when the second stretch begins (no host operation and no window of the
    first region writes them). -/
theorem W10_arg0 : W10 m ρ c (Proc.devRef .tc main_arg0) = a_0 := by
  rw [W10_of_ne m ρ c main_arg0 (by decide)]
  dsimp only [W9, W8, W7, W6, W5, W4, W3, W2, W1, hostOps0_8, hostOps0_7, hostOps0_6, hostOps0_5, hostOps0_4,
    hostOps0_3, hostOps0_2, hostOps0_1, hostOps0]
  after_results_simp

set_option maxHeartbeats 2000000 in
/-- The scale row is as launched when the second stretch begins. -/
theorem W10_arg7 : W10 m ρ c (Proc.devRef .tc main_arg7) = a_7 := by
  rw [W10_of_ne m ρ c main_arg7 (by decide)]
  dsimp only [W9, W8, W7, W6, W5, W4, W3, W2, W1, hostOps0_8, hostOps0_7, hostOps0_6, hostOps0_5, hostOps0_4,
    hostOps0_3, hostOps0_2, hostOps0_1, hostOps0]
  after_results_simp

set_option maxHeartbeats 2000000 in
/-- The shift row is as launched when the second stretch begins. -/
theorem W10_arg8 : W10 m ρ c (Proc.devRef .tc main_arg8) = a_8 := by
  rw [W10_of_ne m ρ c main_arg8 (by decide)]
  dsimp only [W9, W8, W7, W6, W5, W4, W3, W2, W1, hostOps0_8, hostOps0_7, hostOps0_6, hostOps0_5, hostOps0_4,
    hostOps0_3, hostOps0_2, hostOps0_1, hostOps0]
  after_results_simp

set_option maxHeartbeats 2000000 in
/-- The padded source ids are still there when the second stretch begins (the first region does not write them). -/
theorem W10_v23 : W10 m ρ c (Proc.devRef .tc main_v23)
    = pad S802816 ![0] ![2816] ![0] (srcIdx a_1) (constantI S_ 32 50000#32) pads_S800000_S802816_028160 h_S_ := by
  rw [W10_of_ne m ρ c main_v23 (by decide)]
  exact W9_v23 m ρ c

/-- The tiled program's aggregate: the first region's output (widened, which is the identity on the extended
    reals) scatter-added into the node rows at the padded source ids; the padding ids, 50000, fall outside the
    node range and contribute nothing. -/
def aggK : FVec Ideal S50000x128 .f32 :=
  Host.scatterAdd (F := Ideal) scatter_S50000x128_S802816x1_S802816x128_1_0_0_1
    (broadcastInDim S50000x128 ![] bcast_S_S50000x128 (constant (F := Ideal) S_ .f32 0x00000000#32))
    (broadcastInDim S802816x1 ![0] bcast_S802816_S802816x1_0
      (pad S802816 ![0] ![2816] ![0] (srcIdx a_1) (constantI S_ 32 50000#32) pads_S800000_S802816_028160 h_S_))
    (extf (F := Ideal) .f32 (W10 m ρ c (Proc.devRef .tc main_v26) : FVec Ideal S802816x128 .bf16) bitsLt_bf16_f32)

set_option maxHeartbeats 2000000 in
/-- At the second region's entry its first input array holds the node features padded to 53248 rows. -/
theorem W16_v43 : W16 m ρ c (Proc.devRef .tc main_v43)
    = pad S53248x128 ![0, 0] ![3248, 0] ![0, 0] a_0
        (sitofp (F := Ideal) .f32 (constantI S_ 32 0#32)) pads_S50000x128_S53248x128_032480_000 h_S_ := by
  dsimp only [W16, W15, W14, W13, W12, W11, hostOps1_5, hostOps1_4, hostOps1_3, hostOps1_2, hostOps1_1, hostOps1]
  after_results_simp
  rw [W10_arg0]
  rfl

set_option maxHeartbeats 2000000 in
/-- Its second input array: the aggregate padded to 53248 rows. -/
theorem W16_v44 : W16 m ρ c (Proc.devRef .tc main_v44)
    = pad S53248x128 ![0, 0] ![3248, 0] ![0, 0] (aggK m ρ c)
        (sitofp (F := Ideal) .f32 (constantI S_ 32 0#32)) pads_S50000x128_S53248x128_032480_000 h_S_ := by
  dsimp only [W16, W15, W14, W13, W12, W11, hostOps1_5, hostOps1_4, hostOps1_3, hostOps1_2, hostOps1_1, hostOps1]
  after_results_simp
  rw [W10_v23]
  rfl

set_option maxHeartbeats 2000000 in
/-- The folded scale `γ * rstd` as a 1 x 128 row: the host's column variance and reciprocal standard deviation
    are the reference's operations on the aggregate. -/
theorem W16_v41 : W16 m ρ c (Proc.devRef .tc main_v41)
    = shapeCast S1x128 (mulf a_7 (rstdOf (aggK m ρ c))) shapeCasts_S128_S1x128 := by
  dsimp only [W16, W15, W14, W13, W12, W11, hostOps1_5, hostOps1_4, hostOps1_3, hostOps1_2, hostOps1_1, hostOps1]
  after_results_simp
  rw [W10_v23, W10_arg7]
  rfl

set_option maxHeartbeats 2000000 in
/-- The folded shift `β - mean * (γ * rstd)` as a 1 x 128 row. -/
theorem W16_v42 : W16 m ρ c (Proc.devRef .tc main_v42)
    = shapeCast S1x128 (subf a_8 (mulf (meanOf (aggK m ρ c)) (mulf a_7 (rstdOf (aggK m ρ c))))) shapeCasts_S128_S1x128 := by
  dsimp only [W16, W15, W14, W13, W12, W11, hostOps1_5, hostOps1_4, hostOps1_3, hostOps1_2, hostOps1_1, hostOps1]
  after_results_simp
  rw [W10_v23, W10_arg7, W10_arg8]
  rfl

/-! ## After the second region -/

set_option maxHeartbeats 2000000 in
/-- The result: the second region's output sliced back to the 50000 node rows. -/
theorem W18_v46 : W18 m ρ c (Proc.devRef .tc main_v46)
    = extractStridedSlice S50000x128 ![0, 0] (W17 m ρ c (Proc.devRef .tc main_v45)) slices_S53248x128_S50000x128_0_0 := by
  dsimp only [W18, hostOps2]
  after_results_simp

end Cert.KernelIdeal.KerHost

end
-- ==== Proof.Spec.lean ====
/-
  The mathematics both programs compute, per edge row and per feature column, on the extended reals.

  An edge with source row `hs`, destination row `hd` (each 128 wide) and edge features `ef` (10 wide)
  has the 266-wide input `z = [hs, hd, ef]`. A logit is the contraction of `z` with one column `w` of a
  266-row weight matrix plus a bias; written here as the three stretches of the contraction
  (rows 0..127, 128..255, 256..265 of the weights), which is how the tiled program forms it; the whole
  266-term sum is the same number because extended-real addition is commutative and associative.
  The message is `sigmoid(gate logit) * softplus(candidate logit)`.
-/
import Idealize.ShloMosaic.PureOps.Ideal
import Idealize.ShloMosaic.Lib.ValueIdx

noncomputable section

namespace Cert.Spec

open Idealize.ShloMosaic

/-- The logistic function `1 / (1 + e^{-x})` on the extended reals. -/
def sigm (x : EReal) : EReal := Ideal.logistic x

/-- Softplus in its stable form `max(x, 0) + log(1 + e^{-|x|})`, with `|x| = max(x, -x)`. -/
def splus (x : EReal) : EReal := max x 0 + Ideal.log1p (Ideal.exp (-(max x (-x))))

/-- One logit: the contraction of `[hs, hd, ef]` with a 266-entry weight column `w`, as its three
    stretches in order, plus the bias `b`. -/
def logit (hs hd : Fin 128 → EReal) (ef : Fin 10 → EReal) (w : Fin 266 → EReal) (b : EReal) : EReal :=
  ((∑ k : Fin 128, hs k * w ⟨k.val, by omega⟩ + ∑ k : Fin 128, hd k * w ⟨128 + k.val, by omega⟩)
    + ∑ k : Fin 10, ef k * w ⟨256 + k.val, by omega⟩) + b

/-- The message of one edge at one feature column: gate times candidate. -/
def msg (hs hd : Fin 128 → EReal) (ef : Fin 10 → EReal) (gw : Fin 266 → EReal) (gb : EReal)
    (cw : Fin 266 → EReal) (cb : EReal) : EReal :=
  sigm (logit hs hd ef gw gb) * splus (logit hs hd ef cw cb)

/-- The normalised, shifted and activated node feature as the reference spells it:
    `softplus(h + ((a - μ) * r * γ + β))`. -/
def outCentered (h a μ r γ β : EReal) : EReal := splus (h + (((a - μ) * r) * γ + β))

/-- The same as the tiled program spells it, with the affine map folded: scale `γ * r`,
    shift `β - μ * (γ * r)`: `softplus(h + (a * (γ * r) + (β - μ * (γ * r))))`. -/
def outAffine (h a μ r γ β : EReal) : EReal := splus (h + (a * (γ * r) + (β - μ * (γ * r))))

end Cert.Spec

end
-- ==== Proof.KerPayload.lean ====
/-
  What the two tiled bodies store, read at one index of their 4096 x 128 block.

  Message body. A block holds 4096 edges. Row `p` of the stored block at column `q` is
  `sigmoid(g) * softplus(c)` where `g` and `c` are the gate and candidate logits of that edge: each the sum of
  three matrix products — the source rows against weight rows 0..127, the destination rows against weight rows
  128..255, the edge features against weight rows 256..265 — plus the bias row. A matrix product into a zero
  accumulator is, at an index (p, q), the sum over the contracted coordinate k of lhs(p, k) * rhs(k, q); the
  softplus is `max(c, 0) + log(1 + e^{0 - |c - 0|})` behind a guard `c - 0 ≠ c - 0` that never holds.

  Normalisation body. Row `p`, column `q` of the stored block is `softplus(h + (a * s + t))` with `s`, `t` the
  scale and shift rows.
-/
import proofs.«121464_j6270652252664_2_alg».proof.Proof.Gen.KernelIdeal.Skeleton
import proofs.«121464_j6270652252664_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerPayload

open Idealize.ShloMosaic Idealize.ShloMosaic.ValueIdx Cert.KernelIdeal Cert.KernelIdeal.Gen

/-- The 4096 x 128 by 128 x 128 product's dimension numbers. -/
abbrev D128 := dot_S4096x128_S128x128_S4096x128_1_0_0_1_n_n
/-- The 4096 x 10 by 10 x 128 product's dimension numbers. -/
abbrev D10 := dot_S4096x10_S10x128_S4096x128_1_0_0_1_n_n

/-! ## The operand indices of the two products -/

theorem lhs128_0 (i : S4096x128.Idx) (q : D128.contr.Idx) : (D128.lhsIdx i q 0).val = (i 0).val := by
  unfold DotDims.lhsIdx
  rw [dif_neg (show ¬(0 : Fin S4096x128.rank) ∈ D128.lhsBatch by decide), dif_pos (show (0 : Fin S4096x128.rank) ∈ D128.lhsNonContracting by decide)]
  rfl
theorem lhs128_1 (i : S4096x128.Idx) (q : D128.contr.Idx) : (D128.lhsIdx i q 1).val = (q ⟨0, by decide⟩).val :=
  D128.lhsIdx_val_of_single rfl i q
theorem rhs128_0 (i : S4096x128.Idx) (q : D128.contr.Idx) : (D128.rhsIdx i q 0).val = (q ⟨0, by decide⟩).val :=
  D128.rhsIdx_val_of_single rfl i q
theorem rhs128_1 (i : S4096x128.Idx) (q : D128.contr.Idx) : (D128.rhsIdx i q 1).val = (i 1).val := by
  unfold DotDims.rhsIdx
  rw [dif_neg (show ¬(1 : Fin S128x128.rank) ∈ D128.rhsBatch by decide), dif_pos (show (1 : Fin S128x128.rank) ∈ D128.rhsNonContracting by decide)]
  rfl

theorem lhs10_0 (i : S4096x128.Idx) (q : D10.contr.Idx) : (D10.lhsIdx i q 0).val = (i 0).val := by
  unfold DotDims.lhsIdx
  rw [dif_neg (show ¬(0 : Fin S4096x10.rank) ∈ D10.lhsBatch by decide), dif_pos (show (0 : Fin S4096x10.rank) ∈ D10.lhsNonContracting by decide)]
  rfl
theorem lhs10_1 (i : S4096x128.Idx) (q : D10.contr.Idx) : (D10.lhsIdx i q 1).val = (q ⟨0, by decide⟩).val :=
  D10.lhsIdx_val_of_single rfl i q
theorem rhs10_0 (i : S4096x128.Idx) (q : D10.contr.Idx) : (D10.rhsIdx i q 0).val = (q ⟨0, by decide⟩).val :=
  D10.rhsIdx_val_of_single rfl i q
theorem rhs10_1 (i : S4096x128.Idx) (q : D10.contr.Idx) : (D10.rhsIdx i q 1).val = (i 1).val := by
  unfold DotDims.rhsIdx
  rw [dif_neg (show ¬(1 : Fin S10x128.rank) ∈ D10.rhsBatch by decide), dif_pos (show (1 : Fin S10x128.rank) ∈ D10.rhsNonContracting by decide)]
  rfl

/-- The 128-deep product into zero, at (p, q): the sum over k of lhs(p, k) * rhs(k, q). -/
theorem matmul128_apply (l : FVec Ideal S4096x128 .bf16) (r : FVec Ideal S128x128 .bf16) (p : Fin 4096) (q : Fin 128) :
    matmul (F := Ideal) D128 none l r (constant (F := Ideal) S4096x128 .f32 0x00000000#32) (ix2 p q) = ∑ k : Fin 128, l (ix2 p k) * r (ix2 k q) := by
  simp only [matmul]
  rw [Ideal.matmul_constant_zero_apply, ← Equiv.sum_comp (contrEquiv1 D128 128 rfl rfl).symm]
  refine Finset.sum_congr rfl fun k _ => ?_
  have hk := contrEquiv1_symm_val D128 128 rfl rfl k
  have el : D128.lhsIdx (ix2 p q) ((contrEquiv1 D128 128 rfl rfl).symm k) = ix2 p k := funext fun a => Fin.ext (by
    match a with
    | ⟨0, _⟩ => exact lhs128_0 _ _
    | ⟨1, _⟩ => exact (lhs128_1 _ _).trans hk)
  have er : D128.rhsIdx (ix2 p q) ((contrEquiv1 D128 128 rfl rfl).symm k) = ix2 k q := funext fun a => Fin.ext (by
    match a with
    | ⟨0, _⟩ => exact (rhs128_0 _ _).trans hk
    | ⟨1, _⟩ => exact rhs128_1 _ _)
  rw [el, er]

/-- The 10-deep product into zero, at (p, q). -/
theorem matmul10_apply (l : FVec Ideal S4096x10 .bf16) (r : FVec Ideal S10x128 .bf16) (p : Fin 4096) (q : Fin 128) :
    matmul (F := Ideal) D10 none l r (constant (F := Ideal) S4096x128 .f32 0x00000000#32) (ix2 p q) = ∑ k : Fin 10, l (ix2 p k) * r (ix2 k q) := by
  simp only [matmul]
  rw [Ideal.matmul_constant_zero_apply, ← Equiv.sum_comp (contrEquiv1 D10 10 rfl rfl).symm]
  refine Finset.sum_congr rfl fun k _ => ?_
  have hk := contrEquiv1_symm_val D10 10 rfl rfl k
  have el : D10.lhsIdx (ix2 p q) ((contrEquiv1 D10 10 rfl rfl).symm k) = ix2 p k := funext fun a => Fin.ext (by
    match a with
    | ⟨0, _⟩ => exact lhs10_0 _ _
    | ⟨1, _⟩ => exact (lhs10_1 _ _).trans hk)
  have er : D10.rhsIdx (ix2 p q) ((contrEquiv1 D10 10 rfl rfl).symm k) = ix2 k q := funext fun a => Fin.ext (by
    match a with
    | ⟨0, _⟩ => exact (rhs10_0 _ _).trans hk
    | ⟨1, _⟩ => exact rhs10_1 _ _)
  rw [el, er]

/-! ## The logits -/

/-- The three-stretch sum plus bias that both logits are, for any weight matrix `w` and bias row `b`. -/
theorem logit_apply (x0 x1 : FVec Ideal S4096x128 .bf16) (x2 : FVec Ideal S4096x10 .bf16) (w : FVec Ideal S266x128 .f32)
    (b : FVec Ideal S1x128 .f32) (p : Fin 4096) (q : Fin 128) :
    addf (F := Ideal) (addf (F := Ideal) (addf (F := Ideal)
        (matmul (F := Ideal) D128 none (shapeCast S4096x128 x0 shapeCasts_S4096x128_S4096x128)
          (extractStridedSlice S128x128 ![0, 0] (truncf (F := Ideal) .bf16 w bitsLt_bf16_f32) slices_S266x128_o0_0_S128x128) (constant (F := Ideal) S4096x128 .f32 0x00000000#32))
        (matmul (F := Ideal) D128 none (shapeCast S4096x128 x1 shapeCasts_S4096x128_S4096x128)
          (extractStridedSlice S128x128 ![128, 0] (truncf (F := Ideal) .bf16 w bitsLt_bf16_f32) slices_S266x128_o128_0_S128x128) (constant (F := Ideal) S4096x128 .f32 0x00000000#32)))
        (matmul (F := Ideal) D10 none (shapeCast S4096x10 x2 shapeCasts_S4096x10_S4096x10)
          (extractStridedSlice S10x128 ![256, 0] (truncf (F := Ideal) .bf16 w bitsLt_bf16_f32) slices_S266x128_o256_0_S10x128) (constant (F := Ideal) S4096x128 .f32 0x00000000#32)))
      (broadcastTo S4096x128 (shapeCast S1x128 b shapeCasts_S1x128_S1x128) broadcasts_S1x128_S4096x128) (ix2 p q)
    = Cert.Spec.logit (fun k => x0 (ix2 p k)) (fun k => x1 (ix2 p k)) (fun k => x2 (ix2 p k)) (fun k => w (ix2 k q)) (b (ix2 (0 : Fin 1) q)) := by
  simp only [addf_apply]
  rw [matmul128_apply, matmul128_apply, matmul10_apply, broadcastTo_1b_ab_apply]
  simp only [shapeCast_self]
  unfold Cert.Spec.logit
  refine congrArg₂ (· + ·) (congrArg₂ (· + ·) (congrArg₂ (· + ·) ?_ ?_) ?_) rfl
  · exact Finset.sum_congr rfl fun k _ => congrArg (x0 (ix2 p k) * ·)
      (slice2_axis0_apply 0 (truncf (F := Ideal) .bf16 w bitsLt_bf16_f32) slices_S266x128_o0_0_S128x128 k q ⟨k.val, by omega⟩ (by simp))
  · exact Finset.sum_congr rfl fun k _ => congrArg (x1 (ix2 p k) * ·)
      (slice2_axis0_apply 128 (truncf (F := Ideal) .bf16 w bitsLt_bf16_f32) slices_S266x128_o128_0_S128x128 k q ⟨128 + k.val, by omega⟩ rfl)
  · exact Finset.sum_congr rfl fun k _ => congrArg (x2 (ix2 p k) * ·)
      (slice2_axis0_apply 256 (truncf (F := Ideal) .bf16 w bitsLt_bf16_f32) slices_S266x128_o256_0_S10x128 k q ⟨256 + k.val, by omega⟩ rfl)

/-! ## The scalar maps as the bodies spell them -/

/-- The guard `y ≠ y` is the zero bit on the extended reals. -/
theorem cmp_one_self (y : EReal) : FloatOps.cmpf (F := Ideal) (φ := .f32) .one y y = 0#1 := by
  show Ideal.cmp .one y y = 0#1
  simp [Ideal.cmp]

/-- The body's softplus, with its guard and its `0 - |c - 0|`, is `splus`. -/
theorem splus_body (c : EReal) :
    Scalar.select (FloatOps.cmpf (F := Ideal) (φ := .f32) .one (c - Ideal.ofBits .f32 0x00000000#32) (c - Ideal.ofBits .f32 0x00000000#32))
      (c + Ideal.ofBits .f32 0x00000000#32)
      (max c (Ideal.ofBits .f32 0x00000000#32) + Ideal.log1p (Ideal.exp (Ideal.ofBits .f32 0x00000000#32 - max (c - Ideal.ofBits .f32 0x00000000#32) (-(c - Ideal.ofBits .f32 0x00000000#32)))))
    = Cert.Spec.splus c := by
  rw [cmp_one_self, select_zero, Ideal.ofBits_zero_f32, sub_zero, zero_sub]
  rfl

/-! ## The stored blocks -/

/-- The message body's last stretch — guard, softplus, product with the gate — at one index, for any candidate logits
    `c`, gate values `g` and `max(c, 0)` array `mx`. -/
theorem pay1_apply (c g mx : FVec Ideal S4096x128 .f32) (i : S4096x128.Idx) :
    k0_pay1 (F := Ideal) c g (Scalar.ofBits .f32 0x00000000#32) mx (k0_pay8 (F := Ideal)) i
      = g i * Scalar.select (FloatOps.cmpf (F := Ideal) (φ := .f32) .one (c i - Ideal.ofBits .f32 0x00000000#32) (c i - Ideal.ofBits .f32 0x00000000#32))
          (c i + Ideal.ofBits .f32 0x00000000#32)
          (mx i + Ideal.log1p (Ideal.exp (Ideal.ofBits .f32 0x00000000#32 - max (c i - Ideal.ofBits .f32 0x00000000#32) (-(c i - Ideal.ofBits .f32 0x00000000#32))))) := rfl

/-- THE MESSAGE BLOCK at row `p`, column `q`: the message of the edge in row `p` of the three input blocks. -/
theorem msg_block_apply (x0 x1 : FVec Ideal S4096x128 .bf16) (x2 : FVec Ideal S4096x10 .bf16) (gw : FVec Ideal S266x128 .f32)
    (gb : FVec Ideal S1x128 .f32) (cw : FVec Ideal S266x128 .f32) (cb : FVec Ideal S1x128 .f32) (p : Fin 4096) (q : Fin 128) :
    k0_pay1 (F := Ideal) (k0_pay5 (F := Ideal) x0 x1 x2 cw cb) (k0_pay6 (F := Ideal) x0 x1 x2 gw gb) (Scalar.ofBits .f32 0x00000000#32) (k0_pay7 (F := Ideal) x0 x1 x2 cw cb) (k0_pay8 (F := Ideal)) (ix2 p q)
      = Cert.Spec.msg (fun k => x0 (ix2 p k)) (fun k => x1 (ix2 p k)) (fun k => x2 (ix2 p k)) (fun k => gw (ix2 k q)) (gb (ix2 (0 : Fin 1) q))
          (fun k => cw (ix2 k q)) (cb (ix2 (0 : Fin 1) q)) := by
  have hc : k0_pay5 (F := Ideal) x0 x1 x2 cw cb (ix2 p q)
      = Cert.Spec.logit (fun k => x0 (ix2 p k)) (fun k => x1 (ix2 p k)) (fun k => x2 (ix2 p k)) (fun k => cw (ix2 k q)) (cb (ix2 (0 : Fin 1) q)) :=
    logit_apply x0 x1 x2 cw cb p q
  have hg : k0_pay6 (F := Ideal) x0 x1 x2 gw gb (ix2 p q)
      = Cert.Spec.sigm (Cert.Spec.logit (fun k => x0 (ix2 p k)) (fun k => x1 (ix2 p k)) (fun k => x2 (ix2 p k)) (fun k => gw (ix2 k q)) (gb (ix2 (0 : Fin 1) q))) :=
    congrArg Ideal.logistic (logit_apply x0 x1 x2 gw gb p q)
  have h7 : k0_pay7 (F := Ideal) x0 x1 x2 cw cb (ix2 p q) = max (k0_pay5 (F := Ideal) x0 x1 x2 cw cb (ix2 p q)) (Ideal.ofBits .f32 0x00000000#32) := rfl
  rw [pay1_apply, h7, splus_body, hc, hg]
  rfl

/-- THE NORMALISED BLOCK at row `p`, column `q`: `softplus(h + (a * s + t))` with `s`, `t` the scale and shift rows. -/
theorem norm_block_apply (a : FVec Ideal S4096x128 .f32) (s t : FVec Ideal S1x128 .f32) (h : FVec Ideal S4096x128 .f32)
    (p : Fin 4096) (q : Fin 128) :
    k1_pay1 (F := Ideal) a s t h (ix2 p q)
      = Cert.Spec.splus (h (ix2 p q) + (a (ix2 p q) * s (ix2 (0 : Fin 1) q) + t (ix2 (0 : Fin 1) q))) := by
  have e : k1_pay1 (F := Ideal) a s t h (ix2 p q)
      = Scalar.select
          (FloatOps.cmpf (F := Ideal) (φ := .f32) .one
            ((shapeCast S4096x128 h shapeCasts_S4096x128_S4096x128 (ix2 p q) + (shapeCast S4096x128 a shapeCasts_S4096x128_S4096x128 (ix2 p q) * broadcastTo S4096x128 (shapeCast S1x128 s shapeCasts_S1x128_S1x128) broadcasts_S1x128_S4096x128 (ix2 p q) + broadcastTo S4096x128 (shapeCast S1x128 t shapeCasts_S1x128_S1x128) broadcasts_S1x128_S4096x128 (ix2 p q))) - Ideal.ofBits .f32 0x00000000#32)
            ((shapeCast S4096x128 h shapeCasts_S4096x128_S4096x128 (ix2 p q) + (shapeCast S4096x128 a shapeCasts_S4096x128_S4096x128 (ix2 p q) * broadcastTo S4096x128 (shapeCast S1x128 s shapeCasts_S1x128_S1x128) broadcasts_S1x128_S4096x128 (ix2 p q) + broadcastTo S4096x128 (shapeCast S1x128 t shapeCasts_S1x128_S1x128) broadcasts_S1x128_S4096x128 (ix2 p q))) - Ideal.ofBits .f32 0x00000000#32))
          ((shapeCast S4096x128 h shapeCasts_S4096x128_S4096x128 (ix2 p q) + (shapeCast S4096x128 a shapeCasts_S4096x128_S4096x128 (ix2 p q) * broadcastTo S4096x128 (shapeCast S1x128 s shapeCasts_S1x128_S1x128) broadcasts_S1x128_S4096x128 (ix2 p q) + broadcastTo S4096x128 (shapeCast S1x128 t shapeCasts_S1x128_S1x128) broadcasts_S1x128_S4096x128 (ix2 p q))) + Ideal.ofBits .f32 0x00000000#32)
          (max (shapeCast S4096x128 h shapeCasts_S4096x128_S4096x128 (ix2 p q) + (shapeCast S4096x128 a shapeCasts_S4096x128_S4096x128 (ix2 p q) * broadcastTo S4096x128 (shapeCast S1x128 s shapeCasts_S1x128_S1x128) broadcasts_S1x128_S4096x128 (ix2 p q) + broadcastTo S4096x128 (shapeCast S1x128 t shapeCasts_S1x128_S1x128) broadcasts_S1x128_S4096x128 (ix2 p q))) (Ideal.ofBits .f32 0x00000000#32)
            + Ideal.log1p (Ideal.exp (Ideal.ofBits .f32 0x00000000#32 - max ((shapeCast S4096x128 h shapeCasts_S4096x128_S4096x128 (ix2 p q) + (shapeCast S4096x128 a shapeCasts_S4096x128_S4096x128 (ix2 p q) * broadcastTo S4096x128 (shapeCast S1x128 s shapeCasts_S1x128_S1x128) broadcasts_S1x128_S4096x128 (ix2 p q) + broadcastTo S4096x128 (shapeCast S1x128 t shapeCasts_S1x128_S1x128) broadcasts_S1x128_S4096x128 (ix2 p q))) - Ideal.ofBits .f32 0x00000000#32) (-((shapeCast S4096x128 h shapeCasts_S4096x128_S4096x128 (ix2 p q) + (shapeCast S4096x128 a shapeCasts_S4096x128_S4096x128 (ix2 p q) * broadcastTo S4096x128 (shapeCast S1x128 s shapeCasts_S1x128_S1x128) broadcasts_S1x128_S4096x128 (ix2 p q) + broadcastTo S4096x128 (shapeCast S1x128 t shapeCasts_S1x128_S1x128) broadcasts_S1x128_S4096x128 (ix2 p q))) - Ideal.ofBits .f32 0x00000000#32))))) := rfl
  rw [e, splus_body, broadcastTo_1b_ab_apply, broadcastTo_1b_ab_apply]
  simp only [shapeCast_self]

end Cert.KernelIdeal.KerPayload

end
-- ==== Proof.KerRegion0.lean ====
/-
  The message region's output array, whole.

  The region walks 196 blocks of 4096 edges over the 802816 padded edge rows. At block `t` it reads rows
  `4096 t .. 4096 t + 4095` of the padded source rows, destination rows and edge features, the two whole weight
  matrices and the two bias rows, and writes the same rows of the output. So entry (e, j) of the output is the
  message of edge row `e` at feature column `j`: one function of the seven arrays at the region's entry, since
  the 196 blocks tile all 802816 rows (row `e` is in block `e / 4096`).
-/
import proofs.«121464_j6270652252664_2_alg».proof.Proof.Gen.KernelIdeal.Frame
import proofs.«121464_j6270652252664_2_alg».proof.Proof.KerPayload
import Idealize.ShloMosaic.Lib.Pipeline.Value
import proofs.«121464_j6270652252664_2_alg».proof.Proof.Gen.KernelIdeal.Launch
import proofs.«121464_j6270652252664_2_alg».proof.Proof.Gen.KernelIdeal.Skeleton
import proofs.«121464_j6270652252664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.KerRegion0

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- The edge row of an output index. -/
def rowOf (i : S802816x128.Idx) : Fin 802816 := ⟨(i 0).val, idx2_lt0 i⟩
/-- The feature column of an output index. -/
def colOf (i : S802816x128.Idx) : Fin 128 := ⟨(i 1).val, idx2_lt1 i⟩

/-- The output array as one function of the seven input arrays: the message of edge row `rowOf i` at column `colOf i`. -/
def msgAll (hs hd : S802816x128.Idx → EReal) (ef : S802816x10.Idx → EReal) (gw : S266x128.Idx → EReal) (gb : S1x128.Idx → EReal)
    (cw : S266x128.Idx → EReal) (cb : S1x128.Idx → EReal) : S802816x128.Idx → EReal :=
  fun i => Cert.Spec.msg (fun k => hs (ix2 (rowOf i) k)) (fun k => hd (ix2 (rowOf i) k)) (fun k => ef (ix2 (rowOf i) k))
    (fun k => gw (ix2 k (colOf i))) (gb (ix2 (0 : Fin 1) (colOf i))) (fun k => cw (ix2 k (colOf i))) (cb (ix2 (0 : Fin 1) (colOf i)))

/-- The printed index maps over the 196 grid points: the three edge inputs and the output sit at block (t, 0), the
    weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- WHAT POINT `t` WRITES BACK is block `t` of `msgAll` of the arrays as the region finds them. -/
theorem flushed_eq (c : Dev nD) (t : Fin cfg0.N) :
    (dat0 V c).flushed 7 t = ((cfg0.win 7).blk t).view.read (Elt Ideal)
      (msgAll (V c main_v20) (V c main_v21) (V c main_v22) (V c main_arg3) (V c main_v24) (V c main_arg5) (V c main_v25)) := by
  show (cfg0.win 7).cut (grid0.coords t) ((dat0 V c).after 7 t) = _
  rw [after0_7]
  unfold out0_7
  rw [View.canon_unit_zero hz]
  simp only [View.ld_unit_zero (S := S4096x128) hz, View.ld_unit_zero (S := S4096x10) hz, View.ld_unit_zero (S := S266x128) hz, View.ld_unit_zero (S := S1x128) hz]
  obtain ⟨e00, e01, e10, e11, e20, e21, e30, e31, e40, e41, e50, e51, e60, e61, e70, e71⟩ := idx_facts t
  funext j
  obtain ⟨p, q, rfl⟩ : ∃ (p : Fin 4096) (q : Fin 128), j = ix2 p q := ⟨j 0, j 1, eq_ix2 j⟩
  show k0_pay1 (F := Ideal) (k0_pay5 (F := Ideal) (iblk0 V c 0 t) (iblk0 V c 1 t) (iblk0 V c 2 t) (iblk0 V c 5 t) (iblk0 V c 6 t))
      (k0_pay6 (F := Ideal) (iblk0 V c 0 t) (iblk0 V c 1 t) (iblk0 V c 2 t) (iblk0 V c 3 t) (iblk0 V c 4 t)) (Scalar.ofBits .f32 0x00000000#32)
      (k0_pay7 (F := Ideal) (iblk0 V c 0 t) (iblk0 V c 1 t) (iblk0 V c 2 t) (iblk0 V c 5 t) (iblk0 V c 6 t)) (k0_pay8 (F := Ideal)) (ix2 p q)
    = msgAll (V c main_v20) (V c main_v21) (V c main_v22) (V c main_arg3) (V c main_v24) (V c main_arg5) (V c main_v25) (((cfg0.win 7).blk t).view.emb (ix2 p q))
  rw [KerPayload.msg_block_apply]
  unfold msgAll
  have r0 : (fun k : Fin 128 => iblk0 V c 0 t (ix2 p k)) = fun k => V c main_v20 (ix2 (rowOf (((cfg0.win 7).blk t).view.emb (ix2 p q))) k) :=
    funext fun k => by
    show V c main_v20 (((cfg0.win 0).blk t).view.emb (ix2 p k)) = _
    refine congrArg (V c main_v20) (funext fun a => Fin.ext ?_)
    match a with
    | ⟨0, _⟩ => show win0_0.index t (0 : Fin 2) * 4096 + 1 * p.val = win0_7.index t (0 : Fin 2) * 4096 + 1 * p.val; omega
    | ⟨1, _⟩ => show win0_0.index t (1 : Fin 2) * 128 + 1 * k.val = k.val; omega
  have r1 : (fun k : Fin 128 => iblk0 V c 1 t (ix2 p k)) = fun k => V c main_v21 (ix2 (rowOf (((cfg0.win 7).blk t).view.emb (ix2 p q))) k) :=
    funext fun k => by
    show V c main_v21 (((cfg0.win 1).blk t).view.emb (ix2 p k)) = _
    refine congrArg (V c main_v21) (funext fun a => Fin.ext ?_)
    match a with
    | ⟨0, _⟩ => show win0_1.index t (0 : Fin 2) * 4096 + 1 * p.val = win0_7.index t (0 : Fin 2) * 4096 + 1 * p.val; omega
    | ⟨1, _⟩ => show win0_1.index t (1 : Fin 2) * 128 + 1 * k.val = k.val; omega
  have r2 : (fun k : Fin 10 => iblk0 V c 2 t (ix2 p k)) = fun k => V c main_v22 (ix2 (rowOf (((cfg0.win 7).blk t).view.emb (ix2 p q))) k) :=
    funext fun k => by
    show V c main_v22 (((cfg0.win 2).blk t).view.emb (ix2 p k)) = _
    refine congrArg (V c main_v22) (funext fun a => Fin.ext ?_)
    match a with
    | ⟨0, _⟩ => show win0_2.index t (0 : Fin 2) * 4096 + 1 * p.val = win0_7.index t (0 : Fin 2) * 4096 + 1 * p.val; omega
    | ⟨1, _⟩ => show win0_2.index t (1 : Fin 2) * 10 + 1 * k.val = k.val; omega
  have r3 : (fun k : Fin 266 => iblk0 V c 3 t (ix2 k q)) = fun k => V c main_arg3 (ix2 k (colOf (((cfg0.win 7).blk t).view.emb (ix2 p q)))) :=
    funext fun k => by
    show V c main_arg3 (((cfg0.win 3).blk t).view.emb (ix2 k q)) = _
    refine congrArg (V c main_arg3) (funext fun a => Fin.ext ?_)
    match a with
    | ⟨0, _⟩ => show win0_3.index t (0 : Fin 2) * 266 + 1 * k.val = k.val; omega
    | ⟨1, _⟩ => show win0_3.index t (1 : Fin 2) * 128 + 1 * q.val = win0_7.index t (1 : Fin 2) * 128 + 1 * q.val; omega
  have r5 : (fun k : Fin 266 => iblk0 V c 5 t (ix2 k q)) = fun k => V c main_arg5 (ix2 k (colOf (((cfg0.win 7).blk t).view.emb (ix2 p q)))) :=
    funext fun k => by
    show V c main_arg5 (((cfg0.win 5).blk t).view.emb (ix2 k q)) = _
    refine congrArg (V c main_arg5) (funext fun a => Fin.ext ?_)
    match a with
    | ⟨0, _⟩ => show win0_5.index t (0 : Fin 2) * 266 + 1 * k.val = k.val; omega
    | ⟨1, _⟩ => show win0_5.index t (1 : Fin 2) * 128 + 1 * q.val = win0_7.index t (1 : Fin 2) * 128 + 1 * q.val; omega
  have r4 : iblk0 V c 4 t (ix2 (0 : Fin 1) q) = V c main_v24 (ix2 (0 : Fin 1) (colOf (((cfg0.win 7).blk t).view.emb (ix2 p q)))) := by
    show V c main_v24 (((cfg0.win 4).blk t).view.emb (ix2 (0 : Fin 1) q)) = _
    refine congrArg (V c main_v24) (funext fun a => Fin.ext ?_)
    match a with
    | ⟨0, _⟩ => show win0_4.index t (0 : Fin 2) * 1 + 1 * 0 = 0; omega
    | ⟨1, _⟩ => show win0_4.index t (1 : Fin 2) * 128 + 1 * q.val = win0_7.index t (1 : Fin 2) * 128 + 1 * q.val; omega
  have r6 : iblk0 V c 6 t (ix2 (0 : Fin 1) q) = V c main_v25 (ix2 (0 : Fin 1) (colOf (((cfg0.win 7).blk t).view.emb (ix2 p q)))) := by
    show V c main_v25 (((cfg0.win 6).blk t).view.emb (ix2 (0 : Fin 1) q)) = _
    refine congrArg (V c main_v25) (funext fun a => Fin.ext ?_)
    match a with
    | ⟨0, _⟩ => show win0_6.index t (0 : Fin 2) * 1 + 1 * 0 = 0; omega
    | ⟨1, _⟩ => show win0_6.index t (1 : Fin 2) * 128 + 1 * q.val = win0_7.index t (1 : Fin 2) * 128 + 1 * q.val; omega
  rw [r0, r1, r2, r3, r4, r5, r6]

/-- An index of the array is in point `t`'s block iff each coordinate is in the block's range on its axis. -/
theorem mem_blk (t : Fin cfg0.N) (i : S802816x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v26).slice (win0_7.rect t)).set ↔ _
  rw [View.set_slice_whole, Rect.mem_set_unit]
  exact Iff.rfl

/-- Every edge row is in the block of point `row / 4096`. -/
theorem cover (i : S802816x128.Idx) : ∃ t : Fin cfg0.N, (cfg0.win 7).flush t = true ∧ i ∈ ((cfg0.win 7).blk t).view.set := by
  have hi0 : (i 0).val < 802816 := idx2_lt0 i
  have hi1 : (i 1).val < 128 := idx2_lt1 i
  have hN : (i 0).val / 4096 < cfg0.N := by show _ < grid0.N; rw [N_0]; omega
  obtain ⟨-, -, -, -, -, -, -, -, -, -, -, -, -, -, e70, e71⟩ := idx_facts ⟨(i 0).val / 4096, hN⟩
  refine ⟨⟨(i 0).val / 4096, hN⟩, flush0_7 _, ?_⟩
  rw [mem_blk]
  intro a
  match a with
  | ⟨0, _⟩ =>
    show win0_7.index ⟨(i 0).val / 4096, hN⟩ (0 : Fin 2) * 4096 ≤ (i 0).val ∧ (i 0).val < win0_7.index ⟨(i 0).val / 4096, hN⟩ (0 : Fin 2) * 4096 + 4096
    rw [e70]; show (i 0).val / 4096 * 4096 ≤ (i 0).val ∧ (i 0).val < (i 0).val / 4096 * 4096 + 4096; omega
  | ⟨1, _⟩ =>
    show win0_7.index ⟨(i 0).val / 4096, hN⟩ (1 : Fin 2) * 128 ≤ (i 1).val ∧ (i 1).val < win0_7.index ⟨(i 0).val / 4096, hN⟩ (1 : Fin 2) * 128 + 128
    rw [e71]; omega

/-- THE OUTPUT ARRAY after the region: `msgAll` of the seven input arrays as the region finds them. -/
theorem final (c : Dev nD) :
    (dat0 V c).arrAt 7 cfg0.N
      = msgAll (V c main_v20) (V c main_v21) (V c main_v22) (V c main_arg3) (V c main_v24) (V c main_arg5) (V c main_v25) :=
  (dat0 V c).arrAt_eq_of_cover 7
    (msgAll (V c main_v20) (V c main_v21) (V c main_v22) (V c main_arg3) (V c main_v24) (V c main_arg5) (V c main_v25))
    (fun t _ => flushed_eq V c t) (cover)

end Cert.KernelIdeal.KerRegion0

end
-- ==== Proof.KerRegion1.lean ====
/-
  The normalisation region's output array, whole.

  The region walks 13 blocks of 4096 rows over a 53248 x 128 array. At block `t` it reads rows
  `4096 t .. 4096 t + 4095` of the padded node features `h` and of the padded aggregate `a`, the one scale row `s`
  and the one shift row `t`, and writes the same rows of the output. So entry (i, j) of the output is
  `softplus(h(i, j) + (a(i, j) * s(0, j) + t(0, j)))`: one function of the four arrays at the region's entry,
  since the 13 blocks tile all 53248 rows (row `i` is in block `i / 4096`).
-/
import proofs.«121464_j6270652252664_2_alg».proof.Proof.Gen.KernelIdeal.Frame
import proofs.«121464_j6270652252664_2_alg».proof.Proof.KerPayload
import Idealize.ShloMosaic.Lib.Pipeline.Value
import proofs.«121464_j6270652252664_2_alg».proof.Proof.Gen.KernelIdeal.Launch
import proofs.«121464_j6270652252664_2_alg».proof.Proof.Gen.KernelIdeal.Skeleton
import proofs.«121464_j6270652252664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.KerRegion1

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- The scale / shift row's entry under column `i 1`. -/
def colOf (i : S53248x128.Idx) : S1x128.Idx := ix2 (0 : Fin 1) (⟨(i 1).val, idx2_lt1 i⟩ : Fin 128)

/-- The output array as one function of the four input arrays. -/
def normAll (h a : S53248x128.Idx → EReal) (s t : S1x128.Idx → EReal) : S53248x128.Idx → EReal :=
  fun i => Cert.Spec.splus (h i + (a i * s (colOf i) + t (colOf i)))

/-- The printed index maps over the 13 grid points: the two big inputs and the output sit at block (t, 0), the two rows
    at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT `t` WRITES BACK is block `t` of `normAll` of the arrays as the region finds them. -/
theorem flushed_eq (c : Dev nD) (t : Fin cfg1.N) :
    (dat1 V c).flushed 4 t = ((cfg1.win 4).blk t).view.read (Elt Ideal)
      (normAll (V c main_v43) (V c main_v44) (V c main_v41) (V c main_v42)) := by
  show (cfg1.win 4).cut (grid1.coords t) ((dat1 V c).after 4 t) = _
  rw [after1_4]
  unfold out1_4
  rw [View.canon_unit_zero hz]
  simp only [View.ld_unit_zero (S := S4096x128) hz, View.ld_unit_zero (S := S1x128) hz]
  obtain ⟨e00, e01, e10, e11, e20, e21, e30, e31, e40, e41⟩ := idx_facts t
  funext j
  obtain ⟨p, q, rfl⟩ : ∃ (p : Fin 4096) (q : Fin 128), j = ix2 p q := ⟨j 0, j 1, eq_ix2 j⟩
  show k1_pay1 (F := Ideal) (iblk1 V c 1 t) (iblk1 V c 2 t) (iblk1 V c 3 t) (iblk1 V c 0 t) (ix2 p q)
    = normAll (V c main_v43) (V c main_v44) (V c main_v41) (V c main_v42) (((cfg1.win 4).blk t).view.emb (ix2 p q))
  rw [KerPayload.norm_block_apply]
  unfold normAll
  have h0 : iblk1 V c 0 t (ix2 p q) = V c main_v43 (((cfg1.win 4).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 4096 + 1 * p.val = win1_4.index t (0 : Fin 2) * 4096 + 1 * p.val; omega
    | ⟨1, _⟩ => show win1_0.index t (1 : Fin 2) * 128 + 1 * q.val = win1_4.index t (1 : Fin 2) * 128 + 1 * q.val; omega
  have h1 : iblk1 V c 1 t (ix2 p q) = V c main_v44 (((cfg1.win 4).blk t).view.emb (ix2 p q)) := by
    show V c main_v44 (((cfg1.win 1).blk t).view.emb (ix2 p q)) = _
    refine congrArg (V c main_v44) (funext fun a => Fin.ext ?_)
    match a with
    | ⟨0, _⟩ => show win1_1.index t (0 : Fin 2) * 4096 + 1 * p.val = win1_4.index t (0 : Fin 2) * 4096 + 1 * p.val; omega
    | ⟨1, _⟩ => show win1_1.index t (1 : Fin 2) * 128 + 1 * q.val = win1_4.index t (1 : Fin 2) * 128 + 1 * q.val; omega
  have h2 : iblk1 V c 2 t (ix2 (0 : Fin 1) q) = V c main_v41 (colOf (((cfg1.win 4).blk t).view.emb (ix2 p q))) := by
    show V c main_v41 (((cfg1.win 2).blk t).view.emb (ix2 (0 : Fin 1) q)) = _
    refine congrArg (V c main_v41) (funext fun a => Fin.ext ?_)
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  have h3 : iblk1 V c 3 t (ix2 (0 : Fin 1) q) = V c main_v42 (colOf (((cfg1.win 4).blk t).view.emb (ix2 p q))) := by
    show V c main_v42 (((cfg1.win 3).blk t).view.emb (ix2 (0 : Fin 1) q)) = _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  rw [h0, h1, h2, h3]

/-- An index of the array is in point `t`'s block iff each coordinate is in the block's range on its axis. -/
theorem mem_blk (t : Fin cfg1.N) (i : S53248x128.Idx) :
    i ∈ ((cfg1.win 4).blk t).view.set ↔ ∀ a : Fin 2, win1_4.index t a * S4096x128.size a ≤ (i a).val ∧ (i a).val < win1_4.index t a * S4096x128.size a + S4096x128.size a := by
  show i ∈ ((View.whole main_v45).slice (win1_4.rect t)).set ↔ _
  rw [View.set_slice_whole, Rect.mem_set_unit]
  exact Iff.rfl

/-- Every row is in the block of point `row / 4096`. -/
theorem cover (i : S53248x128.Idx) : ∃ t : Fin cfg1.N, (cfg1.win 4).flush t = true ∧ i ∈ ((cfg1.win 4).blk t).view.set := by
  have hi0 : (i 0).val < 53248 := idx2_lt0 i
  have hi1 : (i 1).val < 128 := idx2_lt1 i
  have hN : (i 0).val / 4096 < cfg1.N := by show _ < grid1.N; rw [N_1]; omega
  obtain ⟨-, -, -, -, -, -, -, -, e40, e41⟩ := idx_facts ⟨(i 0).val / 4096, hN⟩
  refine ⟨⟨(i 0).val / 4096, hN⟩, flush1_4 _, ?_⟩
  rw [mem_blk]
  intro a
  match a with
  | ⟨0, _⟩ =>
    show win1_4.index ⟨(i 0).val / 4096, hN⟩ (0 : Fin 2) * 4096 ≤ (i 0).val ∧ (i 0).val < win1_4.index ⟨(i 0).val / 4096, hN⟩ (0 : Fin 2) * 4096 + 4096
    rw [e40]; show (i 0).val / 4096 * 4096 ≤ (i 0).val ∧ (i 0).val < (i 0).val / 4096 * 4096 + 4096; omega
  | ⟨1, _⟩ =>
    show win1_4.index ⟨(i 0).val / 4096, hN⟩ (1 : Fin 2) * 128 ≤ (i 1).val ∧ (i 1).val < win1_4.index ⟨(i 0).val / 4096, hN⟩ (1 : Fin 2) * 128 + 128
    rw [e41]; omega

/-- THE OUTPUT ARRAY after the region: `normAll` of the four input arrays as the region finds them. -/
theorem final (c : Dev nD) :
    (dat1 V c).arrAt 4 cfg1.N = normAll (V c main_v43) (V c main_v44) (V c main_v41) (V c main_v42) :=
  (dat1 V c).arrAt_eq_of_cover 4 (normAll (V c main_v43) (V c main_v44) (V c main_v41) (V c main_v42))
    (fun t _ => flushed_eq V c t) (cover)

end Cert.KernelIdeal.KerRegion1

end
-- ==== Proof.LibSumSplit.lean ====
/-
  A 266-term sum, read as its three consecutive stretches: terms 0..127, 128..255 and 256..265.
  This holds in every commutative additive monoid (only associativity of the ordered sum is used).
-/
import Mathlib

namespace Cert.LibSumSplit

open Finset

/-- A sum over `Fin (m + n)` is the sum of its first `m` terms plus the sum of its last `n` terms,
    with the indices written out as natural numbers below the bound. -/
theorem sum_fin_add {M : Type*} [AddCommMonoid M] (m n : ℕ) (f : Fin (m + n) → M) :
    ∑ k : Fin (m + n), f k
      = ∑ k : Fin m, f ⟨k.val, by omega⟩ + ∑ k : Fin n, f ⟨m + k.val, by omega⟩ := by
  rw [Fin.sum_univ_add]
  rfl

/-- A 266-term sum is the sum of its terms 0..127, plus the sum of its terms 128..255, plus the sum
    of its terms 256..265. -/
theorem sum_fin_266 {M : Type*} [AddCommMonoid M] (f : Fin 266 → M) :
    ∑ k : Fin 266, f k
      = (∑ k : Fin 128, f ⟨k.val, by omega⟩ + ∑ k : Fin 128, f ⟨128 + k.val, by omega⟩)
        + ∑ k : Fin 10, f ⟨256 + k.val, by omega⟩ := by
  have h1 := sum_fin_add (M := M) 256 10 f
  have h2 := sum_fin_add (M := M) 128 128 (fun k : Fin (128 + 128) => f ⟨k.val, by omega⟩)
  rw [h1]
  congr 1
-- ==== Proof.RefRead.lean ====
/-
  The reference's stages read at one index, in terms of the scalar functions of the specification.

  The pointwise stages (logistic, softplus) unfold entry by entry; the guard of the softplus, "x - 0 differs
  from x - 0", is never true of an extended real, so the stable form is the branch taken. A logit is the host
  product at (e, j), a sum over the 266 contracted columns, plus the bias broadcast along the rows; the sum is
  cut into its three stretches, and in each the concatenated input reads the source row, the destination row
  (column less 128) or the edge features (column less 256).
-/
import proofs.«121464_j6270652252664_2_alg».proof.Proof.RefStages
import proofs.«121464_j6270652252664_2_alg».proof.Proof.Spec
import proofs.«121464_j6270652252664_2_alg».proof.Proof.LibSumSplit
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember

noncomputable section

namespace Cert.ReferenceIdeal.RefRead

open Idealize.ShloMosaic Idealize.ShloMosaic.ValueIdx Cert.ReferenceIdeal Cert.ReferenceIdeal.RefStages

variable [Facts]
open Facts₀ Facts

/-! ## The pointwise stages -/

/-- The pattern of `1.0` denotes `1`. -/
private theorem ofBits_one : Ideal.ofBits .f32 0x3F800000#32 = (1 : EReal) := by
  simp [Ideal.ofBits, Ideal.ieee, -EReal.coe_mul]; norm_num

/-- No extended real differs from itself: the "unordered or not equal" comparison of a value with itself
    answers false. -/
theorem cmp_une_self (y : EReal) : Ideal.cmp .une y y = 0#1 := by
  show BitVec.ofBool (decide (y ≠ y)) = 0#1
  simp

/-- The logistic stage at an entry is the logistic function of the entry. -/
theorem sigmOf_apply (x : FVec Ideal S800000x128 .f32) (i : S800000x128.Idx) : sigmOf x i = Cert.Spec.sigm (x i) := by
  show Ideal.div (Ideal.ofBits .f32 0x3F800000#32) (Ideal.ofBits .f32 0x3F800000#32 + Ideal.exp (-(x i)))
    = Ideal.logistic (x i)
  rw [ofBits_one]
  rfl

/-- The softplus stage over the edge array at an entry is the stable softplus of the entry. -/
theorem splusE_apply (x : FVec Ideal S800000x128 .f32) (i : S800000x128.Idx) : splusE x i = Cert.Spec.splus (x i) := by
  show Scalar.select
      (Ideal.cmp .une (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (-(max (x i - Ideal.ofBits .f32 0x00000000#32)
            (-(x i - Ideal.ofBits .f32 0x00000000#32))))))
    = Cert.Spec.splus (x i)
  rw [cmp_une_self, select_zero, Ideal.ofBits_zero_f32, sub_zero]
  rfl

/-- The softplus stage over the node array at an entry is the stable softplus of the entry. -/
theorem splusN_apply (x : FVec Ideal S50000x128 .f32) (i : S50000x128.Idx) : splusN x i = Cert.Spec.splus (x i) := by
  show Scalar.select
      (Ideal.cmp .une (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (-(max (x i - Ideal.ofBits .f32 0x00000000#32)
            (-(x i - Ideal.ofBits .f32 0x00000000#32))))))
    = Cert.Spec.splus (x i)
  rw [cmp_une_self, select_zero, Ideal.ofBits_zero_f32, sub_zero]
  rfl

/-! ## The product, the bias and the concatenation at an index -/

/-- The host product of an 800000 x 266 by a 266 x 128 matrix at (e, j): the sum over the contracted column. -/
theorem prod_apply (z : FVec Ideal S800000x266 .f32) (w : FVec Ideal S266x128 .f32) (e : Fin 800000) (j : Fin 128) :
    Host.dotGeneral (F := Ideal) dot_S800000x266_S266x128_S800000x128_1_0_0_1_n_n none z w (ix2 e j)
      = ∑ c : Fin 266, z (ix2 e c) * w (ix2 c j) :=
  StackMember.dotGeneral_plain_apply (m := 800000) (n := 128) (k := 266) none z w e j

/-- A 128-vector made a 1 x 128 row and repeated down the 800000 rows reads, at (e, j), its entry j. -/
theorem biasE_apply (b : FVec Ideal S128 .f32) (e : Fin 800000) (j : Fin 128) :
    broadcastInDim S800000x128 ![0, 1] bcast_S1x128_S800000x128_0_1
        (broadcastInDim S1x128 ![1] bcast_S128_S1x128_1 b) (ix2 e j) = b (ix1 j) := by
  refine (broadcastInDim_apply _ _ _ (ix2 e j) (ix2 (0 : Fin 1) j) ?_).trans ?_
  · intro a
    match a with
    | ⟨0, _⟩ => rfl
    | ⟨1, _⟩ => rfl
  · refine broadcastInDim_apply _ _ _ _ (ix1 j) ?_
    intro a
    match a with
    | ⟨0, _⟩ => rfl

/-- A 128-vector repeated down the 50000 rows reads, at (i, j), its entry j. -/
theorem rowB_apply (v : FVec Ideal S128 .f32) (i : Fin 50000) (j : Fin 128) : rowB v (ix2 i j) = v (ix1 j) := by
  unfold rowB
  refine (broadcastInDim_apply _ _ _ (ix2 i j) (ix2 (0 : Fin 1) j) ?_).trans ?_
  · intro a
    match a with
    | ⟨0, _⟩ => rfl
    | ⟨1, _⟩ => rfl
  · refine broadcastInDim_apply _ _ _ _ (ix1 j) ?_
    intro a
    match a with
    | ⟨0, _⟩ => rfl

/-- Columns 0..127 of the edge input are the source row. -/
theorem catOf_apply_src (hs hd : FVec Ideal S800000x128 .f32) (ef : FVec Ideal S800000x10 .f32) (e : Fin 800000)
    (k : Fin 128) : catOf hs hd ef (ix2 e (⟨k.val, by omega⟩ : Fin 266)) = hs (ix2 e k) := by
  unfold catOf
  refine concatenate_apply_piece (t := S800000x266) (1 : Fin 2) [⟨S800000x128, hs⟩, ⟨S800000x128, hd⟩, ⟨S800000x10, ef⟩]
    concatenates_S800000x128_S800000x128_S800000x10_S800000x266_d1 _ 0 (by show 0 < 3; omega) S800000x128 hs rfl rfl 0 rfl (ix2 e k) ?_ ?_
  · intro b
    match b with
    | ⟨0, _⟩ => exact fun _ => rfl
    | ⟨1, _⟩ => exact fun h => absurd rfl h
  · show 0 + k.val = k.val
    omega

/-- Columns 128..255 of the edge input are the destination row. -/
theorem catOf_apply_dst (hs hd : FVec Ideal S800000x128 .f32) (ef : FVec Ideal S800000x10 .f32) (e : Fin 800000)
    (k : Fin 128) : catOf hs hd ef (ix2 e (⟨128 + k.val, by omega⟩ : Fin 266)) = hd (ix2 e k) := by
  unfold catOf
  refine concatenate_apply_piece (t := S800000x266) (1 : Fin 2) [⟨S800000x128, hs⟩, ⟨S800000x128, hd⟩, ⟨S800000x10, ef⟩]
    concatenates_S800000x128_S800000x128_S800000x10_S800000x266_d1 _ 1 (by show 1 < 3; omega) S800000x128 hd rfl rfl 128 rfl (ix2 e k) ?_ ?_
  · intro b
    match b with
    | ⟨0, _⟩ => exact fun _ => rfl
    | ⟨1, _⟩ => exact fun h => absurd rfl h
  · show 128 + k.val = 128 + k.val
    rfl

/-- Columns 256..265 of the edge input are the edge features. -/
theorem catOf_apply_ef (hs hd : FVec Ideal S800000x128 .f32) (ef : FVec Ideal S800000x10 .f32) (e : Fin 800000)
    (k : Fin 10) : catOf hs hd ef (ix2 e (⟨256 + k.val, by omega⟩ : Fin 266)) = ef (ix2 e k) := by
  unfold catOf
  refine concatenate_apply_piece (t := S800000x266) (1 : Fin 2) [⟨S800000x128, hs⟩, ⟨S800000x128, hd⟩, ⟨S800000x10, ef⟩]
    concatenates_S800000x128_S800000x128_S800000x10_S800000x266_d1 _ 2 (by show 2 < 3; omega) S800000x10 ef rfl rfl 256 rfl (ix2 e k) ?_ ?_
  · intro b
    match b with
    | ⟨0, _⟩ => exact fun _ => rfl
    | ⟨1, _⟩ => exact fun h => absurd rfl h
  · show 256 + k.val = 256 + k.val
    rfl

/-! ## The logits and the message -/

/-- A logit of the reference at (e, j) is the specification's logit of the edge's three input rows, column j of the
    weights and entry j of the bias. -/
theorem logitsOf_apply (hs hd : FVec Ideal S800000x128 .f32) (ef : FVec Ideal S800000x10 .f32)
    (w : FVec Ideal S266x128 .f32) (b : FVec Ideal S128 .f32) (e : Fin 800000) (j : Fin 128) :
    logitsOf (catOf hs hd ef) w b (ix2 e j)
      = Cert.Spec.logit (fun k => hs (ix2 e k)) (fun k => hd (ix2 e k)) (fun k => ef (ix2 e k))
          (fun k => w (ix2 k j)) (b (ix1 j)) := by
  show Host.dotGeneral (F := Ideal) dot_S800000x266_S266x128_S800000x128_1_0_0_1_n_n none (catOf hs hd ef) w (ix2 e j)
      + broadcastInDim S800000x128 ![0, 1] bcast_S1x128_S800000x128_0_1
          (broadcastInDim S1x128 ![1] bcast_S128_S1x128_1 b) (ix2 e j) = _
  rw [prod_apply, biasE_apply, Cert.LibSumSplit.sum_fin_266]
  unfold Cert.Spec.logit
  simp only [catOf_apply_src, catOf_apply_dst, catOf_apply_ef]

/-- The message of the reference at (e, j) is the specification's message of the edge's gathered source and
    destination rows and its features, under the gate's and the candidate's weights and biases. -/
theorem msgOf_apply (a0 : FVec Ideal S50000x128 .f32) (a1 : IVec S2x800000 32) (a2 : FVec Ideal S800000x10 .f32)
    (a3 : FVec Ideal S266x128 .f32) (a4 : FVec Ideal S128 .f32) (a5 : FVec Ideal S266x128 .f32)
    (a6 : FVec Ideal S128 .f32) (e : Fin 800000) (j : Fin 128) :
    msgOf a0 a1 a2 a3 a4 a5 a6 (ix2 e j)
      = Cert.Spec.msg (fun k => rowsOf a0 (srcIdx a1) (ix2 e k)) (fun k => rowsOf a0 (dstIdx a1) (ix2 e k))
          (fun k => a2 (ix2 e k)) (fun k => a3 (ix2 k j)) (a4 (ix1 j)) (fun k => a5 (ix2 k j)) (a6 (ix1 j)) := by
  unfold msgOf Cert.Spec.msg
  rw [mulf_apply, sigmOf_apply, splusE_apply, logitsOf_apply, logitsOf_apply]

/-! ## The normalised, shifted and activated node feature -/

/-- The reference's result at (i, j), from the aggregate: the softplus of the node feature plus the centred
    aggregate times the reciprocal standard deviation, scaled and shifted. -/
theorem refTail_apply (a0 agg : FVec Ideal S50000x128 .f32) (a7 a8 : FVec Ideal S128 .f32) (i : Fin 50000)
    (j : Fin 128) :
    splusN (normOf a0 agg a7 a8) (ix2 i j)
      = Cert.Spec.outCentered (a0 (ix2 i j)) (agg (ix2 i j)) (meanOf agg (ix1 j)) (rstdOf agg (ix1 j)) (a7 (ix1 j))
          (a8 (ix1 j)) := by
  rw [splusN_apply]
  unfold normOf Cert.Spec.outCentered
  rw [addf_apply, addf_apply, mulf_apply, mulf_apply, subf_apply, rowB_apply, rowB_apply, rowB_apply, rowB_apply]

end Cert.ReferenceIdeal.RefRead

end
-- ==== Proof.LibRealValued.lean ====
/-
  Real-valued extended reals. A quantity is real-valued when it is the image of a real number, that is,
  neither of the two infinities. The arithmetic of the extended reals restricted to real-valued
  quantities is the arithmetic of the real numbers, and the elementary functions used here (exponential,
  logistic function, stable softplus, division by a nonzero real, reciprocal square root of a positive
  real) keep a real-valued argument real-valued.
-/
import Mathlib
import Idealize.ShloMosaic.PureOps.Ideal
import Idealize.ShloMosaic.PureOps.Ideal.Laws
import Idealize.ShloMosaic.Lib.ValueIdx
import proofs.«121464_j6270652252664_2_alg».proof.Proof.Spec

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- The logistic function of a real-valued quantity is real-valued: `1 + e^{-x}` is a nonzero real. -/
theorem isReal_sigm {x : EReal} (h : IsReal x) : IsReal (Cert.Spec.sigm x) := by
  obtain ⟨a, rfl⟩ := h
  exact ⟨(1 + Real.exp (-a))⁻¹, Ideal.logistic_coe a⟩

/-- The stable softplus `max(x, 0) + log(1 + e^{-|x|})` of a real number, as a real number: since
    `1 + e^{-|x|} > 0`, the logarithm is the real logarithm. -/
theorem splus_coe (a : ℝ) :
    Cert.Spec.splus (a : EReal)
      = ((Max.max a 0 + Real.log (1 + Real.exp (-(Max.max a (-a)))) : ℝ) : EReal) := by
  have hpos : ¬ (1 + Real.exp (-(Max.max a (-a))) ≤ 0) := by
    have : (0 : ℝ) < 1 + Real.exp (-(Max.max a (-a))) := by positivity
    exact not_le.2 this
  unfold Cert.Spec.splus Ideal.log1p
  rw [← EReal.coe_neg a, coe_max a (-a), ← EReal.coe_neg, Ideal.exp_coe, ← EReal.coe_one,
    ← EReal.coe_add, Ideal.log_coe, if_neg hpos, ← EReal.coe_zero, coe_max a 0,
    ← EReal.coe_add]

/-- The stable softplus of a real-valued quantity is real-valued. -/
theorem isReal_splus {x : EReal} (h : IsReal x) : IsReal (Cert.Spec.splus x) := by
  obtain ⟨a, rfl⟩ := h
  exact ⟨_, splus_coe a⟩

/-- A logit (a 266-term contraction in three stretches, plus a bias) of real-valued rows, weights
    and bias is real-valued. -/
theorem isReal_logit {hs hd : Fin 128 → EReal} {ef : Fin 10 → EReal} {w : Fin 266 → EReal} {b : EReal}
    (hhs : ∀ k, IsReal (hs k)) (hhd : ∀ k, IsReal (hd k)) (hef : ∀ k, IsReal (ef k))
    (hw : ∀ k, IsReal (w k)) (hb : IsReal b) : IsReal (Cert.Spec.logit hs hd ef w b) := by
  unfold Cert.Spec.logit
  refine IsReal.add (IsReal.add (IsReal.add ?_ ?_) ?_) hb
  · exact IsReal.sum _ _ fun k _ => (hhs k).mul (hw _)
  · exact IsReal.sum _ _ fun k _ => (hhd k).mul (hw _)
  · exact IsReal.sum _ _ fun k _ => (hef k).mul (hw _)

/-- The message (logistic gate times softplus candidate) of real-valued rows, weights and biases is
    real-valued. -/
theorem isReal_msg {hs hd : Fin 128 → EReal} {ef : Fin 10 → EReal} {gw : Fin 266 → EReal} {gb : EReal}
    {cw : Fin 266 → EReal} {cb : EReal}
    (hhs : ∀ k, IsReal (hs k)) (hhd : ∀ k, IsReal (hd k)) (hef : ∀ k, IsReal (ef k))
    (hgw : ∀ k, IsReal (gw k)) (hgb : IsReal gb) (hcw : ∀ k, IsReal (cw k)) (hcb : IsReal cb) :
    IsReal (Cert.Spec.msg hs hd ef gw gb cw cb) := by
  unfold Cert.Spec.msg
  exact (isReal_sigm (isReal_logit hhs hhd hef hgw hgb)).mul
    (isReal_splus (isReal_logit hhs hhd hef hcw hcb))

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

/-- The reciprocal square root of a positive real number is real-valued (and is `(√r)⁻¹`). -/
theorem rsqrt_coe_of_pos {r : ℝ} (h : 0 < r) :
    Ideal.rsqrt (r : EReal) = (((Real.sqrt r)⁻¹ : ℝ) : EReal) := by
  rw [Ideal.rsqrt_coe, if_neg (not_lt.2 h.le), if_neg h.ne']

/-- The reciprocal square root of a positive real number is real-valued. -/
theorem isReal_rsqrt_of_pos {r : ℝ} (h : 0 < r) : IsReal (Ideal.rsqrt (r : EReal)) :=
  ⟨_, rsqrt_coe_of_pos h⟩

/-- A finite sum of squared deviations `(x i - μ) * (x i - μ)` of real-valued quantities from a
    real-valued centre is a nonnegative real number. -/
theorem IsReal.exists_nonneg_sq_sum {ι : Type*} (s : Finset ι) (x : ι → EReal) (μ : EReal)
    (hx : ∀ i ∈ s, IsReal (x i)) (hμ : IsReal μ) :
    ∃ r : ℝ, 0 ≤ r ∧ ∑ i ∈ s, (x i - μ) * (x i - μ) = (r : EReal) := by
  classical
  obtain ⟨m, rfl⟩ := hμ
  induction s using Finset.induction_on with
  | empty => exact ⟨0, le_refl 0, by simp⟩
  | insert a s ha ih =>
    obtain ⟨r, hr, hsum⟩ := ih fun i hi => hx i (Finset.mem_insert_of_mem hi)
    obtain ⟨xa, hxa⟩ := hx a (Finset.mem_insert_self a s)
    refine ⟨(xa - m) * (xa - m) + r, add_nonneg (mul_self_nonneg _) hr, ?_⟩
    rw [Finset.sum_insert ha, hsum, hxa, ← EReal.coe_sub, ← EReal.coe_mul, ← EReal.coe_add]

/-- A nonnegative real divided by a positive real is a nonnegative real. -/
theorem div_coe_nonneg {r : ℝ} (hr : 0 ≤ r) {n : ℝ} (hn : 0 < n) :
    ∃ v : ℝ, 0 ≤ v ∧ Ideal.div (r : EReal) (n : EReal) = (v : EReal) :=
  ⟨r * (1 / n), mul_nonneg hr (by positivity), by
    rw [Ideal.div_coe hn.ne' (r : EReal), ← EReal.coe_mul]⟩

/-- The biased variance shape: a finite sum of squared deviations of real-valued quantities from a
    real-valued centre, divided by a positive real number, is a nonnegative real number. -/
theorem IsReal.exists_nonneg_sq_sum_div {ι : Type*} (s : Finset ι) (x : ι → EReal) (μ : EReal)
    (hx : ∀ i ∈ s, IsReal (x i)) (hμ : IsReal μ) {n : ℝ} (hn : 0 < n) :
    ∃ v : ℝ, 0 ≤ v ∧ Ideal.div (∑ i ∈ s, (x i - μ) * (x i - μ)) (n : EReal) = (v : EReal) := by
  obtain ⟨r, hr, hsum⟩ := IsReal.exists_nonneg_sq_sum s x μ hx hμ
  rw [hsum]
  exact div_coe_nonneg hr hn

/-- A nonnegative real plus a positive real is a positive real. -/
theorem add_coe_pos {v : ℝ} (hv : 0 ≤ v) {ε : ℝ} (hε : 0 < ε) :
    ∃ p : ℝ, 0 < p ∧ (v : EReal) + (ε : EReal) = (p : EReal) :=
  ⟨v + ε, add_pos_of_nonneg_of_pos hv hε, (EReal.coe_add v ε).symm⟩

/-- The reciprocal square root of (a nonnegative real plus a positive real) is real-valued. -/
theorem isReal_rsqrt_add {v : ℝ} (hv : 0 ≤ v) {ε : ℝ} (hε : 0 < ε) :
    IsReal (Ideal.rsqrt ((v : EReal) + (ε : EReal))) := by
  obtain ⟨p, hp, h⟩ := add_coe_pos hv hε
  rw [h]
  exact isReal_rsqrt_of_pos hp

end Cert.RealValued
-- ==== Proof.BnLaw.lean ====
/-
  The batch-normalisation affine map, spelled two ways. With scale `γ * r` and shift `β - μ * (γ * r)`,
  `a * (γ * r) + (β - μ * (γ * r)) = (a - μ) * r * γ + β`: this is distributivity, which holds for real
  numbers; on the extended reals it needs every quantity to be real-valued.
-/
import Mathlib
import proofs.«121464_j6270652252664_2_alg».proof.Proof.Spec
import proofs.«121464_j6270652252664_2_alg».proof.Proof.LibRealValued

namespace Cert.BnLaw

open Cert.RealValued

/-- The folded affine map equals the centred one on real-valued quantities:
    `a * (γ * r) + (β - μ * (γ * r)) = ((a - μ) * r) * γ + β`. -/
theorem affine_eq_centered {a μ r γ β : EReal} (ha : IsReal a) (hμ : IsReal μ) (hr : IsReal r)
    (hγ : IsReal γ) (hβ : IsReal β) :
    a * (γ * r) + (β - μ * (γ * r)) = ((a - μ) * r) * γ + β := by
  obtain ⟨a, rfl⟩ := ha
  obtain ⟨m, rfl⟩ := hμ
  obtain ⟨r, rfl⟩ := hr
  obtain ⟨g, rfl⟩ := hγ
  obtain ⟨b, rfl⟩ := hβ
  simp only [← EReal.coe_mul, ← EReal.coe_sub, ← EReal.coe_add]
  congr 1
  ring

/-- The activated node feature spelled with the folded affine map equals the one spelled with the
    centred map, when every quantity is real-valued. -/
theorem outAffine_eq_outCentered {h a μ r γ β : EReal} (hh : IsReal h) (ha : IsReal a) (hμ : IsReal μ)
    (hr : IsReal r) (hγ : IsReal γ) (hβ : IsReal β) :
    Cert.Spec.outAffine h a μ r γ β = Cert.Spec.outCentered h a μ r γ β := by
  obtain ⟨h, rfl⟩ := hh
  unfold Cert.Spec.outAffine Cert.Spec.outCentered
  rw [affine_eq_centered ha hμ hr hγ hβ]

end Cert.BnLaw
-- ==== Proof.Bridge.lean ====
/-
  The two places where the tiled program and the reference spell the same numbers differently.

  Messages. The tiled program pads the gathered source rows, destination rows and edge features from 800000
  to 802816 rows and reshapes each bias to one row; on a real edge row `e < 800000` every padded array reads
  what the unpadded one holds, so its message at (e, j) is the reference's message at (e, j).

  Normalisation. The tiled program pads the node features and the aggregate from 50000 to 53248 rows, folds
  the affine map into a scale row `gamma * rstd` and a shift row `beta - mean * (gamma * rstd)`, and cuts the result
  back to 50000 rows; the reference centres, scales and shifts in turn. On a real row the two agree because
  `a * (gamma * r) + (beta - mu * (gamma * r)) = (a - mu) * r * gamma + beta` for REAL numbers (distributivity, which
  fails at the infinities: this is where every quantity has to be known real).
-/
import proofs.«121464_j6270652252664_2_alg».proof.Proof.KerRegion0
import proofs.«121464_j6270652252664_2_alg».proof.Proof.KerRegion1
import proofs.«121464_j6270652252664_2_alg».proof.Proof.RefRead
import proofs.«121464_j6270652252664_2_alg».proof.Proof.BnLaw
import proofs.«121464_j6270652252664_2_alg».proof.Proof.Gen.ReferenceIdeal
import Idealize.ShloMosaic.Lib.KernelVsHost
import Idealize.ShloMosaic.Lib.ValueLayout

noncomputable section

namespace Cert.Bridge

open Idealize.ShloMosaic Idealize.ShloMosaic.ValueIdx
open Cert.ReferenceIdeal.RefStages Cert.RealValued

/-! ## Padded arrays read on the real rows -/

/-- An 800000 x 128 array padded below to 802816 rows reads, on a real row, the array. -/
theorem pad_rows128_apply (x : Cert.ReferenceIdeal.S800000x128.Idx → EReal) (z : Cert.KernelIdeal.S_.Idx → EReal) (e : Fin 800000) (k : Fin 128) :
    pad Cert.KernelIdeal.S802816x128 ![0, 0] ![2816, 0] ![0, 0] x z Cert.KernelIdeal.Facts₀.pads_S800000x128_S802816x128_028160_000 Cert.KernelIdeal.Facts₀.h_S_
      (ix2 (⟨e.val, by omega⟩ : Fin 802816) k) = x (ix2 e k) :=
  pad_apply_of_inside _ _ _ x z _ _ _ (ix2 e k) (fun a => by
    match a with
    | ⟨0, _⟩ => show e.val = 0 + e.val * (0 + 1); omega
    | ⟨1, _⟩ => show k.val = 0 + k.val * (0 + 1); omega)

/-- The same for the 10-wide edge features. -/
theorem pad_rows10_apply (x : Cert.ReferenceIdeal.S800000x10.Idx → EReal) (z : Cert.KernelIdeal.S_.Idx → EReal) (e : Fin 800000) (k : Fin 10) :
    pad Cert.KernelIdeal.S802816x10 ![0, 0] ![2816, 0] ![0, 0] x z Cert.KernelIdeal.Facts₀.pads_S800000x10_S802816x10_028160_000 Cert.KernelIdeal.Facts₀.h_S_
      (ix2 (⟨e.val, by omega⟩ : Fin 802816) k) = x (ix2 e k) :=
  pad_apply_of_inside _ _ _ x z _ _ _ (ix2 e k) (fun a => by
    match a with
    | ⟨0, _⟩ => show e.val = 0 + e.val * (0 + 1); omega
    | ⟨1, _⟩ => show k.val = 0 + k.val * (0 + 1); omega)

/-- A 50000 x 128 array padded below to 53248 rows reads, on a real row, the array. -/
theorem pad_nodes_apply (x : Cert.ReferenceIdeal.S50000x128.Idx → EReal) (z : Cert.KernelIdeal.S_.Idx → EReal) (i : Fin 50000) (j : Fin 128) :
    pad Cert.KernelIdeal.S53248x128 ![0, 0] ![3248, 0] ![0, 0] x z Cert.KernelIdeal.Facts₀.pads_S50000x128_S53248x128_032480_000 Cert.KernelIdeal.Facts₀.h_S_
      (ix2 (⟨i.val, by omega⟩ : Fin 53248) j) = x (ix2 i j) :=
  pad_apply_of_inside _ _ _ x z _ _ _ (ix2 i j) (fun a => by
    match a with
    | ⟨0, _⟩ => show i.val = 0 + i.val * (0 + 1); omega
    | ⟨1, _⟩ => show j.val = 0 + j.val * (0 + 1); omega)

/-! ## The messages agree on the real edge rows -/

/-- The tiled program's message array, built from the padded gathers, is the reference's on every real edge row. -/
theorem msg_agree (a0 : FVec Ideal Cert.ReferenceIdeal.S50000x128 .f32) (a1 : IVec Cert.ReferenceIdeal.S2x800000 32) (a2 : FVec Ideal Cert.ReferenceIdeal.S800000x10 .f32)
    (a3 : FVec Ideal Cert.ReferenceIdeal.S266x128 .f32) (a4 : FVec Ideal Cert.ReferenceIdeal.S128 .f32) (a5 : FVec Ideal Cert.ReferenceIdeal.S266x128 .f32) (a6 : FVec Ideal Cert.ReferenceIdeal.S128 .f32)
    (z : Cert.KernelIdeal.S_.Idx → EReal) (e : Fin 800000) (j : Fin 128) :
    Cert.KernelIdeal.KerRegion0.msgAll
        (pad Cert.KernelIdeal.S802816x128 ![0, 0] ![2816, 0] ![0, 0] (rowsOf a0 (srcIdx a1)) z Cert.KernelIdeal.Facts₀.pads_S800000x128_S802816x128_028160_000 Cert.KernelIdeal.Facts₀.h_S_)
        (pad Cert.KernelIdeal.S802816x128 ![0, 0] ![2816, 0] ![0, 0] (rowsOf a0 (dstIdx a1)) z Cert.KernelIdeal.Facts₀.pads_S800000x128_S802816x128_028160_000 Cert.KernelIdeal.Facts₀.h_S_)
        (pad Cert.KernelIdeal.S802816x10 ![0, 0] ![2816, 0] ![0, 0] a2 z Cert.KernelIdeal.Facts₀.pads_S800000x10_S802816x10_028160_000 Cert.KernelIdeal.Facts₀.h_S_)
        a3 (shapeCast Cert.KernelIdeal.S1x128 a4 Cert.KernelIdeal.Facts₀.shapeCasts_S128_S1x128) a5 (shapeCast Cert.KernelIdeal.S1x128 a6 Cert.KernelIdeal.Facts₀.shapeCasts_S128_S1x128)
        (ix2 (⟨e.val, by omega⟩ : Fin 802816) j)
      = msgOf a0 a1 a2 a3 a4 a5 a6 (ix2 e j) := by
  rw [Cert.ReferenceIdeal.RefRead.msgOf_apply]
  unfold Cert.KernelIdeal.KerRegion0.msgAll
  have hr : Cert.KernelIdeal.KerRegion0.rowOf (ix2 (⟨e.val, by omega⟩ : Fin 802816) j) = (⟨e.val, by omega⟩ : Fin 802816) := rfl
  have hc : Cert.KernelIdeal.KerRegion0.colOf (ix2 (⟨e.val, by omega⟩ : Fin 802816) j) = j := rfl
  rw [hr, hc]
  simp only [pad_rows128_apply, pad_rows10_apply, shapeCast_a_1a_apply]

/-! ## The normalised output agrees on the real node rows -/

/-- The tiled program's last stretch — normalise the padded arrays with the folded scale and shift rows, then cut back
    to 50000 rows — is the reference's `softplus(h + ((agg - mean) * rstd * gamma + beta))`, when every entry of `h`,
    `agg`, `gamma`, `beta` and the two statistics is a real number. -/
theorem tail_agree (a0 agg : FVec Ideal Cert.ReferenceIdeal.S50000x128 .f32) (a7 a8 : FVec Ideal Cert.ReferenceIdeal.S128 .f32)
    (z : Cert.KernelIdeal.S_.Idx → EReal)
    (h0 : ∀ i, IsReal (a0 i)) (hagg : ∀ i, IsReal (agg i)) (hμ : ∀ j, IsReal (meanOf agg j)) (hr : ∀ j, IsReal (rstdOf agg j))
    (h7 : ∀ j, IsReal (a7 j)) (h8 : ∀ j, IsReal (a8 j)) :
    extractStridedSlice Cert.KernelIdeal.S50000x128 ![0, 0]
      (Cert.KernelIdeal.KerRegion1.normAll
        (pad Cert.KernelIdeal.S53248x128 ![0, 0] ![3248, 0] ![0, 0] a0 z Cert.KernelIdeal.Facts₀.pads_S50000x128_S53248x128_032480_000 Cert.KernelIdeal.Facts₀.h_S_)
        (pad Cert.KernelIdeal.S53248x128 ![0, 0] ![3248, 0] ![0, 0] agg z Cert.KernelIdeal.Facts₀.pads_S50000x128_S53248x128_032480_000 Cert.KernelIdeal.Facts₀.h_S_)
        (shapeCast Cert.KernelIdeal.S1x128 (mulf (F := Ideal) a7 (rstdOf agg)) Cert.KernelIdeal.Facts₀.shapeCasts_S128_S1x128)
        (shapeCast Cert.KernelIdeal.S1x128 (subf (F := Ideal) a8 (mulf (F := Ideal) (meanOf agg) (mulf (F := Ideal) a7 (rstdOf agg)))) Cert.KernelIdeal.Facts₀.shapeCasts_S128_S1x128))
      Cert.KernelIdeal.Facts₀.slices_S53248x128_S50000x128_0_0
    = splusN (normOf a0 agg a7 a8) := by
  funext i
  obtain ⟨p, q, rfl⟩ : ∃ (p : Fin 50000) (q : Fin 128), i = ix2 p q := ⟨i 0, i 1, eq_ix2 i⟩
  refine (slice2_axis0_apply 0 _ _ p q (⟨p.val, by omega⟩ : Fin 53248) (by simp)).trans ?_
  rw [Cert.ReferenceIdeal.RefRead.refTail_apply]
  unfold Cert.KernelIdeal.KerRegion1.normAll
  have hc : Cert.KernelIdeal.KerRegion1.colOf (ix2 (⟨p.val, by omega⟩ : Fin 53248) q) = ix2 (0 : Fin 1) q := rfl
  rw [hc, pad_nodes_apply, pad_nodes_apply, shapeCast_a_1a_apply, shapeCast_a_1a_apply]
  exact Cert.BnLaw.outAffine_eq_outCentered (h0 _) (hagg _) (hμ _) (hr _) (h7 _) (h8 _)

/-! ## Every message is a real number when the inputs are -/

/-- A gathered row entry is an entry of the node array. -/
theorem rowsOf_isReal (a0 : FVec Ideal Cert.ReferenceIdeal.S50000x128 .f32) (h0 : ∀ i, IsReal (a0 i))
    (s : IVec Cert.ReferenceIdeal.S800000 32) (i : Cert.ReferenceIdeal.S800000x128.Idx) : IsReal (rowsOf a0 s i) := h0 _

/-- Sums of products of reals, a logistic and a softplus of reals: every message is real. -/
theorem msgOf_isReal (a0 : FVec Ideal Cert.ReferenceIdeal.S50000x128 .f32) (a1 : IVec Cert.ReferenceIdeal.S2x800000 32)
    (a2 : FVec Ideal Cert.ReferenceIdeal.S800000x10 .f32) (a3 : FVec Ideal Cert.ReferenceIdeal.S266x128 .f32)
    (a4 : FVec Ideal Cert.ReferenceIdeal.S128 .f32) (a5 : FVec Ideal Cert.ReferenceIdeal.S266x128 .f32)
    (a6 : FVec Ideal Cert.ReferenceIdeal.S128 .f32)
    (h0 : ∀ i, IsReal (a0 i)) (h2 : ∀ i, IsReal (a2 i)) (h3 : ∀ i, IsReal (a3 i)) (h4 : ∀ i, IsReal (a4 i))
    (h5 : ∀ i, IsReal (a5 i)) (h6 : ∀ i, IsReal (a6 i)) (i : Cert.ReferenceIdeal.S800000x128.Idx) :
    IsReal (msgOf a0 a1 a2 a3 a4 a5 a6 i) := by
  obtain ⟨e, j, rfl⟩ : ∃ (e : Fin 800000) (j : Fin 128), i = ix2 e j := ⟨i 0, i 1, eq_ix2 i⟩
  rw [Cert.ReferenceIdeal.RefRead.msgOf_apply]
  exact isReal_msg (fun k => rowsOf_isReal a0 h0 _ _) (fun k => rowsOf_isReal a0 h0 _ _) (fun k => h2 _) (fun k => h3 _) (h4 _)
    (fun k => h5 _) (h6 _)

end Cert.Bridge

end
-- ==== Proof.ScatterPad.lean ====
/-
  The padded scatter-add equals the plain one.

  The tiled program pads the 800000 edges to 802816 = 196 * 4096 rows, gives the 2816 padding rows the source
  id 50000 — no node, the nodes being 0 … 49999 — and scatter-adds all 802816 update rows into the 50000 x 128
  zero array. The reference scatter-adds the 800000 real rows. On the extended reals a scatter-add is, at each
  element, the operand's element plus the sum of the update elements whose result index is that element; an
  update row whose (signed, unclamped) start lies outside the operand is dropped. For these dimension numbers
  (update window axis 1, inserted window axis 0, the one scatter axis going to operand axis 0, the index vector
  on axis 1 of the start-index column) update element (e, c) lands on (s, c) with s the id of row e, exactly when
  0 ≤ s < 50000. So the padding rows land nowhere, a real row lands where it does in the reference, and the two
  sums agree term by term through the inclusion of the 800000 rows into the 802816.
-/
import proofs.«121464_j6270652252664_2_alg».proof.KernelIdeal
import proofs.«121464_j6270652252664_2_alg».proof.ReferenceIdeal
import proofs.«121464_j6270652252664_2_alg».proof.Proof.RefStages
import Idealize.ShloMosaic.PureOps.Ideal
import Idealize.ShloMosaic.Lib.ValueIdx
import Idealize.ShloMosaic.Lib.KernelVsHost

noncomputable section

namespace Cert.ScatterPad

open Idealize.ShloMosaic Idealize.ShloMosaic.ValueIdx

/-! ## Where one update element lands, for a scatter of `N` rows of 128 into 50000 rows of 128 -/

/-- The dimension numbers of both programs' scatter, over any number `N` of update rows: the updates' axis 1 is
    the window, the operand's axis 0 is inserted, the one start component goes to operand axis 0, and the start
    indices are an `N x 1` column whose axis 1 is the index vector. -/
def rowScatter (N : Nat) (wf : ScatterDims.WF ⟨2, ![50000, 128]⟩ ⟨2, ![N, 1]⟩ ⟨2, ![N, 128]⟩ [1] [0] [0] 1) :
    ScatterDims ⟨2, ![50000, 128]⟩ ⟨2, ![N, 1]⟩ ⟨2, ![N, 128]⟩ where
  updateWindowDims := [1]
  insertedWindowDims := [0]
  scatterDimsToOperandDims := [0]
  indexVectorDim := 1
  wf := wf

variable (N : Nat) (wf : ScatterDims.WF ⟨2, ![50000, 128]⟩ ⟨2, ![N, 1]⟩ ⟨2, ![N, 128]⟩ [1] [0] [0] 1)

/-- On operand axis 0 the window of update element `(e, c)` starts at the id of row `e`, read signed. -/
theorem start0 {w : Nat} (e : Fin N) (c : Fin 128) (idx : IVec ⟨2, ![N, 1]⟩ w) :
    (rowScatter N wf).start (ix2 e c) idx 0 = (idx (ix2 e (0 : Fin 1))).toInt := by
  have h : (0 : Fin 2) ∈ (rowScatter N wf).scatterDimsToOperandDims := by
    show (0 : Fin 2) ∈ ([0] : List (Fin 2)); decide
  unfold ScatterDims.start
  rw [dif_pos h]
  congr 2
  funext b
  match b with
  | ⟨0, _⟩ => rfl
  | ⟨1, _⟩ => rfl

/-- On operand axis 1, which no start component names, the window starts at 0. -/
theorem start1 {w : Nat} (e : Fin N) (c : Fin 128) (idx : IVec ⟨2, ![N, 1]⟩ w) :
    (rowScatter N wf).start (ix2 e c) idx 1 = 0 := by
  have h : (1 : Fin 2) ∉ (rowScatter N wf).scatterDimsToOperandDims := by
    show (1 : Fin 2) ∉ ([0] : List (Fin 2)); decide
  unfold ScatterDims.start
  rw [dif_neg h]

/-- Operand axis 0 is inserted: the window coordinate there is 0. -/
theorem window0 (e : Fin N) (c : Fin 128) : (rowScatter N wf).window (ix2 e c) 0 = 0 := by
  have h : (0 : Fin 2) ∉ (rowScatter N wf).sKept := by
    show (0 : Fin 2) ∉ (⟨2, ![50000, 128]⟩ : Shape).kept [0]; decide
  unfold ScatterDims.window
  rw [dif_neg h]

/-- On operand axis 1 the window coordinate of update element `(e, c)` is its column `c`. -/
theorem window1 (e : Fin N) (c : Fin 128) : (rowScatter N wf).window (ix2 e c) 1 = c.val := by
  have h : (1 : Fin 2) ∈ (rowScatter N wf).sKept := by
    show (1 : Fin 2) ∈ (⟨2, ![50000, 128]⟩ : Shape).kept [0]; decide
  unfold ScatterDims.window
  rw [dif_pos h]
  rfl

/-- Update element `(e, c)` lands on operand element `(r, c')` exactly when the signed id of row `e` is `r` and the
    columns agree (an id outside `[0, 50000)` equals no `r`, and the element is dropped). -/
theorem resultIdx?_eq_some_iff {w : Nat} (e : Fin N) (c : Fin 128) (idx : IVec ⟨2, ![N, 1]⟩ w)
    (r : Fin 50000) (c' : Fin 128) :
    (rowScatter N wf).resultIdx? (ix2 e c) idx = some (ix2 r c') ↔
      (idx (ix2 e (0 : Fin 1))).toInt = (r.val : Int) ∧ c = c' := by
  have hs0 : (rowScatter N wf).start (ix2 e c) idx 0 + ((rowScatter N wf).window (ix2 e c) 0 : Nat)
      = (idx (ix2 e (0 : Fin 1))).toInt := by
    rw [start0, window0]; simp
  have hs1 : (rowScatter N wf).start (ix2 e c) idx 1 + ((rowScatter N wf).window (ix2 e c) 1 : Nat)
      = (c.val : Int) := by
    rw [start1, window1]; simp
  have hr := r.isLt
  have hc := c.isLt
  have hc' := c'.isLt
  unfold ScatterDims.resultIdx?
  split
  · rename_i h
    have h0 : 0 ≤ (idx (ix2 e (0 : Fin 1))).toInt ∧ (idx (ix2 e (0 : Fin 1))).toInt < ((50000 : Nat) : Int) := by
      have := h 0
      rw [hs0] at this
      exact this
    constructor
    · intro hf
      have hf' := Option.some.inj hf
      have e0 : ((rowScatter N wf).start (ix2 e c) idx 0 + ((rowScatter N wf).window (ix2 e c) 0 : Nat)).toNat = r.val :=
        congrArg Fin.val (congrFun hf' 0)
      have e1 : ((rowScatter N wf).start (ix2 e c) idx 1 + ((rowScatter N wf).window (ix2 e c) 1 : Nat)).toNat = c'.val :=
        congrArg Fin.val (congrFun hf' 1)
      rw [hs0] at e0
      rw [hs1] at e1
      exact ⟨by omega, Fin.ext (by omega)⟩
    · rintro ⟨hs, rfl⟩
      have k0 : ((rowScatter N wf).start (ix2 e c) idx 0 + ((rowScatter N wf).window (ix2 e c) 0 : Nat)).toNat = r.val := by
        rw [hs0, hs]; simp
      have k1 : ((rowScatter N wf).start (ix2 e c) idx 1 + ((rowScatter N wf).window (ix2 e c) 1 : Nat)).toNat = c.val := by
        rw [hs1]; simp
      congr 1
      funext a
      match a with
      | ⟨0, _⟩ => exact Fin.ext k0
      | ⟨1, _⟩ => exact Fin.ext k1
  · rename_i h
    constructor
    · intro hf
      exact absurd hf (by simp)
    · rintro ⟨hs, rfl⟩
      exfalso
      apply h
      have k0 : 0 ≤ (rowScatter N wf).start (ix2 e c) idx 0 + ((rowScatter N wf).window (ix2 e c) 0 : Nat) ∧
          (rowScatter N wf).start (ix2 e c) idx 0 + ((rowScatter N wf).window (ix2 e c) 0 : Nat) < ((50000 : Nat) : Int) := by
        rw [hs0, hs]; omega
      have k1 : 0 ≤ (rowScatter N wf).start (ix2 e c) idx 1 + ((rowScatter N wf).window (ix2 e c) 1 : Nat) ∧
          (rowScatter N wf).start (ix2 e c) idx 1 + ((rowScatter N wf).window (ix2 e c) 1 : Nat) < ((128 : Nat) : Int) := by
        rw [hs1]; omega
      intro a
      match a with
      | ⟨0, _⟩ => exact k0
      | ⟨1, _⟩ => exact k1

/-- A column of start indices made from a vector of ids reads, at row `e`, the id of row `e`. -/
theorem column_apply {w : Nat} (hb : (⟨1, ![N]⟩ : Shape).BroadcastsInDim ⟨2, ![N, 1]⟩ ![0])
    (v : IVec ⟨1, ![N]⟩ w) (e : Fin N) :
    broadcastInDim (⟨2, ![N, 1]⟩ : Shape) ![0] hb v (ix2 e (0 : Fin 1)) = v (ix1 e) := by
  refine broadcastInDim_apply ![0] hb v (ix2 e (0 : Fin 1)) (ix1 e) (fun a => ?_)
  match a with
  | ⟨0, _⟩ =>
    have := e.isLt
    show e.val = if N = 1 then 0 else e.val
    split <;> omega

/-! ## Sums over filtered index sets -/

/-- Two sums over filtered index sets agree when an injection of the second index type into the first carries
    the second predicate onto the first (every member of the first set is in its image) and the summands match. -/
theorem sum_filter_reindex {α β : Type} [Fintype α] [Fintype β] (ι : β ↪ α) (P : α → Prop) (Q : β → Prop)
    [DecidablePred P] [DecidablePred Q] (f : α → EReal) (g : β → EReal)
    (hP : ∀ a, P a → ∃ b, ι b = a) (hPQ : ∀ b, P (ι b) ↔ Q b) (hfg : ∀ b, f (ι b) = g b) :
    ∑ a ∈ Finset.univ.filter P, f a = ∑ b ∈ Finset.univ.filter Q, g b := by
  have hset : Finset.univ.filter P = (Finset.univ.filter Q).map ι := by
    ext a
    simp only [Finset.mem_filter, Finset.mem_univ, true_and, Finset.mem_map]
    constructor
    · intro ha
      obtain ⟨b, rfl⟩ := hP a ha
      exact ⟨b, (hPQ b).1 ha, rfl⟩
    · rintro ⟨b, hb, rfl⟩
      exact (hPQ b).2 hb
  rw [hset, Finset.sum_map]
  exact Finset.sum_congr rfl (fun b _ => hfg b)

/-- An ideal scatter-add read at one element: the operand's element plus the sum of the updates that land on it. -/
theorem scatterAdd_apply {s si su : Shape} (d : ScatterDims s si su) {w : Nat} (x : FVec Ideal s .f32) (idx : IVec si w)
    (upd : FVec Ideal su .f32) (i : s.Idx) :
    Host.scatterAdd (F := Ideal) d x idx upd i
      = x i + ∑ j ∈ Finset.univ.filter (fun j => d.resultIdx? j idx = some i), upd j := rfl

/-! ## The 800000 real rows inside the 802816 padded ones -/

/-- A real edge row and column, as a row and column of the padded array. -/
def emb : (⟨2, ![800000, 128]⟩ : Shape).Idx ↪ (⟨2, ![802816, 128]⟩ : Shape).Idx where
  toFun b := ix2 (⟨(b 0).val, by have := idx2_lt0 b; omega⟩ : Fin 802816) (b 1)
  inj' a b hab := by
    have h0 := congrArg Fin.val (congrFun hab 0)
    have h1 := congrFun hab 1
    funext d
    match d with
    | ⟨0, _⟩ => exact Fin.ext h0
    | ⟨1, _⟩ => exact h1

theorem emb_ix2 (e : Fin 800000) (c : Fin 128) (he : e.val < 802816) :
    emb (ix2 e c) = ix2 (⟨e.val, he⟩ : Fin 802816) c := rfl

/-- The sum of the padded update rows landing on node row `r`, column `c'` is the sum of the real ones: a padding
    row's id, 50000, is no node row, and a real row keeps its id. -/
theorem scatter_sums_eq
    (wfK : ScatterDims.WF ⟨2, ![50000, 128]⟩ ⟨2, ![802816, 1]⟩ ⟨2, ![802816, 128]⟩ [1] [0] [0] 1)
    (wfR : ScatterDims.WF ⟨2, ![50000, 128]⟩ ⟨2, ![800000, 1]⟩ ⟨2, ![800000, 128]⟩ [1] [0] [0] 1)
    (idxK : IVec ⟨2, ![802816, 1]⟩ 32) (idxR : IVec ⟨2, ![800000, 1]⟩ 32)
    (hin : ∀ (e : Fin 800000) (he : e.val < 802816),
      idxK (ix2 (⟨e.val, he⟩ : Fin 802816) (0 : Fin 1)) = idxR (ix2 e (0 : Fin 1)))
    (hout : ∀ e : Fin 802816, 800000 ≤ e.val → idxK (ix2 e (0 : Fin 1)) = 50000#32)
    (updK : (⟨2, ![802816, 128]⟩ : Shape).Idx → EReal) (updR : (⟨2, ![800000, 128]⟩ : Shape).Idx → EReal)
    (h : ∀ (e : Fin 800000) (j : Fin 128), updK (ix2 (⟨e.val, by omega⟩ : Fin 802816) j) = updR (ix2 e j))
    (r : Fin 50000) (c' : Fin 128)
    [DecidablePred fun j => (rowScatter 802816 wfK).resultIdx? j idxK = some (ix2 r c')]
    [DecidablePred fun j => (rowScatter 800000 wfR).resultIdx? j idxR = some (ix2 r c')] :
    ∑ j ∈ Finset.univ.filter (fun j => (rowScatter 802816 wfK).resultIdx? j idxK = some (ix2 r c')), updK j
      = ∑ j ∈ Finset.univ.filter (fun j => (rowScatter 800000 wfR).resultIdx? j idxR = some (ix2 r c')), updR j := by
  refine sum_filter_reindex emb _ _ _ _ ?_ ?_ ?_
  · intro a ha
    obtain ⟨e, c, rfl⟩ : ∃ (e : Fin 802816) (c : Fin 128), a = ix2 e c := ⟨a 0, a 1, eq_ix2 a⟩
    rw [resultIdx?_eq_some_iff] at ha
    have he : e.val < 800000 := by
      by_contra hge
      have h5 := hout e (by omega)
      rw [h5] at ha
      have h6 : (50000#32 : BitVec 32).toInt = 50000 := by decide
      have := r.isLt
      rw [h6] at ha
      omega
    exact ⟨ix2 (⟨e.val, he⟩ : Fin 800000) c, rfl⟩
  · intro b
    obtain ⟨e, c, rfl⟩ : ∃ (e : Fin 800000) (c : Fin 128), b = ix2 e c := ⟨b 0, b 1, eq_ix2 b⟩
    rw [emb_ix2 e c (by omega), resultIdx?_eq_some_iff, resultIdx?_eq_some_iff, hin e]
  · intro b
    obtain ⟨e, c, rfl⟩ : ∃ (e : Fin 800000) (c : Fin 128), b = ix2 e c := ⟨b 0, b 1, eq_ix2 b⟩
    exact h e c

/-! ## The two programs' scatter-adds -/

section Programs
variable [Cert.KernelIdeal.Facts] [Cert.ReferenceIdeal.Facts]

/-- The source ids padded to 802816 rows with the id 50000. -/
def padSrc (src : IVec Cert.ReferenceIdeal.S800000 32) : IVec Cert.KernelIdeal.S802816 32 :=
  pad Cert.KernelIdeal.S802816 ![0] ![2816] ![0] src (constantI Cert.KernelIdeal.S_ 32 50000#32)
    Cert.KernelIdeal.Facts₀.pads_S800000_S802816_028160 Cert.KernelIdeal.Facts₀.h_S_

/-- A real row keeps its id. -/
theorem padSrc_inside (src : IVec Cert.ReferenceIdeal.S800000 32) (e : Fin 800000) (he : e.val < 802816) :
    padSrc src (ix1 (⟨e.val, he⟩ : Fin 802816)) = src (ix1 e) := by
  refine pad_apply_of_inside ![0] ![2816] ![0] src _ _ _ (ix1 (⟨e.val, he⟩ : Fin 802816)) (ix1 e) (fun a => ?_)
  match a with
  | ⟨0, _⟩ =>
    show e.val = 0 + e.val * (0 + 1)
    omega

/-- A padding row has the id 50000. -/
theorem padSrc_outside (src : IVec Cert.ReferenceIdeal.S800000 32) (e : Fin 802816) (he : 800000 ≤ e.val) :
    padSrc src (ix1 e) = 50000#32 := by
  refine (pad_apply_of_not_inside ![0] ![2816] ![0] src _ _ _ (ix1 e) (⟨0, by decide⟩ : Fin 1) (fun hin => ?_)).trans rfl
  have h3 : (e.val - 0) / (0 + 1) < 800000 := hin.2.2
  omega

/-- The tiled program's scatter-add of the 802816 padded update rows at the padded source ids is the reference's
    scatter-add of the 800000 real rows, whenever the padded updates' real rows are the reference's updates. -/
theorem scatter_pad_eq (src : IVec Cert.ReferenceIdeal.S800000 32)
    (updK : FVec Ideal Cert.KernelIdeal.S802816x128 .f32) (updR : FVec Ideal Cert.ReferenceIdeal.S800000x128 .f32)
    (h : ∀ (e : Fin 800000) (j : Fin 128), updK (ValueIdx.ix2 (⟨e.val, by omega⟩ : Fin 802816) j) = updR (ValueIdx.ix2 e j)) :
    Host.scatterAdd (F := Ideal) Cert.KernelIdeal.scatter_S50000x128_S802816x1_S802816x128_1_0_0_1
        (broadcastInDim Cert.KernelIdeal.S50000x128 ![] Cert.KernelIdeal.Facts₀.bcast_S_S50000x128 (constant (F := Ideal) Cert.KernelIdeal.S_ .f32 0x00000000#32))
        (broadcastInDim Cert.KernelIdeal.S802816x1 ![0] Cert.KernelIdeal.Facts₀.bcast_S802816_S802816x1_0
          (pad Cert.KernelIdeal.S802816 ![0] ![2816] ![0] src (constantI Cert.KernelIdeal.S_ 32 50000#32) Cert.KernelIdeal.Facts₀.pads_S800000_S802816_028160 Cert.KernelIdeal.Facts₀.h_S_))
        updK
      = Cert.ReferenceIdeal.RefStages.aggOf src updR := by
  funext i
  obtain ⟨r, c', rfl⟩ : ∃ (r : Fin 50000) (c' : Fin 128), i = ix2 r c' := ⟨i 0, i 1, eq_ix2 i⟩
  unfold Cert.ReferenceIdeal.RefStages.aggOf
  refine (scatterAdd_apply _ _ _ _ _).trans (Eq.trans ?_ (scatterAdd_apply _ _ _ _ _).symm)
  refine congrArg₂ (fun a b : EReal => a + b) ?_ ?_
  · rfl
  · refine scatter_sums_eq _ _ _ _ ?_ ?_ updK updR h r c'
    · intro e he
      exact ((column_apply 802816 _ _ _).trans (padSrc_inside src e he)).trans (column_apply 800000 _ _ _).symm
    · intro e he
      exact (column_apply 802816 _ _ e).trans (padSrc_outside src e he)

end Programs

end Cert.ScatterPad

end
-- ==== Proof.FloatConsts.lean ====
/-
  The float literals the two programs spell, as the extended reals their bit patterns denote, the
  conversion of the integer zero, and the one comparison between literals that the variance's guard
  makes ("the number of rows minus the degrees-of-freedom correction is positive").
-/
import Mathlib
import Idealize.ShloMosaic.PureOps.Ideal
import Idealize.ShloMosaic.PureOps.Ideal.Laws

noncomputable section

namespace Cert.FloatConsts

open Idealize.ShloMosaic

/-- The pattern of `+0.0` denotes `0`. -/
theorem ofBits_zero : Ideal.ofBits .f32 0x00000000#32 = (0 : EReal) := by
  simp [Ideal.ofBits, Ideal.ieee]

/-- The pattern of `1.0` denotes `1`. -/
theorem ofBits_one : Ideal.ofBits .f32 0x3F800000#32 = (1 : EReal) := by
  simp [Ideal.ofBits, Ideal.ieee, -EReal.coe_mul]; norm_num

/-- The pattern of `50000.0` (exponent field 142, significand `12800000 = 50000 * 2^8`) denotes the
    real number `50000`. -/
theorem ofBits_50000 : Ideal.ofBits .f32 0x47435000#32 = ((50000 : ℝ) : EReal) := by
  simp [Ideal.ofBits, Ideal.ieee, -EReal.coe_mul]; norm_num

/-- The pattern of `1e-5` rounded to single precision (exponent field 110, significand `10995116`)
    denotes the positive real number `10995116 * 2^(-40)`. -/
theorem ofBits_eps :
    Ideal.ofBits .f32 0x3727C5AC#32 = (((10995116 : ℝ) * (2 : ℝ) ^ (-40 : ℤ) : ℝ) : EReal) := by
  simp [Ideal.ofBits, Ideal.ieee, -EReal.coe_mul]

/-- The pattern of `1e-5` rounded to single precision denotes a positive real number. -/
theorem ofBits_eps_pos : ∃ ε : ℝ, 0 < ε ∧ Ideal.ofBits .f32 0x3727C5AC#32 = (ε : EReal) :=
  ⟨(10995116 : ℝ) * (2 : ℝ) ^ (-40 : ℤ), by positivity, ofBits_eps⟩

/-- The integer zero converts to the real number zero. -/
theorem sitofp_zero : FloatOps.sitofp (F := Ideal) .f32 (0#32 : BitVec 32) = (0 : EReal) := by
  show ((((0#32 : BitVec 32).toInt : ℤ) : ℝ) : EReal) = 0
  simp

/-- `50000 - 0 > 0`: the ordered greater-than comparison answers true. -/
theorem cmp_ogt_50000 : Ideal.cmp .ogt (((50000 : ℝ) : EReal) - 0) 0 = 1#1 := by
  have h : (0 : EReal) < ((50000 : ℝ) : EReal) - 0 := by
    rw [sub_zero]
    exact_mod_cast (by norm_num : (0 : ℝ) < 50000)
  show BitVec.ofBool (decide ((0 : EReal) < ((50000 : ℝ) : EReal) - 0)) = 1#1
  rw [decide_eq_true h]
  rfl

end Cert.FloatConsts

end
-- ==== Proof.RefFinite.lean ====
/-
  The reference's aggregate, column means and reciprocal standard deviations are real-valued.

  The aggregate at an entry is zero plus a finite sum of update entries; a column mean is zero plus a finite sum of
  aggregate entries, over 50000. The variance's guard "50000 - 0 > 0" holds, so a column variance is a finite sum
  of squares of real-valued centred entries over 50000: a nonnegative real. Adding the positive constant under
  the root makes it positive, and the reciprocal square root of a positive real is real.
-/
import proofs.«121464_j6270652252664_2_alg».proof.Proof.RefStages
import proofs.«121464_j6270652252664_2_alg».proof.Proof.LibRealValued
import proofs.«121464_j6270652252664_2_alg».proof.Proof.FloatConsts
import Idealize.ShloMosaic.PureOps.Ideal.Laws
import Idealize.ShloMosaic.Lib.ValueIdx

noncomputable section

namespace Cert.ReferenceIdeal.RefFinite

open Idealize.ShloMosaic Idealize.ShloMosaic.ValueIdx Cert.ReferenceIdeal Cert.ReferenceIdeal.RefStages
open Cert.RealValued Cert.FloatConsts

variable [Facts]
open Facts₀ Facts

/-! ## Shape-generic facts -/

section Generic

/-- A broadcast of real-valued entries has real-valued entries: each entry of the result is an entry of the operand. -/
theorem isReal_broadcastInDim {s t : Shape} (dims : Fin s.rank → Fin t.rank) (hb : s.BroadcastsInDim t dims)
    (x : s.Idx → EReal) (hx : ∀ k, IsReal (x k)) (j : t.Idx) : IsReal (broadcastInDim t dims hb x j) :=
  hx _

/-- A scatter-add of real-valued updates into a real-valued array is real-valued: each entry is the operand's entry
    plus a finite sum of update entries. -/
theorem isReal_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd (F := Ideal) d x idx upd i) := by
  show IsReal (Ideal.hostScatterAdd d x idx upd i)
  unfold Ideal.hostScatterAdd
  exact (hx i).add (IsReal.sum _ _ fun j _ => hu j)

/-- A sum-reduction of real-valued entries from a real-valued initial value is real-valued. -/
theorem isReal_reduceAdd {s t u : Shape} {axes : List (Fin s.rank)} (x : FVec Ideal s .f32)
    (init : u.Idx → Ideal .f32) (hr : s.ReducesTo axes t) (hu : 0 < u.numel) (hx : ∀ i, IsReal (x i))
    (hinit : ∀ k, IsReal (init k)) (j : t.Idx) : IsReal (Host.reduceAdd (F := Ideal) x init hr hu j) := by
  show IsReal (Ideal.hostReduceAdd hr x (init (Shape.Idx.first hu)) j)
  unfold Ideal.hostReduceAdd
  exact (hinit _).add (IsReal.sum _ _ fun i _ => hx i)

/-- A finite sum of squares of real-valued quantities is a nonnegative real. -/
theorem exists_nonneg_sum_mul_self {ι : Type*} (s : Finset ι) (c : ι → EReal) (hc : ∀ i ∈ s, IsReal (c i)) :
    ∃ r : ℝ, 0 ≤ r ∧ ∑ i ∈ s, c i * c i = (r : EReal) := by
  have key := IsReal.exists_nonneg_sq_sum s c 0 hc IsReal.zero
  simpa only [sub_zero] using key

/-- A sum-reduction, from an initial value that is zero, of the squares of real-valued entries is a nonnegative
    real. -/
theorem reduceAdd_sq_nonneg {s t u : Shape} {axes : List (Fin s.rank)} (c : FVec Ideal s .f32)
    (init : u.Idx → Ideal .f32) (hr : s.ReducesTo axes t) (hu : 0 < u.numel) (hc : ∀ i, IsReal (c i))
    (hinit : ∀ k, init k = (0 : EReal)) (j : t.Idx) :
    ∃ r : ℝ, 0 ≤ r ∧ Host.reduceAdd (F := Ideal) (mulf c c) init hr hu j = (r : EReal) := by
  show ∃ r : ℝ, 0 ≤ r ∧ Ideal.hostReduceAdd hr (fun i => c i * c i) (init (Shape.Idx.first hu)) j = (r : EReal)
  unfold Ideal.hostReduceAdd
  rw [hinit, zero_add]
  exact exists_nonneg_sum_mul_self _ c fun i _ => hc i

/-- The host's division at an entry divides the entries. -/
theorem hostDivf_apply {s : Shape} (a b : FVec Ideal s .f32) (i : s.Idx) :
    Host.divf (F := Ideal) a b i = Ideal.div (a i) (b i) := rfl

/-- The host's reciprocal square root at an entry is that of the entry. -/
theorem hostRsqrt_apply {s : Shape} (a : FVec Ideal s .f32) (i : s.Idx) :
    Host.rsqrt (F := Ideal) a i = Ideal.rsqrt (a i) := rfl

end Generic

/-! ## The aggregate and the column means -/

/-- The all-zeros node array has real-valued entries. -/
theorem zerosN_isReal (i : S50000x128.Idx) : IsReal (zerosN i) := by
  show IsReal (Ideal.ofBits .f32 0x00000000#32)
  rw [ofBits_zero]
  exact IsReal.zero

/-- The aggregate of real-valued updates is real-valued: zero plus a finite sum of update entries. -/
theorem aggOf_isReal (src : IVec S800000 32) (upd : FVec Ideal S800000x128 .f32) (h : ∀ i, IsReal (upd i))
    (i : S50000x128.Idx) : IsReal (aggOf src upd i) := by
  delta aggOf
  exact isReal_scatterAdd _ _ _ _ zerosN_isReal h i

/-- The scalar zero constant is the real number zero. -/
theorem zeroS_eq (k : S_.Idx) : constant (F := Ideal) S_ .f32 0x00000000#32 k = (0 : EReal) := ofBits_zero

/-- A column sum of real-valued entries is real-valued: zero plus a finite sum of entries. -/
theorem colSum_isReal (x : FVec Ideal S50000x128 .f32) (h : ∀ i, IsReal (x i)) (j : S128.Idx) :
    IsReal (colSum x j) := by
  delta colSum
  exact isReal_reduceAdd _ _ _ _ h (fun k => (zeroS_eq k).symm ▸ IsReal.zero) j

/-- A column mean of real-valued entries is real-valued: a real-valued column sum over 50000. -/
theorem meanOf_isReal (agg : FVec Ideal S50000x128 .f32) (h : ∀ i, IsReal (agg i)) (j : S128.Idx) :
    IsReal (meanOf agg j) := by
  delta meanOf
  rw [hostDivf_apply]
  have hb : broadcastInDim S128 ![] bcast_S_S128 (constant (F := Ideal) S_ .f32 0x47435000#32) j
      = ((50000 : ℝ) : EReal) := ofBits_50000
  rw [hb]
  exact isReal_div_coe (colSum_isReal agg h j) (by norm_num)

/-! ## The variance and the reciprocal standard deviation -/

/-- Every centred entry of a real-valued array is real-valued: the entry minus a real-valued column mean. -/
theorem centredOf_isReal (agg : FVec Ideal S50000x128 .f32) (h : ∀ i, IsReal (agg i)) (i : S50000x128.Idx) :
    IsReal (centredOf agg i) := by
  delta centredOf
  rw [subf_apply]
  refine (h i).sub (isReal_broadcastInDim _ _ _ (fun k => ?_) i)
  rw [hostDivf_apply]
  have hb : broadcastInDim S1x128 ![] bcast_S_S1x128 (constant (F := Ideal) S_ .f32 0x47435000#32) k
      = ((50000 : ℝ) : EReal) := ofBits_50000
  rw [hb]
  exact isReal_div_coe (isReal_broadcastInDim _ _ _ (colSum_isReal agg h) k) (by norm_num)

/-- A column sum of the squares of real-valued entries is a nonnegative real. -/
theorem colSum_sq_nonneg (c : FVec Ideal S50000x128 .f32) (hc : ∀ i, IsReal (c i)) (j : S128.Idx) :
    ∃ r : ℝ, 0 ≤ r ∧ colSum (mulf c c) j = (r : EReal) := by
  delta colSum
  exact reduceAdd_sq_nonneg _ _ _ _ hc zeroS_eq j

/-- The variance's divisor `50000 - 0` is the real number 50000. -/
theorem dofGap_eq (k : S_.Idx) : dofGap k = ((50000 : ℝ) : EReal) := by
  show Ideal.ofBits .f32 0x47435000#32 - FloatOps.sitofp (F := Ideal) .f32 (0#32 : BitVec 32) = _
  rw [ofBits_50000, sitofp_zero, sub_zero]

/-- The variance's guard `50000 - 0 > 0` answers true. -/
theorem guard_eq (k : S_.Idx) :
    cmpf .ogt dofGap (constant (F := Ideal) S_ .f32 0x00000000#32) k = 1#1 := by
  rw [cmpf_apply, dofGap_eq, zeroS_eq]
  have e := cmp_ogt_50000
  rw [sub_zero] at e
  exact e

/-- A column variance of real-valued entries is a nonnegative real: the guard holds, and the branch it selects is a
    finite sum of squares of real-valued centred entries over 50000. -/
theorem varOf_nonneg (agg : FVec Ideal S50000x128 .f32) (h : ∀ i, IsReal (agg i)) (j : S128.Idx) :
    ∃ v : ℝ, 0 ≤ v ∧ varOf agg j = (v : EReal) := by
  delta varOf
  rw [select_apply]
  have hcond : broadcastInDim S128 ![] bcast_S_S128
      (cmpf .ogt dofGap (constant (F := Ideal) S_ .f32 0x00000000#32)) j = 1#1 := guard_eq _
  have hden : broadcastInDim S128 ![] bcast_S_S128 dofGap j = ((50000 : ℝ) : EReal) := dofGap_eq _
  rw [hcond, select_one, hostDivf_apply, hden]
  obtain ⟨r, hr, hsum⟩ := colSum_sq_nonneg (centredOf agg) (centredOf_isReal agg h) j
  rw [hsum]
  exact div_coe_nonneg hr (by norm_num)

/-- The reciprocal standard deviation of a column of real-valued entries is real-valued: the reciprocal square root
    of a nonnegative real plus a positive real. -/
theorem rstdOf_isReal (agg : FVec Ideal S50000x128 .f32) (h : ∀ i, IsReal (agg i)) (j : S128.Idx) :
    IsReal (rstdOf agg j) := by
  obtain ⟨v, hv, hvar⟩ := varOf_nonneg agg h j
  obtain ⟨ε, hε, heps⟩ := ofBits_eps_pos
  delta rstdOf
  rw [hostRsqrt_apply, addf_apply, hvar]
  have he : broadcastInDim S128 ![] bcast_S_S128 (constant (F := Ideal) S_ .f32 0x3727C5AC#32) j
      = (ε : EReal) := heps
  rw [he]
  exact isReal_rsqrt_add hv hε

end Cert.ReferenceIdeal.RefFinite

end
-- ==== Proof.PreReal.lean ====
/-
  The precondition, decoded. `finite_inputs` is the conjunction, over the eight float arguments, of
  "every entry `x` has `|x| < +∞`" (each an all-reduction by `and` of the elementwise comparison).
  On the extended reals `max x (-x) < ⊤` says `x ≠ ⊤` and `x ≠ ⊥`: the entry is a real number.
-/
import proofs.«121464_j6270652252664_2_alg».proof.Defs
import proofs.«121464_j6270652252664_2_alg».proof.Proof.Gen.Pre_finite_inputs
import proofs.«121464_j6270652252664_2_alg».proof.Proof.LibRealValued
import Idealize.ShloMosaic.Lib.ReduceAll

noncomputable section

namespace Cert.PreReal

open Idealize.ShloMosaic Idealize.SL.Sem
open Cert.RealValued

/-- The pattern of `+∞` denotes `⊤`. -/
theorem ofBits_inf : Ideal.ofBits .f32 0x7F800000#32 = (⊤ : EReal) := by
  simp [Ideal.ofBits, Ideal.ieee]

/-- An extended real whose absolute value `max x (-x)` is below `⊤` is a real number. -/
theorem isReal_of_abs_lt_top (x : EReal) (h : max x (-x) < ⊤) : IsReal x := by
  induction x using EReal.rec with
  | bot => simp at h
  | coe r => exact ⟨r, rfl⟩
  | top => simp at h

/-- The element fact of the precondition: the ordered comparison `|x| < +∞` answering true makes
    `x` a real number. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  have : Ideal.cmp .olt (max x (-x)) ⊤ = 0#1 := by
    show BitVec.ofBool (decide (max x (-x) < ⊤)) = 0#1
    rw [decide_eq_false hn]; rfl
  rw [this] at h
  exact absurd h (by decide)

/-- The scalar shape has one index. -/
instance : Subsingleton Cert.Pre_finite_inputs.S_.Idx := ⟨fun a b => funext fun d => d.elim0⟩

/-- One conjunct of the precondition: the all-reduction by `and` of `|x i| < +∞` over every index
    answering true makes every entry of `x` a real number. -/
theorem all_real {s : Shape} {axes : List (Fin s.rank)} (x : FVec Ideal s .f32)
    (bc : Cert.Pre_finite_inputs.S_.BroadcastsInDim s (![] : Fin 0 → Fin s.rank))
    (rt : s.ReducesTo axes Cert.Pre_finite_inputs.S_) (hu : 0 < Cert.Pre_finite_inputs.S_.numel)
    (h : Host.reduce IntOp.andi
          (cmpf .olt (Host.absf x)
            (broadcastInDim s ![] bc (constant (F := Ideal) Cert.Pre_finite_inputs.S_ .f32 0x7F800000#32)))
          (constantI Cert.Pre_finite_inputs.S_ 1 1#1) rt hu ValueIdx.ix0 = 1#1) :
    ∀ i, IsReal (x i) := by
  intro i
  have e := Host.reduce_andi_all _ _ rt hu ValueIdx.ix0 h i
  exact isReal_of_cmp (x i) e

/-- The conjunction of two one-bit words read at an index. -/
theorem andi_apply {s : Shape} {w : Nat} (x y : IVec s w) (i : s.Idx) :
    andi x y i = IntOp.andi (x i) (y i) := rfl

/-- THE PRECONDITION DECODED: every entry of every float argument is a real number (the integer
    edge list, the second argument, is not a float array and is not mentioned). -/
theorem inputs_real [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, Cert.RealValued.IsReal (m ((c.tc : Thread Cert.KernelIdeal.nD Cert.KernelIdeal.τ).loc Cert.KernelIdeal.main_arg0) i))
      ∧ (∀ i, Cert.RealValued.IsReal (m ((c.tc : Thread Cert.KernelIdeal.nD Cert.KernelIdeal.τ).loc Cert.KernelIdeal.main_arg2) i))
      ∧ (∀ i, Cert.RealValued.IsReal (m ((c.tc : Thread Cert.KernelIdeal.nD Cert.KernelIdeal.τ).loc Cert.KernelIdeal.main_arg3) i))
      ∧ (∀ i, Cert.RealValued.IsReal (m ((c.tc : Thread Cert.KernelIdeal.nD Cert.KernelIdeal.τ).loc Cert.KernelIdeal.main_arg4) i))
      ∧ (∀ i, Cert.RealValued.IsReal (m ((c.tc : Thread Cert.KernelIdeal.nD Cert.KernelIdeal.τ).loc Cert.KernelIdeal.main_arg5) i))
      ∧ (∀ i, Cert.RealValued.IsReal (m ((c.tc : Thread Cert.KernelIdeal.nD Cert.KernelIdeal.τ).loc Cert.KernelIdeal.main_arg6) i))
      ∧ (∀ i, Cert.RealValued.IsReal (m ((c.tc : Thread Cert.KernelIdeal.nD Cert.KernelIdeal.τ).loc Cert.KernelIdeal.main_arg7) i))
      ∧ (∀ i, Cert.RealValued.IsReal (m ((c.tc : Thread Cert.KernelIdeal.nD Cert.KernelIdeal.τ).loc Cert.KernelIdeal.main_arg8) i)) := by
  have e := congrFun (hpre c) ValueIdx.ix0
  dsimp only [Cert.Pre_finite_inputs.fn, Cert.Pre_finite_inputs.fn_part1,
    Cert.Pre_finite_inputs.fn_part2] at e
  simp only [andi_apply, IntOp.andi_eq_one] at e
  obtain ⟨⟨⟨⟨⟨⟨⟨e0, e2⟩, e3⟩, e4⟩, e5⟩, e6⟩, e7⟩, e8⟩ := e
  exact ⟨all_real _ _ _ _ e0, all_real _ _ _ _ e2, all_real _ _ _ _ e3, all_real _ _ _ _ e4,
    all_real _ _ _ _ e5, all_real _ _ _ _ e6, all_real _ _ _ _ e7, all_real _ _ _ _ e8⟩

end Cert.PreReal

end
-- ==== Proof.KerValue.lean ====
/-
  The tiled program's result is the reference's function of the argument arrays.

  The result buffer ends at the slice of the second region's output; that output is the normalisation of the four
  arrays the host prepared; two of those are built from the aggregate, the scatter-add of the first region's output
  at the padded source ids; the first region's output is the message array of the padded gathers. Reading back:
  the messages agree with the reference's on the 800000 real edge rows, the padded rows are dropped by the
  scatter-add, so the aggregates are the same array; and on the 50000 real node rows the folded affine map is the
  reference's centred one, because under the precondition every input — and so every message, every aggregate
  entry, the column means and the reciprocal standard deviations — is a real number.
-/
import proofs.«121464_j6270652252664_2_alg».proof.Proof.KerHost
import proofs.«121464_j6270652252664_2_alg».proof.Proof.KerRegion0
import proofs.«121464_j6270652252664_2_alg».proof.Proof.KerRegion1
import proofs.«121464_j6270652252664_2_alg».proof.Proof.Bridge
import proofs.«121464_j6270652252664_2_alg».proof.Proof.ScatterPad
import proofs.«121464_j6270652252664_2_alg».proof.Proof.RefFinite
import proofs.«121464_j6270652252664_2_alg».proof.Proof.PreReal

set_option maxRecDepth 16384

noncomputable section

namespace Cert.KernelIdeal.KerValue

open Cert.KernelIdeal Cert.KernelIdeal.Gen
open Idealize.ShloMosaic Idealize.ShloMosaic.TcCoe Idealize.SL.Sem Idealize.ShloMosaic.ValueIdx
open Cert.ReferenceIdeal.RefStages Cert.RealValued

variable (m : (ℓ : Loc nD τ sig) → Buf (Elt Ideal) ℓ) (ρ : Dev nD → PrngReg) (c : Dev nD)

/-- The first region's output array at its exit: the message array of its seven input arrays at its entry. -/
theorem region0_out : W10 m ρ c (Proc.devRef .tc main_v26)
    = KerRegion0.msgAll (W9 m ρ c (Proc.devRef .tc main_v20)) (W9 m ρ c (Proc.devRef .tc main_v21)) (W9 m ρ c (Proc.devRef .tc main_v22))
        (W9 m ρ c (Proc.devRef .tc main_arg3)) (W9 m ρ c (Proc.devRef .tc main_v24)) (W9 m ρ c (Proc.devRef .tc main_arg5))
        (W9 m ρ c (Proc.devRef .tc main_v25)) :=
  (W10_arr m ρ c 7).trans (KerRegion0.final (V9 m ρ) c)

/-- The second region's output array at its exit: the normalisation of its four input arrays at its entry. -/
theorem region1_out : W17 m ρ c (Proc.devRef .tc main_v45)
    = KerRegion1.normAll (W16 m ρ c (Proc.devRef .tc main_v43)) (W16 m ρ c (Proc.devRef .tc main_v44))
        (W16 m ρ c (Proc.devRef .tc main_v41)) (W16 m ρ c (Proc.devRef .tc main_v42)) :=
  (W17_arr m ρ c 4).trans (KerRegion1.final (V16 m ρ) c)

/-- THE AGGREGATES ARE ONE ARRAY: the tiled program's scatter-add of its 802816 message rows at the padded ids is the
    reference's scatter-add of the 800000 real ones. -/
theorem aggK_eq : KerHost.aggK m ρ c = aggOf (srcIdx (m ((c.tc : Thread nD τ).loc main_arg1))) (msgOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold KerHost.aggK
  refine Cert.ScatterPad.scatter_pad_eq (srcIdx (m ((c.tc : Thread nD τ).loc main_arg1))) _ _ (fun e j => ?_)
  show W10 m ρ c (Proc.devRef .tc main_v26) (ix2 (⟨e.val, by omega⟩ : Fin 802816) j) = _
  rw [region0_out, KerHost.W9_v20, KerHost.W9_v21, KerHost.W9_v22, KerHost.W9_arg3, KerHost.W9_v24, KerHost.W9_arg5, KerHost.W9_v25]
  exact Cert.Bridge.msg_agree _ _ _ _ _ _ _ _ e j

/-- THE VALUE: under the precondition the tiled program's result buffer ends at the reference's function of the nine
    argument arrays. -/
theorem value (hpre : Cert.Pre_KernelIdeal m) :
    W18 m ρ c (Proc.devRef .tc main_v46)
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  obtain ⟨h0, h2, h3, h4, h5, h6, h7, h8⟩ := Cert.PreReal.inputs_real m hpre c
  have hmsg := Cert.Bridge.msgOf_isReal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) h0 h2 h3 h4 h5 h6
  have hagg : ∀ i, IsReal (aggOf (srcIdx (m ((c.tc : Thread nD τ).loc main_arg1))) (msgOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) i) :=
    fun i => Cert.ReferenceIdeal.RefFinite.aggOf_isReal _ _ hmsg i
  rw [KerHost.W18_v46, region1_out, KerHost.W16_v43, KerHost.W16_v44, KerHost.W16_v41, KerHost.W16_v42, aggK_eq]
  exact Cert.Bridge.tail_agree _ _ _ _ _ h0 hagg (Cert.ReferenceIdeal.RefFinite.meanOf_isReal _ hagg)
    (Cert.ReferenceIdeal.RefFinite.rstdOf_isReal _ hagg) h7 h8

end Cert.KernelIdeal.KerValue

end
-- ==== Proof.RefRun.lean ====
/-
  The reference program's run: @main as one straight line of host operations (the three called functions'
  bodies written out at their call sites over the calls' own buffers), cut into eight consecutive stretches, and the
  buffers' contents after each stretch as the named stages of the reference (`RefStages`). Every weakly fair
  execution terminates with the result buffer at `RefStages.refOut` of the argument arrays' launch contents and the
  argument arrays unchanged.
-/
import proofs.«121464_j6270652252664_2_alg».proof.ReferenceIdeal
import proofs.«121464_j6270652252664_2_alg».proof.Proof.RefStages
import proofs.«121464_j6270652252664_2_alg».proof.Proof.Gen.ReferenceIdeal
import Idealize.ShloMosaic.Lib.StableHlo.Run
import Idealize.ShloMosaic.Lib.Pipeline.Regions

set_option Elab.async false

noncomputable section

namespace Cert.ReferenceIdeal.RefRun

open Cert.ReferenceIdeal Cert.ReferenceIdeal.Facts₀ Idealize.ShloMosaic Idealize.ShloMosaic.TcCoe Idealize.SL.Sem
open Idealize.ShloMosaic.StableHlo

variable {F : FTy → Type} [FloatOps F]

/-- @main's first 23 operations: the two index rows, their wrap-around, the two gathers and the concatenation into the 266-wide edge input. -/
abbrev opsA1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_v3 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v3 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nary ![main_v10, main_v17, main_arg2] main_v18 (fun u => concatenate S800000x266 1 [⟨S800000x128, u 0⟩, ⟨S800000x128, u 1⟩, ⟨S800000x10, u 2⟩] concatenates_S800000x128_S800000x128_S800000x10_S800000x266_d1) ]
theorem opsA1_sub : (opsA1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩
theorem opsA1_fresh : ∀ op ∈ (opsA1 : List (HloOp τ sig (Elt F))), op.fresh = ∅ := by
  intro _ h; (repeat (cases h with | head => rfl | tail _ h => ?_)); exact nomatch h

/-- @main's next 16 operations: the two affine maps of the edge input and the logistic map of the first. -/
abbrev opsA2 : List (HloOp τ sig (Elt F)) :=
  [ StableHlo.binary main_v18 main_arg3 main_v19 ((fun l r => Host.dotGeneral dot_S800000x266_S266x128_S800000x128_1_0_0_1_n_n none l r) : (⟨S800000x266, .f32⟩ : BufTy).Contents (Elt F) → (⟨S266x128, .f32⟩ : BufTy).Contents (Elt F) → (⟨S800000x128, .f32⟩ : BufTy).Contents (Elt F)),
    StableHlo.unary main_arg4 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S800000x128 ![0, 1] bcast_S1x128_S800000x128_0_1 : (⟨S1x128, .f32⟩ : BufTy).Contents (Elt F) → (⟨S800000x128, .f32⟩ : BufTy).Contents (Elt F)),
    StableHlo.binary main_v19 main_v21 main_v22 (addf : (⟨S800000x128, .f32⟩ : BufTy).Contents (Elt F) → (⟨S800000x128, .f32⟩ : BufTy).Contents (Elt F) → (⟨S800000x128, .f32⟩ : BufTy).Contents (Elt F)),
    StableHlo.unary main_v22 main_v23 (Host.negf : (⟨S800000x128, .f32⟩ : BufTy).Contents (Elt F) → (⟨S800000x128, .f32⟩ : BufTy).Contents (Elt F)),
    StableHlo.unary main_v23 main_v24 (Host.exp : (⟨S800000x128, .f32⟩ : BufTy).Contents (Elt F) → (⟨S800000x128, .f32⟩ : BufTy).Contents (Elt F)),
    StableHlo.nullary main_cst (constant S_ .f32 0x3F800000#32),
    StableHlo.unary main_cst main_v25 (broadcastInDim S800000x128 ![] bcast_S_S800000x128 : (⟨S_, .f32⟩ : BufTy).Contents (Elt F) → (⟨S800000x128, .f32⟩ : BufTy).Contents (Elt F)),
    StableHlo.binary main_v25 main_v24 main_v26 (addf : (⟨S800000x128, .f32⟩ : BufTy).Contents (Elt F) → (⟨S800000x128, .f32⟩ : BufTy).Contents (Elt F) → (⟨S800000x128, .f32⟩ : BufTy).Contents (Elt F)),
    StableHlo.nullary main_cst_3 (constant S_ .f32 0x3F800000#32),
    StableHlo.unary main_cst_3 main_v27 (broadcastInDim S800000x128 ![] bcast_S_S800000x128 : (⟨S_, .f32⟩ : BufTy).Contents (Elt F) → (⟨S800000x128, .f32⟩ : BufTy).Contents (Elt F)),
    StableHlo.binary main_v27 main_v26 main_v28 (Host.divf : (⟨S800000x128, .f32⟩ : BufTy).Contents (Elt F) → (⟨S800000x128, .f32⟩ : BufTy).Contents (Elt F) → (⟨S800000x128, .f32⟩ : BufTy).Contents (Elt F)),
    StableHlo.binary main_v18 main_arg5 main_v29 ((fun l r => Host.dotGeneral dot_S800000x266_S266x128_S800000x128_1_0_0_1_n_n none l r) : (⟨S800000x266, .f32⟩ : BufTy).Contents (Elt F) → (⟨S266x128, .f32⟩ : BufTy).Contents (Elt F) → (⟨S800000x128, .f32⟩ : BufTy).Contents (Elt F)),
    StableHlo.unary main_arg6 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S800000x128 ![0, 1] bcast_S1x128_S800000x128_0_1 : (⟨S1x128, .f32⟩ : BufTy).Contents (Elt F) → (⟨S800000x128, .f32⟩ : BufTy).Contents (Elt F)),
    StableHlo.binary main_v29 main_v31 main_v32 (addf : (⟨S800000x128, .f32⟩ : BufTy).Contents (Elt F) → (⟨S800000x128, .f32⟩ : BufTy).Contents (Elt F) → (⟨S800000x128, .f32⟩ : BufTy).Contents (Elt F)) ]
theorem opsA2_sub : (opsA2 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩
theorem opsA2_fresh : ∀ op ∈ (opsA2 : List (HloOp τ sig (Elt F))), op.fresh = ∅ := by
  intro _ h; (repeat (cases h with | head => rfl | tail _ h => ?_)); exact nomatch h

/-- The 14 operations of the first softplus call, over its own buffers. -/
abbrev opsSp : List (HloOp τ sig (Elt F)) :=
  [ StableHlo.TRef.nullary main_call0.cst (constant S_ .f32 0x00000000#32),
    StableHlo.TRef.unary main_call0.cst main_call0.v0 (broadcastInDim S800000x128 ![] bcast_S_S800000x128),
    StableHlo.TRef.binary (.of main_v32 : StableHlo.TRef sig ⟨S800000x128, .f32⟩) main_call0.v0 main_call0.v1 maximumf,
    StableHlo.TRef.unary main_call0.cst main_call0.v2 (broadcastInDim S800000x128 ![] bcast_S_S800000x128),
    StableHlo.TRef.binary (.of main_v32 : StableHlo.TRef sig ⟨S800000x128, .f32⟩) main_call0.v2 main_call0.v3 subf,
    StableHlo.TRef.binary main_call0.v3 main_call0.v3 main_call0.v4 (cmpf .une),
    StableHlo.TRef.unary main_call0.cst main_call0.v5 (broadcastInDim S800000x128 ![] bcast_S_S800000x128),
    StableHlo.TRef.binary (.of main_v32 : StableHlo.TRef sig ⟨S800000x128, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select ]
theorem opsSp_sub : (opsSp : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem opsSp_fresh : ∀ op ∈ (opsSp : List (HloOp τ sig (Elt F))), op.fresh = ∅ := by
  intro _ h; (repeat (cases h with | head => rfl | tail _ h => ?_)); exact nomatch h

/-- The 11 operations of @main between the first softplus call and the variance call: the message, the scatter-add, the column mean. -/
abbrev opsB : List (HloOp τ sig (Elt F)) :=
  [ StableHlo.binary main_v28 main_v33 main_v34 (mulf : (⟨S800000x128, .f32⟩ : BufTy).Contents (Elt F) → (⟨S800000x128, .f32⟩ : BufTy).Contents (Elt F) → (⟨S800000x128, .f32⟩ : BufTy).Contents (Elt F)),
    StableHlo.nullary main_cst_4 (constant S_ .f32 0x00000000#32),
    StableHlo.unary main_cst_4 main_v35 (broadcastInDim S50000x128 ![] bcast_S_S50000x128 : (⟨S_, .f32⟩ : BufTy).Contents (Elt F) → (⟨S50000x128, .f32⟩ : BufTy).Contents (Elt F)),
    StableHlo.unary main_v1 main_v36 (broadcastInDim S800000x1 ![0] bcast_S800000_S800000x1_0 : (⟨S800000, .i32⟩ : BufTy).Contents (Elt F) → (⟨S800000x1, .i32⟩ : BufTy).Contents (Elt F)),
    StableHlo.ternary main_v35 main_v36 main_v34 main_v37 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_5 (constant S_ .f32 0x00000000#32),
    StableHlo.binary main_v37 main_cst_5 main_v38 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v39 (broadcastInDim S128 ![] bcast_S_S128 : (⟨S_, .f32⟩ : BufTy).Contents (Elt F) → (⟨S128, .f32⟩ : BufTy).Contents (Elt F)),
    StableHlo.binary main_v38 main_v39 main_v40 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32) ]
theorem opsB_sub : (opsB : List (HloOp τ sig (Elt F))).Forall fun op => op.bufs ⊆ tcRefs τ sig :=
  ⟨binary_bufs_sub .., nullary_bufs_sub .., unary_bufs_sub .., unary_bufs_sub .., ternary_bufs_sub .., nullary_bufs_sub .., binary_bufs_sub .., nullary_bufs_sub .., unary_bufs_sub .., binary_bufs_sub .., nullary_bufs_sub ..⟩
theorem opsB_fresh : ∀ op ∈ (opsB : List (HloOp τ sig (Elt F))), op.fresh = ∅ := by
  intro _ h; (repeat (cases h with | head => rfl | tail _ h => ?_)); exact nomatch h

/-- The 22 operations of the variance call (the select call inside it included), over their own buffers. -/
abbrev opsVar : List (HloOp τ sig (Elt F)) :=
  [ StableHlo.TRef.nullary main_call1.cst (constant S_ .f32 0x00000000#32),
    StableHlo.TRef.binary (.of main_v37 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v37 : StableHlo.TRef sig ⟨S50000x128, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]
theorem opsVar_sub : (opsVar : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsVar_fresh : ∀ op ∈ (opsVar : List (HloOp τ sig (Elt F))), op.fresh = ∅ := by
  intro _ h; (repeat (cases h with | head => rfl | tail _ h => ?_)); exact nomatch h

/-- The 8 operations of @main after the variance call up to the end of its first window: centring and the reciprocal standard deviation. -/
abbrev opsC : List (HloOp τ sig (Elt F)) :=
  [ StableHlo.unary main_v40 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v43 main_v44 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v45 (broadcastInDim S128 ![] bcast_S_S128 : (⟨S_, .f32⟩ : BufTy).Contents (Elt F) → (⟨S128, .f32⟩ : BufTy).Contents (Elt F)),
    StableHlo.binary main_v41 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)) ]
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub ..⟩
theorem opsC_fresh : ∀ op ∈ (opsC : List (HloOp τ sig (Elt F))), op.fresh = ∅ := by
  intro _ h; (repeat (cases h with | head => rfl | tail _ h => ?_)); exact nomatch h

/-- The 9 operations of @main's second window before the last call: scaling, shifting and the residual sum. -/
abbrev opsD : List (HloOp τ sig (Elt F)) :=
  [ StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg7 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (mulf : (⟨S50000x128, .f32⟩ : BufTy).Contents (Elt F) → (⟨S50000x128, .f32⟩ : BufTy).Contents (Elt F) → (⟨S50000x128, .f32⟩ : BufTy).Contents (Elt F)),
    StableHlo.unary main_arg8 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (addf : (⟨S50000x128, .f32⟩ : BufTy).Contents (Elt F) → (⟨S50000x128, .f32⟩ : BufTy).Contents (Elt F) → (⟨S50000x128, .f32⟩ : BufTy).Contents (Elt F)),
    StableHlo.binary main_arg0 main_v56 main_v57 (addf : (⟨S50000x128, .f32⟩ : BufTy).Contents (Elt F) → (⟨S50000x128, .f32⟩ : BufTy).Contents (Elt F) → (⟨S50000x128, .f32⟩ : BufTy).Contents (Elt F)) ]
theorem opsD_sub : (opsD : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., binary_bufs_sub ..⟩
theorem opsD_fresh : ∀ op ∈ (opsD : List (HloOp τ sig (Elt F))), op.fresh = ∅ := by
  intro _ h; (repeat (cases h with | head => rfl | tail _ h => ?_)); exact nomatch h

/-- The 14 operations of the last softplus call, over its own buffers. -/
abbrev opsSp0 : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v57 : StableHlo.TRef sig ⟨S50000x128, .f32⟩) main_call2.v0 main_call2.v1 maximumf,
    StableHlo.TRef.unary main_call2.cst main_call2.v2 (broadcastInDim S50000x128 ![] bcast_S_S50000x128),
    StableHlo.TRef.binary (.of main_v57 : StableHlo.TRef sig ⟨S50000x128, .f32⟩) main_call2.v2 main_call2.v3 subf,
    StableHlo.TRef.binary main_call2.v3 main_call2.v3 main_call2.v4 (cmpf .une),
    StableHlo.TRef.unary main_call2.cst main_call2.v5 (broadcastInDim S50000x128 ![] bcast_S_S50000x128),
    StableHlo.TRef.binary (.of main_v57 : StableHlo.TRef sig ⟨S50000x128, .f32⟩) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select ]
theorem opsSp0_sub : (opsSp0 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem opsSp0_fresh : ∀ op ∈ (opsSp0 : List (HloOp τ sig (Elt F))), op.fresh = ∅ := by
  intro _ h; (repeat (cases h with | head => rfl | tail _ h => ?_)); exact nomatch h

/-- The whole line: the 8 stretches in order. -/
abbrev ops : List (HloOp τ sig (Elt F)) :=
  opsA1 ++ (opsA2 ++ (opsSp ++ (opsB ++ (opsVar ++ (opsC ++ (opsD ++ (opsSp0)))))))

/-- @main is the 8 stretches run one after the other: both sides are the same chain of operation steps once each
    called function's body stands at its call. -/
theorem main_chain (c : Dev nD) : main (F := F) c = Pipeline.chainK
    [seq opsA1, seq opsA2, seq opsSp, seq opsB, seq opsVar, seq opsC, seq opsD] (seq opsSp0) := by
  chain_rfl

theorem main_eq (c : Dev nD) : main (F := F) c = seq ops := by
  rw [main_chain]
  simp only [ops, seq_append, Pipeline.chainK]

/-! ## The buffers' contents after each stretch

Each stretch is read first from ARBITRARY contents `U` (`ops‹X›_‹buffer›`): the buffer a later stretch reads holds a
stage of the reference applied to what `U` holds in the buffers the stretch reads. Then `valK V` is the device's buffer
contents after the first `K` stretches from contents `V`, and `valK_‹buffer›` composes those readings into a stage of
the reference over the argument arrays' contents in `V`. A buffer a stretch does not write keeps its contents through
it (`valK_keep`). -/

/-- The contents after two lists run in order. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffers the operations of `opsA1` write. -/
abbrev opsA1_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18]
theorem opsA1_writes : (opsA1 : List (HloOp τ sig (Elt F))).Forall fun op =>
    op.writes ⊆ (opsA1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the operations of `opsA2` write. -/
abbrev opsA2_W : List (Ref sig .tc) := [main_v19, main_v20, main_v21, main_v22, main_v23, main_v24, main_cst, main_v25, main_v26, main_cst_3, main_v27, main_v28, main_v29, main_v30, main_v31, main_v32]
theorem opsA2_writes : (opsA2 : List (HloOp τ sig (Elt F))).Forall fun op =>
    op.writes ⊆ (opsA2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the operations of `opsSp` write. -/
abbrev opsSp_W : List (Ref sig .tc) := [main_call0_cst, main_call0_v0, main_call0_v1, main_call0_v2, main_call0_v3, main_call0_v4, main_call0_v5, main_call0_v6, main_call0_v7, main_call0_v8, main_call0_v9, main_call0_v10, main_call0_v11, main_v33]
theorem opsSp_writes : (opsSp : List (HloOp τ sig (Elt F))).Forall fun op =>
    op.writes ⊆ (opsSp_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the operations of `opsB` write. -/
abbrev opsB_W : List (Ref sig .tc) := [main_v34, main_cst_4, main_v35, main_v36, main_v37, main_cst_5, main_v38, main_cst_6, main_v39, main_v40, main_c_7]
theorem opsB_writes : (opsB : List (HloOp τ sig (Elt F))).Forall fun op =>
    op.writes ⊆ (opsB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the operations of `opsVar` write. -/
abbrev opsVar_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v41]
theorem opsVar_writes : (opsVar : List (HloOp τ sig (Elt F))).Forall fun op =>
    op.writes ⊆ (opsVar_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the operations of `opsC` write. -/
abbrev opsC_W : List (Ref sig .tc) := [main_v42, main_v43, main_v44, main_cst_8, main_v45, main_v46, main_v47, main_v48]
theorem opsC_writes : (opsC : List (HloOp τ sig (Elt F))).Forall fun op =>
    op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the operations of `opsD` write. -/
abbrev opsD_W : List (Ref sig .tc) := [main_v49, main_v50, main_v51, main_v52, main_v53, main_v54, main_v55, main_v56, main_v57]
theorem opsD_writes : (opsD : List (HloOp τ sig (Elt F))).Forall fun op =>
    op.writes ⊆ (opsD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers the operations of `opsSp0` write. -/
abbrev opsSp0_W : List (Ref sig .tc) := [main_call2_cst, main_call2_v0, main_call2_v1, main_call2_v2, main_call2_v3, main_call2_v4, main_call2_v5, main_call2_v6, main_call2_v7, main_call2_v8, main_call2_v9, main_call2_v10, main_call2_v11, main_v58]
theorem opsSp0_writes : (opsSp0 : List (HloOp τ sig (Elt F))).Forall fun op =>
    op.writes ⊆ (opsSp0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-! ### Each stretch from arbitrary contents -/

section Stretches

variable (U : Valuation τ sig (Elt Ideal))

set_option maxHeartbeats 2000000 in
set_option maxRecDepth 4096 in
theorem opsA1_main_v1 :
    after (opsA1 (F := Ideal)) U (Proc.devRef .tc main_v1) = RefStages.srcIdx (U (Proc.devRef .tc main_arg1)) := by
  simp only [opsA1]
  after_results_simp
  rfl

set_option maxHeartbeats 2000000 in
set_option maxRecDepth 4096 in
theorem opsA1_main_v18 :
    after (opsA1 (F := Ideal)) U (Proc.devRef .tc main_v18) = RefStages.catOf (RefStages.rowsOf (U (Proc.devRef .tc main_arg0)) (RefStages.srcIdx (U (Proc.devRef .tc main_arg1)))) (RefStages.rowsOf (U (Proc.devRef .tc main_arg0)) (RefStages.dstIdx (U (Proc.devRef .tc main_arg1)))) (U (Proc.devRef .tc main_arg2)) := by
  simp only [opsA1]
  after_results_simp
  try dsimp only [Matrix.cons_val]
  try after_results_simp
  rfl

set_option maxHeartbeats 2000000 in
set_option maxRecDepth 4096 in
theorem opsA2_main_v28 :
    after (opsA2 (F := Ideal)) U (Proc.devRef .tc main_v28) = RefStages.sigmOf (RefStages.logitsOf (U (Proc.devRef .tc main_v18)) (U (Proc.devRef .tc main_arg3)) (U (Proc.devRef .tc main_arg4))) := by
  simp only [opsA2]
  after_results_simp
  rfl

set_option maxHeartbeats 2000000 in
set_option maxRecDepth 4096 in
theorem opsA2_main_v32 :
    after (opsA2 (F := Ideal)) U (Proc.devRef .tc main_v32) = RefStages.logitsOf (U (Proc.devRef .tc main_v18)) (U (Proc.devRef .tc main_arg5)) (U (Proc.devRef .tc main_arg6)) := by
  simp only [opsA2]
  after_results_simp
  rfl

set_option maxHeartbeats 2000000 in
set_option maxRecDepth 4096 in
theorem opsSp_main_v33 :
    after (opsSp (F := Ideal)) U (Proc.devRef .tc main_v33) = RefStages.splusE (U (Proc.devRef .tc main_v32)) := by
  simp only [opsSp]
  after_results_simp
  rfl

set_option maxHeartbeats 2000000 in
set_option maxRecDepth 4096 in
theorem opsB_main_v37 :
    after (opsB (F := Ideal)) U (Proc.devRef .tc main_v37) = RefStages.aggOf (U (Proc.devRef .tc main_v1)) (mulf (U (Proc.devRef .tc main_v28)) (U (Proc.devRef .tc main_v33))) := by
  simp only [opsB]
  after_results_simp
  rfl

set_option maxHeartbeats 2000000 in
set_option maxRecDepth 4096 in
theorem opsB_main_v40 :
    after (opsB (F := Ideal)) U (Proc.devRef .tc main_v40) = RefStages.meanOf (RefStages.aggOf (U (Proc.devRef .tc main_v1)) (mulf (U (Proc.devRef .tc main_v28)) (U (Proc.devRef .tc main_v33)))) := by
  simp only [opsB]
  after_results_simp
  rfl

set_option maxHeartbeats 2000000 in
set_option maxRecDepth 4096 in
theorem opsB_main_c_7 :
    after (opsB (F := Ideal)) U (Proc.devRef .tc main_c_7) = constantI S_ 32 0#32 := by
  simp only [opsB]
  after_results_simp

set_option maxHeartbeats 2000000 in
set_option maxRecDepth 4096 in
theorem opsVar_main_v41 (hc : U (Proc.devRef .tc main_c_7) = constantI S_ 32 0#32) :
    after (opsVar (F := Ideal)) U (Proc.devRef .tc main_v41) = RefStages.varOf (U (Proc.devRef .tc main_v37)) := by
  simp only [opsVar]
  after_results_simp
  rw [hc]
  rfl

set_option maxHeartbeats 2000000 in
set_option maxRecDepth 4096 in
theorem opsC_main_v44 :
    after (opsC (F := Ideal)) U (Proc.devRef .tc main_v44) = subf (U (Proc.devRef .tc main_v37)) (RefStages.rowB (U (Proc.devRef .tc main_v40))) := by
  simp only [opsC]
  after_results_simp
  rfl

set_option maxHeartbeats 2000000 in
set_option maxRecDepth 4096 in
theorem opsC_main_v48 :
    after (opsC (F := Ideal)) U (Proc.devRef .tc main_v48) = broadcastInDim S1x128 ![1] bcast_S128_S1x128_1 (Host.rsqrt (F := Ideal) (addf (U (Proc.devRef .tc main_v41)) (broadcastInDim S128 ![] bcast_S_S128 (constant (F := Ideal) S_ .f32 0x3727C5AC#32)))) := by
  simp only [opsC]
  after_results_simp

set_option maxHeartbeats 2000000 in
set_option maxRecDepth 4096 in
theorem opsD_main_v57 :
    after (opsD (F := Ideal)) U (Proc.devRef .tc main_v57) = addf (U (Proc.devRef .tc main_arg0)) (addf (mulf (mulf (U (Proc.devRef .tc main_v44)) (broadcastInDim S50000x128 ![0, 1] bcast_S1x128_S50000x128_0_1 (U (Proc.devRef .tc main_v48)))) (RefStages.rowB (U (Proc.devRef .tc main_arg7)))) (RefStages.rowB (U (Proc.devRef .tc main_arg8)))) := by
  simp only [opsD]
  after_results_simp
  rfl

set_option maxHeartbeats 2000000 in
set_option maxRecDepth 4096 in
theorem opsSp0_main_v58 :
    after (opsSp0 (F := Ideal)) U (Proc.devRef .tc main_v58) = RefStages.splusN (U (Proc.devRef .tc main_v57)) := by
  simp only [opsSp0]
  after_results_simp
  rfl

end Stretches

/-! ### The stretches composed -/

section Values

variable (V : Valuation τ sig (Elt Ideal))

/-- The 266-wide edge input built from the argument arrays' contents. -/
def zOf : FVec Ideal S800000x266 .f32 :=
  RefStages.catOf (RefStages.rowsOf (V (Proc.devRef .tc main_arg0)) (RefStages.srcIdx (V (Proc.devRef .tc main_arg1))))
    (RefStages.rowsOf (V (Proc.devRef .tc main_arg0)) (RefStages.dstIdx (V (Proc.devRef .tc main_arg1)))) (V (Proc.devRef .tc main_arg2))

/-- The per-node aggregate of the edge messages built from the argument arrays' contents. -/
def aggOfV : FVec Ideal S50000x128 .f32 :=
  RefStages.aggOf (RefStages.srcIdx (V (Proc.devRef .tc main_arg1))) (RefStages.msgOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))

/-- The contents before the first stretch. -/
def val0 : Valuation τ sig (Elt Ideal) := V
theorem val0_main_arg0 : val0 V (no_index (Proc.devRef .tc main_arg0)) = V (Proc.devRef .tc main_arg0) := rfl
theorem val0_main_arg1 : val0 V (no_index (Proc.devRef .tc main_arg1)) = V (Proc.devRef .tc main_arg1) := rfl
theorem val0_main_arg2 : val0 V (no_index (Proc.devRef .tc main_arg2)) = V (Proc.devRef .tc main_arg2) := rfl
theorem val0_main_arg3 : val0 V (no_index (Proc.devRef .tc main_arg3)) = V (Proc.devRef .tc main_arg3) := rfl
theorem val0_main_arg4 : val0 V (no_index (Proc.devRef .tc main_arg4)) = V (Proc.devRef .tc main_arg4) := rfl
theorem val0_main_arg5 : val0 V (no_index (Proc.devRef .tc main_arg5)) = V (Proc.devRef .tc main_arg5) := rfl
theorem val0_main_arg6 : val0 V (no_index (Proc.devRef .tc main_arg6)) = V (Proc.devRef .tc main_arg6) := rfl
theorem val0_main_arg7 : val0 V (no_index (Proc.devRef .tc main_arg7)) = V (Proc.devRef .tc main_arg7) := rfl
theorem val0_main_arg8 : val0 V (no_index (Proc.devRef .tc main_arg8)) = V (Proc.devRef .tc main_arg8) := rfl

/-- The contents after the edge input (stretch 1 of 8). -/
def val1 : Valuation τ sig (Elt Ideal) := after (opsA1 (F := Ideal)) (val0 V)
/-- A buffer stretch 1 does not write keeps its contents through it. -/
theorem val1_keep (r : Ref sig .tc) (h : r ∉ opsA1_W) :
    val1 V (Proc.devRef .tc r) = val0 V (Proc.devRef .tc r) :=
  after_of_writes_sub (opsA1 (F := Ideal)) _ opsA1_writes h
theorem val1_main_arg0 : val1 V (no_index (Proc.devRef .tc main_arg0)) = V (Proc.devRef .tc main_arg0) :=
  (val1_keep V main_arg0 (by decide)).trans (val0_main_arg0 V)
theorem val1_main_arg1 : val1 V (no_index (Proc.devRef .tc main_arg1)) = V (Proc.devRef .tc main_arg1) :=
  (val1_keep V main_arg1 (by decide)).trans (val0_main_arg1 V)
theorem val1_main_arg2 : val1 V (no_index (Proc.devRef .tc main_arg2)) = V (Proc.devRef .tc main_arg2) :=
  (val1_keep V main_arg2 (by decide)).trans (val0_main_arg2 V)
theorem val1_main_arg3 : val1 V (no_index (Proc.devRef .tc main_arg3)) = V (Proc.devRef .tc main_arg3) :=
  (val1_keep V main_arg3 (by decide)).trans (val0_main_arg3 V)
theorem val1_main_arg4 : val1 V (no_index (Proc.devRef .tc main_arg4)) = V (Proc.devRef .tc main_arg4) :=
  (val1_keep V main_arg4 (by decide)).trans (val0_main_arg4 V)
theorem val1_main_arg5 : val1 V (no_index (Proc.devRef .tc main_arg5)) = V (Proc.devRef .tc main_arg5) :=
  (val1_keep V main_arg5 (by decide)).trans (val0_main_arg5 V)
theorem val1_main_arg6 : val1 V (no_index (Proc.devRef .tc main_arg6)) = V (Proc.devRef .tc main_arg6) :=
  (val1_keep V main_arg6 (by decide)).trans (val0_main_arg6 V)
theorem val1_main_arg7 : val1 V (no_index (Proc.devRef .tc main_arg7)) = V (Proc.devRef .tc main_arg7) :=
  (val1_keep V main_arg7 (by decide)).trans (val0_main_arg7 V)
theorem val1_main_arg8 : val1 V (no_index (Proc.devRef .tc main_arg8)) = V (Proc.devRef .tc main_arg8) :=
  (val1_keep V main_arg8 (by decide)).trans (val0_main_arg8 V)
theorem val1_main_v1 : val1 V (no_index (Proc.devRef .tc main_v1)) = RefStages.srcIdx (V (Proc.devRef .tc main_arg1)) := by
  unfold val1
  rw [opsA1_main_v1 (val0 V)]
  simp only [val0_main_arg1]
theorem val1_main_v18 : val1 V (no_index (Proc.devRef .tc main_v18)) = zOf V := by
  unfold val1
  rw [opsA1_main_v18 (val0 V)]
  simp only [val0_main_arg0, val0_main_arg1, val0_main_arg2, zOf]

/-- The contents after the two affine maps and the logistic map (stretch 2 of 8). -/
def val2 : Valuation τ sig (Elt Ideal) := after (opsA2 (F := Ideal)) (val1 V)
/-- A buffer stretch 2 does not write keeps its contents through it. -/
theorem val2_keep (r : Ref sig .tc) (h : r ∉ opsA2_W) :
    val2 V (Proc.devRef .tc r) = val1 V (Proc.devRef .tc r) :=
  after_of_writes_sub (opsA2 (F := Ideal)) _ opsA2_writes h
theorem val2_main_arg0 : val2 V (no_index (Proc.devRef .tc main_arg0)) = V (Proc.devRef .tc main_arg0) :=
  (val2_keep V main_arg0 (by decide)).trans (val1_main_arg0 V)
theorem val2_main_arg1 : val2 V (no_index (Proc.devRef .tc main_arg1)) = V (Proc.devRef .tc main_arg1) :=
  (val2_keep V main_arg1 (by decide)).trans (val1_main_arg1 V)
theorem val2_main_arg2 : val2 V (no_index (Proc.devRef .tc main_arg2)) = V (Proc.devRef .tc main_arg2) :=
  (val2_keep V main_arg2 (by decide)).trans (val1_main_arg2 V)
theorem val2_main_arg3 : val2 V (no_index (Proc.devRef .tc main_arg3)) = V (Proc.devRef .tc main_arg3) :=
  (val2_keep V main_arg3 (by decide)).trans (val1_main_arg3 V)
theorem val2_main_arg4 : val2 V (no_index (Proc.devRef .tc main_arg4)) = V (Proc.devRef .tc main_arg4) :=
  (val2_keep V main_arg4 (by decide)).trans (val1_main_arg4 V)
theorem val2_main_arg5 : val2 V (no_index (Proc.devRef .tc main_arg5)) = V (Proc.devRef .tc main_arg5) :=
  (val2_keep V main_arg5 (by decide)).trans (val1_main_arg5 V)
theorem val2_main_arg6 : val2 V (no_index (Proc.devRef .tc main_arg6)) = V (Proc.devRef .tc main_arg6) :=
  (val2_keep V main_arg6 (by decide)).trans (val1_main_arg6 V)
theorem val2_main_arg7 : val2 V (no_index (Proc.devRef .tc main_arg7)) = V (Proc.devRef .tc main_arg7) :=
  (val2_keep V main_arg7 (by decide)).trans (val1_main_arg7 V)
theorem val2_main_arg8 : val2 V (no_index (Proc.devRef .tc main_arg8)) = V (Proc.devRef .tc main_arg8) :=
  (val2_keep V main_arg8 (by decide)).trans (val1_main_arg8 V)
theorem val2_main_v1 : val2 V (no_index (Proc.devRef .tc main_v1)) = RefStages.srcIdx (V (Proc.devRef .tc main_arg1)) :=
  (val2_keep V main_v1 (by decide)).trans (val1_main_v1 V)
theorem val2_main_v28 : val2 V (no_index (Proc.devRef .tc main_v28)) = RefStages.sigmOf (RefStages.logitsOf (zOf V) (V (Proc.devRef .tc main_arg3)) (V (Proc.devRef .tc main_arg4))) := by
  unfold val2
  rw [opsA2_main_v28 (val1 V)]
  simp only [val1_main_v18, val1_main_arg3, val1_main_arg4]
theorem val2_main_v32 : val2 V (no_index (Proc.devRef .tc main_v32)) = RefStages.logitsOf (zOf V) (V (Proc.devRef .tc main_arg5)) (V (Proc.devRef .tc main_arg6)) := by
  unfold val2
  rw [opsA2_main_v32 (val1 V)]
  simp only [val1_main_v18, val1_main_arg5, val1_main_arg6]

/-- The contents after the first softplus call (stretch 3 of 8). -/
def val3 : Valuation τ sig (Elt Ideal) := after (opsSp (F := Ideal)) (val2 V)
/-- A buffer stretch 3 does not write keeps its contents through it. -/
theorem val3_keep (r : Ref sig .tc) (h : r ∉ opsSp_W) :
    val3 V (Proc.devRef .tc r) = val2 V (Proc.devRef .tc r) :=
  after_of_writes_sub (opsSp (F := Ideal)) _ opsSp_writes h
theorem val3_main_arg0 : val3 V (no_index (Proc.devRef .tc main_arg0)) = V (Proc.devRef .tc main_arg0) :=
  (val3_keep V main_arg0 (by decide)).trans (val2_main_arg0 V)
theorem val3_main_arg1 : val3 V (no_index (Proc.devRef .tc main_arg1)) = V (Proc.devRef .tc main_arg1) :=
  (val3_keep V main_arg1 (by decide)).trans (val2_main_arg1 V)
theorem val3_main_arg2 : val3 V (no_index (Proc.devRef .tc main_arg2)) = V (Proc.devRef .tc main_arg2) :=
  (val3_keep V main_arg2 (by decide)).trans (val2_main_arg2 V)
theorem val3_main_arg3 : val3 V (no_index (Proc.devRef .tc main_arg3)) = V (Proc.devRef .tc main_arg3) :=
  (val3_keep V main_arg3 (by decide)).trans (val2_main_arg3 V)
theorem val3_main_arg4 : val3 V (no_index (Proc.devRef .tc main_arg4)) = V (Proc.devRef .tc main_arg4) :=
  (val3_keep V main_arg4 (by decide)).trans (val2_main_arg4 V)
theorem val3_main_arg5 : val3 V (no_index (Proc.devRef .tc main_arg5)) = V (Proc.devRef .tc main_arg5) :=
  (val3_keep V main_arg5 (by decide)).trans (val2_main_arg5 V)
theorem val3_main_arg6 : val3 V (no_index (Proc.devRef .tc main_arg6)) = V (Proc.devRef .tc main_arg6) :=
  (val3_keep V main_arg6 (by decide)).trans (val2_main_arg6 V)
theorem val3_main_arg7 : val3 V (no_index (Proc.devRef .tc main_arg7)) = V (Proc.devRef .tc main_arg7) :=
  (val3_keep V main_arg7 (by decide)).trans (val2_main_arg7 V)
theorem val3_main_arg8 : val3 V (no_index (Proc.devRef .tc main_arg8)) = V (Proc.devRef .tc main_arg8) :=
  (val3_keep V main_arg8 (by decide)).trans (val2_main_arg8 V)
theorem val3_main_v1 : val3 V (no_index (Proc.devRef .tc main_v1)) = RefStages.srcIdx (V (Proc.devRef .tc main_arg1)) :=
  (val3_keep V main_v1 (by decide)).trans (val2_main_v1 V)
theorem val3_main_v28 : val3 V (no_index (Proc.devRef .tc main_v28)) = RefStages.sigmOf (RefStages.logitsOf (zOf V) (V (Proc.devRef .tc main_arg3)) (V (Proc.devRef .tc main_arg4))) :=
  (val3_keep V main_v28 (by decide)).trans (val2_main_v28 V)
theorem val3_main_v33 : val3 V (no_index (Proc.devRef .tc main_v33)) = RefStages.splusE (RefStages.logitsOf (zOf V) (V (Proc.devRef .tc main_arg5)) (V (Proc.devRef .tc main_arg6))) := by
  unfold val3
  rw [opsSp_main_v33 (val2 V)]
  simp only [val2_main_v32]

/-- The contents after the scatter-add and the column mean (stretch 4 of 8). -/
def val4 : Valuation τ sig (Elt Ideal) := after (opsB (F := Ideal)) (val3 V)
/-- A buffer stretch 4 does not write keeps its contents through it. -/
theorem val4_keep (r : Ref sig .tc) (h : r ∉ opsB_W) :
    val4 V (Proc.devRef .tc r) = val3 V (Proc.devRef .tc r) :=
  after_of_writes_sub (opsB (F := Ideal)) _ opsB_writes h
theorem val4_main_arg0 : val4 V (no_index (Proc.devRef .tc main_arg0)) = V (Proc.devRef .tc main_arg0) :=
  (val4_keep V main_arg0 (by decide)).trans (val3_main_arg0 V)
theorem val4_main_arg1 : val4 V (no_index (Proc.devRef .tc main_arg1)) = V (Proc.devRef .tc main_arg1) :=
  (val4_keep V main_arg1 (by decide)).trans (val3_main_arg1 V)
theorem val4_main_arg2 : val4 V (no_index (Proc.devRef .tc main_arg2)) = V (Proc.devRef .tc main_arg2) :=
  (val4_keep V main_arg2 (by decide)).trans (val3_main_arg2 V)
theorem val4_main_arg3 : val4 V (no_index (Proc.devRef .tc main_arg3)) = V (Proc.devRef .tc main_arg3) :=
  (val4_keep V main_arg3 (by decide)).trans (val3_main_arg3 V)
theorem val4_main_arg4 : val4 V (no_index (Proc.devRef .tc main_arg4)) = V (Proc.devRef .tc main_arg4) :=
  (val4_keep V main_arg4 (by decide)).trans (val3_main_arg4 V)
theorem val4_main_arg5 : val4 V (no_index (Proc.devRef .tc main_arg5)) = V (Proc.devRef .tc main_arg5) :=
  (val4_keep V main_arg5 (by decide)).trans (val3_main_arg5 V)
theorem val4_main_arg6 : val4 V (no_index (Proc.devRef .tc main_arg6)) = V (Proc.devRef .tc main_arg6) :=
  (val4_keep V main_arg6 (by decide)).trans (val3_main_arg6 V)
theorem val4_main_arg7 : val4 V (no_index (Proc.devRef .tc main_arg7)) = V (Proc.devRef .tc main_arg7) :=
  (val4_keep V main_arg7 (by decide)).trans (val3_main_arg7 V)
theorem val4_main_arg8 : val4 V (no_index (Proc.devRef .tc main_arg8)) = V (Proc.devRef .tc main_arg8) :=
  (val4_keep V main_arg8 (by decide)).trans (val3_main_arg8 V)
theorem val4_main_v37 : val4 V (no_index (Proc.devRef .tc main_v37)) = aggOfV V := by
  unfold val4
  rw [opsB_main_v37 (val3 V)]
  simp only [val3_main_v28, val3_main_v33, val3_main_v1, aggOfV, RefStages.msgOf, zOf]
theorem val4_main_v40 : val4 V (no_index (Proc.devRef .tc main_v40)) = RefStages.meanOf (aggOfV V) := by
  unfold val4
  rw [opsB_main_v40 (val3 V)]
  simp only [val3_main_v28, val3_main_v33, val3_main_v1, aggOfV, RefStages.msgOf, zOf]
theorem val4_main_c_7 : val4 V (no_index (Proc.devRef .tc main_c_7)) = constantI S_ 32 0#32 := by
  unfold val4
  rw [opsB_main_c_7 (val3 V)]

/-- The contents after the variance call (stretch 5 of 8). -/
def val5 : Valuation τ sig (Elt Ideal) := after (opsVar (F := Ideal)) (val4 V)
/-- A buffer stretch 5 does not write keeps its contents through it. -/
theorem val5_keep (r : Ref sig .tc) (h : r ∉ opsVar_W) :
    val5 V (Proc.devRef .tc r) = val4 V (Proc.devRef .tc r) :=
  after_of_writes_sub (opsVar (F := Ideal)) _ opsVar_writes h
theorem val5_main_arg0 : val5 V (no_index (Proc.devRef .tc main_arg0)) = V (Proc.devRef .tc main_arg0) :=
  (val5_keep V main_arg0 (by decide)).trans (val4_main_arg0 V)
theorem val5_main_arg1 : val5 V (no_index (Proc.devRef .tc main_arg1)) = V (Proc.devRef .tc main_arg1) :=
  (val5_keep V main_arg1 (by decide)).trans (val4_main_arg1 V)
theorem val5_main_arg2 : val5 V (no_index (Proc.devRef .tc main_arg2)) = V (Proc.devRef .tc main_arg2) :=
  (val5_keep V main_arg2 (by decide)).trans (val4_main_arg2 V)
theorem val5_main_arg3 : val5 V (no_index (Proc.devRef .tc main_arg3)) = V (Proc.devRef .tc main_arg3) :=
  (val5_keep V main_arg3 (by decide)).trans (val4_main_arg3 V)
theorem val5_main_arg4 : val5 V (no_index (Proc.devRef .tc main_arg4)) = V (Proc.devRef .tc main_arg4) :=
  (val5_keep V main_arg4 (by decide)).trans (val4_main_arg4 V)
theorem val5_main_arg5 : val5 V (no_index (Proc.devRef .tc main_arg5)) = V (Proc.devRef .tc main_arg5) :=
  (val5_keep V main_arg5 (by decide)).trans (val4_main_arg5 V)
theorem val5_main_arg6 : val5 V (no_index (Proc.devRef .tc main_arg6)) = V (Proc.devRef .tc main_arg6) :=
  (val5_keep V main_arg6 (by decide)).trans (val4_main_arg6 V)
theorem val5_main_arg7 : val5 V (no_index (Proc.devRef .tc main_arg7)) = V (Proc.devRef .tc main_arg7) :=
  (val5_keep V main_arg7 (by decide)).trans (val4_main_arg7 V)
theorem val5_main_arg8 : val5 V (no_index (Proc.devRef .tc main_arg8)) = V (Proc.devRef .tc main_arg8) :=
  (val5_keep V main_arg8 (by decide)).trans (val4_main_arg8 V)
theorem val5_main_v37 : val5 V (no_index (Proc.devRef .tc main_v37)) = aggOfV V :=
  (val5_keep V main_v37 (by decide)).trans (val4_main_v37 V)
theorem val5_main_v40 : val5 V (no_index (Proc.devRef .tc main_v40)) = RefStages.meanOf (aggOfV V) :=
  (val5_keep V main_v40 (by decide)).trans (val4_main_v40 V)
theorem val5_main_v41 : val5 V (no_index (Proc.devRef .tc main_v41)) = RefStages.varOf (aggOfV V) := by
  unfold val5
  rw [opsVar_main_v41 (val4 V) (val4_main_c_7 V)]
  simp only [val4_main_v37]

/-- The contents after the centring and the reciprocal standard deviation (stretch 6 of 8). -/
def val6 : Valuation τ sig (Elt Ideal) := after (opsC (F := Ideal)) (val5 V)
/-- A buffer stretch 6 does not write keeps its contents through it. -/
theorem val6_keep (r : Ref sig .tc) (h : r ∉ opsC_W) :
    val6 V (Proc.devRef .tc r) = val5 V (Proc.devRef .tc r) :=
  after_of_writes_sub (opsC (F := Ideal)) _ opsC_writes h
theorem val6_main_arg0 : val6 V (no_index (Proc.devRef .tc main_arg0)) = V (Proc.devRef .tc main_arg0) :=
  (val6_keep V main_arg0 (by decide)).trans (val5_main_arg0 V)
theorem val6_main_arg1 : val6 V (no_index (Proc.devRef .tc main_arg1)) = V (Proc.devRef .tc main_arg1) :=
  (val6_keep V main_arg1 (by decide)).trans (val5_main_arg1 V)
theorem val6_main_arg2 : val6 V (no_index (Proc.devRef .tc main_arg2)) = V (Proc.devRef .tc main_arg2) :=
  (val6_keep V main_arg2 (by decide)).trans (val5_main_arg2 V)
theorem val6_main_arg3 : val6 V (no_index (Proc.devRef .tc main_arg3)) = V (Proc.devRef .tc main_arg3) :=
  (val6_keep V main_arg3 (by decide)).trans (val5_main_arg3 V)
theorem val6_main_arg4 : val6 V (no_index (Proc.devRef .tc main_arg4)) = V (Proc.devRef .tc main_arg4) :=
  (val6_keep V main_arg4 (by decide)).trans (val5_main_arg4 V)
theorem val6_main_arg5 : val6 V (no_index (Proc.devRef .tc main_arg5)) = V (Proc.devRef .tc main_arg5) :=
  (val6_keep V main_arg5 (by decide)).trans (val5_main_arg5 V)
theorem val6_main_arg6 : val6 V (no_index (Proc.devRef .tc main_arg6)) = V (Proc.devRef .tc main_arg6) :=
  (val6_keep V main_arg6 (by decide)).trans (val5_main_arg6 V)
theorem val6_main_arg7 : val6 V (no_index (Proc.devRef .tc main_arg7)) = V (Proc.devRef .tc main_arg7) :=
  (val6_keep V main_arg7 (by decide)).trans (val5_main_arg7 V)
theorem val6_main_arg8 : val6 V (no_index (Proc.devRef .tc main_arg8)) = V (Proc.devRef .tc main_arg8) :=
  (val6_keep V main_arg8 (by decide)).trans (val5_main_arg8 V)
theorem val6_main_v44 : val6 V (no_index (Proc.devRef .tc main_v44)) = subf (aggOfV V) (RefStages.rowB (RefStages.meanOf (aggOfV V))) := by
  unfold val6
  rw [opsC_main_v44 (val5 V)]
  simp only [val5_main_v37, val5_main_v40]
theorem val6_main_v48 : val6 V (no_index (Proc.devRef .tc main_v48)) = broadcastInDim S1x128 ![1] bcast_S128_S1x128_1 (RefStages.rstdOf (aggOfV V)) := by
  unfold val6
  rw [opsC_main_v48 (val5 V)]
  simp only [val5_main_v41, RefStages.rstdOf]

/-- The contents after the scaling, the shift and the residual sum (stretch 7 of 8). -/
def val7 : Valuation τ sig (Elt Ideal) := after (opsD (F := Ideal)) (val6 V)
/-- A buffer stretch 7 does not write keeps its contents through it. -/
theorem val7_keep (r : Ref sig .tc) (h : r ∉ opsD_W) :
    val7 V (Proc.devRef .tc r) = val6 V (Proc.devRef .tc r) :=
  after_of_writes_sub (opsD (F := Ideal)) _ opsD_writes h
theorem val7_main_arg0 : val7 V (no_index (Proc.devRef .tc main_arg0)) = V (Proc.devRef .tc main_arg0) :=
  (val7_keep V main_arg0 (by decide)).trans (val6_main_arg0 V)
theorem val7_main_arg1 : val7 V (no_index (Proc.devRef .tc main_arg1)) = V (Proc.devRef .tc main_arg1) :=
  (val7_keep V main_arg1 (by decide)).trans (val6_main_arg1 V)
theorem val7_main_arg2 : val7 V (no_index (Proc.devRef .tc main_arg2)) = V (Proc.devRef .tc main_arg2) :=
  (val7_keep V main_arg2 (by decide)).trans (val6_main_arg2 V)
theorem val7_main_arg3 : val7 V (no_index (Proc.devRef .tc main_arg3)) = V (Proc.devRef .tc main_arg3) :=
  (val7_keep V main_arg3 (by decide)).trans (val6_main_arg3 V)
theorem val7_main_arg4 : val7 V (no_index (Proc.devRef .tc main_arg4)) = V (Proc.devRef .tc main_arg4) :=
  (val7_keep V main_arg4 (by decide)).trans (val6_main_arg4 V)
theorem val7_main_arg5 : val7 V (no_index (Proc.devRef .tc main_arg5)) = V (Proc.devRef .tc main_arg5) :=
  (val7_keep V main_arg5 (by decide)).trans (val6_main_arg5 V)
theorem val7_main_arg6 : val7 V (no_index (Proc.devRef .tc main_arg6)) = V (Proc.devRef .tc main_arg6) :=
  (val7_keep V main_arg6 (by decide)).trans (val6_main_arg6 V)
theorem val7_main_arg7 : val7 V (no_index (Proc.devRef .tc main_arg7)) = V (Proc.devRef .tc main_arg7) :=
  (val7_keep V main_arg7 (by decide)).trans (val6_main_arg7 V)
theorem val7_main_arg8 : val7 V (no_index (Proc.devRef .tc main_arg8)) = V (Proc.devRef .tc main_arg8) :=
  (val7_keep V main_arg8 (by decide)).trans (val6_main_arg8 V)
theorem val7_main_v57 : val7 V (no_index (Proc.devRef .tc main_v57)) = RefStages.normOf (V (Proc.devRef .tc main_arg0)) (aggOfV V) (V (Proc.devRef .tc main_arg7)) (V (Proc.devRef .tc main_arg8)) := by
  unfold val7
  rw [opsD_main_v57 (val6 V)]
  simp only [val6_main_v44, val6_main_v48, val6_main_arg0, val6_main_arg7, val6_main_arg8, RefStages.normOf, RefStages.rowB]

/-- The contents after the last softplus call (stretch 8 of 8). -/
def val8 : Valuation τ sig (Elt Ideal) := after (opsSp0 (F := Ideal)) (val7 V)
/-- A buffer stretch 8 does not write keeps its contents through it. -/
theorem val8_keep (r : Ref sig .tc) (h : r ∉ opsSp0_W) :
    val8 V (Proc.devRef .tc r) = val7 V (Proc.devRef .tc r) :=
  after_of_writes_sub (opsSp0 (F := Ideal)) _ opsSp0_writes h
theorem val8_main_arg0 : val8 V (no_index (Proc.devRef .tc main_arg0)) = V (Proc.devRef .tc main_arg0) :=
  (val8_keep V main_arg0 (by decide)).trans (val7_main_arg0 V)
theorem val8_main_arg1 : val8 V (no_index (Proc.devRef .tc main_arg1)) = V (Proc.devRef .tc main_arg1) :=
  (val8_keep V main_arg1 (by decide)).trans (val7_main_arg1 V)
theorem val8_main_arg2 : val8 V (no_index (Proc.devRef .tc main_arg2)) = V (Proc.devRef .tc main_arg2) :=
  (val8_keep V main_arg2 (by decide)).trans (val7_main_arg2 V)
theorem val8_main_arg3 : val8 V (no_index (Proc.devRef .tc main_arg3)) = V (Proc.devRef .tc main_arg3) :=
  (val8_keep V main_arg3 (by decide)).trans (val7_main_arg3 V)
theorem val8_main_arg4 : val8 V (no_index (Proc.devRef .tc main_arg4)) = V (Proc.devRef .tc main_arg4) :=
  (val8_keep V main_arg4 (by decide)).trans (val7_main_arg4 V)
theorem val8_main_arg5 : val8 V (no_index (Proc.devRef .tc main_arg5)) = V (Proc.devRef .tc main_arg5) :=
  (val8_keep V main_arg5 (by decide)).trans (val7_main_arg5 V)
theorem val8_main_arg6 : val8 V (no_index (Proc.devRef .tc main_arg6)) = V (Proc.devRef .tc main_arg6) :=
  (val8_keep V main_arg6 (by decide)).trans (val7_main_arg6 V)
theorem val8_main_arg7 : val8 V (no_index (Proc.devRef .tc main_arg7)) = V (Proc.devRef .tc main_arg7) :=
  (val8_keep V main_arg7 (by decide)).trans (val7_main_arg7 V)
theorem val8_main_arg8 : val8 V (no_index (Proc.devRef .tc main_arg8)) = V (Proc.devRef .tc main_arg8) :=
  (val8_keep V main_arg8 (by decide)).trans (val7_main_arg8 V)
theorem val8_main_v58 : val8 V (no_index (Proc.devRef .tc main_v58)) = RefStages.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold val8
  rw [opsSp0_main_v58 (val7 V)]
  simp only [val7_main_v57, RefStages.refOut, aggOfV]

/-- The whole line's contents are the last stage's. -/
theorem after_ops : after (ops (F := Ideal)) V = val8 V := by
  simp only [ops, after_append, val8, val7, val6, val5, val4, val3, val2, val1, val0]

end Values

/-! ## The run -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem ops_sub : (ops : List (HloOp τ sig (Elt F))).Forall fun op => op.bufs ⊆ tcRefs τ sig :=
  forall_append opsA1_sub (forall_append opsA2_sub (forall_append opsSp_sub (forall_append opsB_sub (forall_append opsVar_sub (forall_append opsC_sub (forall_append opsD_sub (opsSp0_sub)))))))

theorem ops_fresh : ∀ op ∈ (ops : List (HloOp τ sig (Elt F))), op.fresh = ∅ := by
  intro op h
  simp only [ops, List.mem_append] at h
  rcases h with h | h | h | h | h | h | h | h
  exacts [opsA1_fresh op h, opsA2_fresh op h, opsSp_fresh op h, opsB_fresh op h, opsVar_fresh op h, opsC_fresh op h, opsD_fresh op h, opsSp0_fresh op h]

/-- On every device, at the extended reals, from any memory with zero counters: every weakly fair execution of @main
    terminates with the result buffer at `RefStages.refOut` of the argument arrays' launch contents and the argument
    arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58) = RefStages.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v58).trans ((congrFun (after_ops _) _).trans (val8_main_v58 _)),
      (h c main_arg0).trans ((congrFun (after_ops _) _).trans (val8_main_arg0 _)),
      (h c main_arg1).trans ((congrFun (after_ops _) _).trans (val8_main_arg1 _)),
      (h c main_arg2).trans ((congrFun (after_ops _) _).trans (val8_main_arg2 _)),
      (h c main_arg3).trans ((congrFun (after_ops _) _).trans (val8_main_arg3 _)),
      (h c main_arg4).trans ((congrFun (after_ops _) _).trans (val8_main_arg4 _)),
      (h c main_arg5).trans ((congrFun (after_ops _) _).trans (val8_main_arg5 _)),
      (h c main_arg6).trans ((congrFun (after_ops _) _).trans (val8_main_arg6 _)),
      (h c main_arg7).trans ((congrFun (after_ops _) _).trans (val8_main_arg7 _)),
      (h c main_arg8).trans ((congrFun (after_ops _) _).trans (val8_main_arg8 _))⟩)
    (run_seq scopedRefs_eq scopedSems_eq defs main (fun _ => ops) main_eq (fun _ => ops_sub) m ρ (fun _ => ops_fresh))

end Cert.ReferenceIdeal.RefRun

end
-- ==== Proof.lean ====
/-
  The proof of `Cert.Claim`: a graph convolution layer, tiled, against its plain reference.

  Per edge the layer forms the 266-wide input [h[src], h[dst], edge_feat], two logits from it (a 266 x 128 weight
  matrix and a bias each), and the message sigmoid(gate logit) * softplus(candidate logit); it adds every edge's
  message into the row of its source node, batch-normalises the 50000 node rows (column mean, biased column
  variance, 1 / sqrt(var + eps), scale gamma, shift beta), adds the node features and applies softplus.

  The tiled program computes the messages in 196 blocks of 4096 edges (the contraction in three stretches,
  128 + 128 + 10, which is the same sum), pads the edges to 802816 rows with source id 50000 — outside the node
  range, so the scatter-add drops them —, and applies the normalisation in 13 blocks of 4096 node rows with the
  affine map folded into one scale row and one shift row, which is the reference's centred form by distributivity
  on the REALS: under the precondition (every float input finite) every quantity involved is a real number.

  The three frames: the two tiled programs' are the generated frame certificates; the reference's is its run
  (Proof/RefRun.lean) with the result dropped. The idealisation rewrote nothing, so `preserves` is trivial.
  `algebraic`: both runs end with the result buffer at ONE term, the reference's stage functions `refOut` of the
  nine argument arrays (the tiled program's by Proof/KerRun.lean and Proof/KerValue.lean).
-/
import proofs.«121464_j6270652252664_2_alg».proof.Defs
import proofs.«121464_j6270652252664_2_alg».proof.Proof.Gen.Kernel
import proofs.«121464_j6270652252664_2_alg».proof.Proof.Gen.Kernel.Frame
import proofs.«121464_j6270652252664_2_alg».proof.Proof.Gen.KernelIdeal
import proofs.«121464_j6270652252664_2_alg».proof.Proof.Gen.KernelIdeal.Frame
import proofs.«121464_j6270652252664_2_alg».proof.Proof.Gen.ReferenceIdeal
import proofs.«121464_j6270652252664_2_alg».proof.Proof.Gen.Pre_finite_inputs
import proofs.«121464_j6270652252664_2_alg».proof.Proof.KerRun
import proofs.«121464_j6270652252664_2_alg».proof.Proof.KerValue
import proofs.«121464_j6270652252664_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run (Cert.ReferenceIdeal.defs (F := Ideal)) _ _).mono (fun _ h c => (h c).2) (Cert.ReferenceIdeal.RefRun.run m ρ)

/-- From memories that agree on the nine arguments both programs end with the result buffer at the reference's
    function `refOut` of those arrays. -/
theorem algebraic : Cert.algebraic_KernelIdeal_ReferenceIdeal := by
  intro m ρ m' ρ' hpre hagree
  refine ⟨fun c => Cert.ReferenceIdeal.RefStages.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run (Cert.KernelIdeal.defs (F := Ideal)) _ _).mono
      (fun r h c => ⟨(h c).1.trans (Cert.KernelIdeal.KerValue.value m ρ c hpre), (h c).2⟩)
      (Cert.KernelIdeal.KerRun.run_value (F := Ideal) m ρ)
  · refine (θ_run (Cert.ReferenceIdeal.defs (F := Ideal)) _ _).mono (fun r h c => ⟨?_, (h c).2⟩)
      (Cert.ReferenceIdeal.RefRun.run m' ρ')
    obtain ⟨e0, e1, e2, e3, e4, e5, e6, e7, e8⟩ := hagree c
    rw [(h c).1, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
